-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S64x16 .f32) (main_arg5 : FVec F S10000x16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S10000x16 .f32 := Host.absf main_arg5
  let main_cst_8 : FVec F S_ .f32 := constant S_ .f32 0x7F800000#32
  let main_v25 : FVec F S10000x16 .f32 := broadcastInDim S10000x16 ![] bcast_S_S10000x16 main_cst_8
  let main_v26 : IVec S10000x16 1 := cmpf .olt main_v24 main_v25
  let main_c_9 : IVec S_ 1 := constantI S_ 1 1#1
  let main_v27 : IVec S_ 1 := (fun x v => Host.reduce IntOp.andi x v reducesTo_S10000x16_S_d0_1 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x64 .f32) (main_arg3 : FVec F S64x16 .f32) (main_arg4 : FVec F S64x16 .f32) (main_arg5 : FVec F S10000x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S10000x32 : Shape := ⟨2, ![10000, 32]⟩
abbrev S64x32 : Shape := ⟨2, ![64, 32]⟩
abbrev S128x32 : Shape := ⟨2, ![128, 32]⟩
abbrev S400x10000 : Shape := ⟨2, ![400, 10000]⟩
abbrev S2000x32 : Shape := ⟨2, ![2000, 32]⟩
abbrev S400x16 : Shape := ⟨2, ![400, 16]⟩
abbrev S200x10000 : Shape := ⟨2, ![200, 10000]⟩
abbrev S10000x80 : Shape := ⟨2, ![10000, 80]⟩
abbrev S400x32 : Shape := ⟨2, ![400, 32]⟩
abbrev S200x16 : Shape := ⟨2, ![200, 16]⟩

abbrev nBuf : Space → Nat
  | .hbm => 8
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x16, .f32⟩
  | .hbm, ⟨4, _⟩ => ⟨S64x16, .f32⟩
  | .hbm, ⟨5, _⟩ => ⟨S10000x16, .f32⟩
  | .hbm, ⟨6, _⟩ => ⟨S10000x32, .f32⟩
  | .hbm, ⟨7, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S64x16, .f32⟩
  | .local _ .vmem, ⟨3, _⟩ => ⟨S64x16, .f32⟩
  | .local _ .vmem, ⟨4, _⟩ => ⟨S10000x32, .f32⟩
  | .local _ .vmem, ⟨5, _⟩ => ⟨S400x10000, .f32⟩
  | .local _ .vmem, ⟨6, _⟩ => ⟨S400x10000, .f32⟩
  | .local _ .vmem, ⟨7, _⟩ => ⟨S2000x32, .f32⟩
  | .local _ .vmem, ⟨8, _⟩ => ⟨S2000x32, .f32⟩
  | .local _ .vmem, ⟨9, _⟩ => ⟨S400x16, .f32⟩
  | .local _ .vmem, ⟨10, _⟩ => ⟨S400x16, .f32⟩
  | .local _ .vmem, ⟨11, _⟩ => ⟨S200x10000, .f32⟩
  | .local _ .vmem, ⟨12, _⟩ => ⟨S200x10000, .f32⟩
  | .local _ .vmem, ⟨13, _⟩ => ⟨S10000x80, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![105], ![false]⟩

def k1_cond1 (i : grid1.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c2000_i32 : BitVec 32 := 2000#32
  let v18 : BitVec 32 := Scalar.muli arg0 c2000_i32
  let v19 : Index := Scalar.indexCast v18
  let c0_7 : Index := 0#32
  ![v19.toNat, 0]
def k1_cond2 (i : grid1.Coords) : BitVec 1 :=
  let arg0 : BitVec 32 := BitVec.ofNat 32 (i 0).val
  let c5_i32_0 : BitVec 32 := 5#32
  let v3 : BitVec 1 := Scalar.cmpi .sge arg0 c5_i32_0
  let c30_i32 : BitVec 32 := 30#32
  let v4 : BitVec 1 := Scalar.cmpi .slt arg0 c30_i32
  let v5 : BitVec 1 := Scalar.andi v3 v4
  let v6 : BitVec 32 := Scalar.extui v5
  let c0_i32_1 : BitVec 32 := 0#32
  let v7 : BitVec 1 := Scalar.cmpi .ne v6 c0_i32_1
  v7

def k1_off2 (i : grid1.Coords) : Fin 2 → Nat :=
  let arg0 : BitVec 32 := BitVec.ofNat 32 (i 0).val
  let c5_i32_6 : BitVec 32 := 5#32
  let v16 : BitVec 32 := Scalar.subi arg0 c5_i32_6
  let c400_i32 : BitVec 32 := 400#32
  let v17 : BitVec 32 := Scalar.muli v16 c400_i32
  let v21 : Index := Scalar.indexCast v17
  let c32 : Index := 32#32
  ![v21.toNat, 32]
def k1_cond3 (i : grid1.Coords) : BitVec 1 :=
  let arg0 : BitVec 32 := BitVec.ofNat 32 (i 0).val
  let c30_i32_2 : BitVec 32 := 30#32
  let v8 : BitVec 1 := Scalar.cmpi .sge arg0 c30_i32_2
  let c55_i32 : BitVec 32 := 55#32
  let v9 : BitVec 1 := Scalar.cmpi .slt arg0 c55_i32
  let v10 : BitVec 1 := Scalar.andi v8 v9
  let v11 : BitVec 32 := Scalar.extui v10
  let c0_i32_3 : BitVec 32 := 0#32
  let v12 : BitVec 1 := Scalar.cmpi .ne v11 c0_i32_3
  v12

def k1_off3 (i : grid1.Coords) : Fin 2 → Nat :=
  let arg0 : BitVec 32 := BitVec.ofNat 32 (i 0).val
  let c30_i32_6 : BitVec 32 := 30#32
  let v16 : BitVec 32 := Scalar.subi arg0 c30_i32_6
  let c400_i32 : BitVec 32 := 400#32
  let v17 : BitVec 32 := Scalar.muli v16 c400_i32
  let v29 : Index := Scalar.indexCast v17
  let c64 : Index := 64#32
  ![v29.toNat, 64]
def k1_cond4 (i : grid1.Coords) : BitVec 1 :=
  let arg0 : BitVec 32 := BitVec.ofNat 32 (i 0).val
  let c55_i32_4 : BitVec 32 := 55#32
  let v13 : BitVec 1 := Scalar.cmpi .sge arg0 c55_i32_4
  let v14 : BitVec 32 := Scalar.extui v13
  let c0_i32_5 : BitVec 32 := 0#32
  let v15 : BitVec 1 := Scalar.cmpi .ne v14 c0_i32_5
  v15

def k1_off4 (i : grid1.Coords) : Fin 2 → Nat :=
  let arg0 : BitVec 32 := BitVec.ofNat 32 (i 0).val
  let c55_i32_6 : BitVec 32 := 55#32
  let v16 : BitVec 32 := Scalar.subi arg0 c55_i32_6
  let c200_i32 : BitVec 32 := 200#32
  let v17 : BitVec 32 := Scalar.muli v16 c200_i32
  let v18 : Index := Scalar.indexCast v17
  let c64 : Index := 64#32
  ![v18.toNat, 64]
def cc1_transform_0 (i : grid1.Coords) : Fin 2 → Nat :=
  let arg0 : BitVec 32 := BitVec.ofNat 32 (i 0).val
  let c30_i32 : BitVec 32 := 30#32
  let v0 : BitVec 1 := Scalar.cmpi .slt arg0 c30_i32
  let c5_i32 : BitVec 32 := 5#32
  let v1 : BitVec 32 := Scalar.subi arg0 c5_i32
  let c0_i32 : BitVec 32 := 0#32
  let c24_i32 : BitVec 32 := 24#32
  let v2 : BitVec 32 := Scalar.maxsi c0_i32 v1
  let v3 : BitVec 32 := Scalar.minsi c24_i32 v2
  let c55_i32 : BitVec 32 := 55#32
  let v4 : BitVec 1 := Scalar.cmpi .slt arg0 c55_i32
  let c30_i32_0 : BitVec 32 := 30#32
  let v5 : BitVec 32 := Scalar.subi arg0 c30_i32_0
  let c24_i32_1 : BitVec 32 := 24#32
  let v6 : BitVec 32 := Scalar.select v4 v5 c24_i32_1
  let v7 : BitVec 32 := Scalar.select v0 v3 v6
  let c0_i32_2 : BitVec 32 := 0#32
  let c0_i32_3 : BitVec 32 := 0#32
  ![v7.toNat, c0_i32_2.toNat]

def cc1_transform_1 (i : grid1.Coords) : Fin 2 → Nat :=
  let arg0 : BitVec 32 := BitVec.ofNat 32 (i 0).val
  let c0_i32 : BitVec 32 := 0#32
  let c4_i32 : BitVec 32 := 4#32
  let v0 : BitVec 32 := Scalar.maxsi c0_i32 arg0
  let v1 : BitVec 32 := Scalar.minsi c4_i32 v0
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c30_i32 : BitVec 32 := 30#32
  let v0 : BitVec 32 := Scalar.subi arg0 c30_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  ![v2.toNat, c0_i32_0.toNat]

def cc1_transform_3 (i : grid1.Coords) : Fin 2 → Nat :=
  let arg0 : BitVec 32 := BitVec.ofNat 32 (i 0).val
  let c55_i32 : BitVec 32 := 55#32
  let v0 : BitVec 1 := Scalar.cmpi .sge arg0 c55_i32
  let c55_i32_0 : BitVec 32 := 55#32
  let v1 : BitVec 32 := Scalar.subi arg0 c55_i32_0
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x16_S64x16_0_0 : ∀ a, (![0, 0] : Fin 2 → Nat) a + S64x16.size a ≤ S64x16.size a
  h_S64x16 : 0 < S64x16.numel
  concatenates_S64x16_S64x16_S64x32_d1 : Shape.Concatenates [S64x16, S64x16] S64x32 1
  inb_S128x64_S128x64_0_0 : ∀ a, (![0, 0] : Fin 2 → Nat) a + S128x64.size a ≤ S128x64.size a
  h_S128x64 : 0 < S128x64.numel
  inb_S10000x128_S10000x128_0_0 : ∀ a, (![0, 0] : Fin 2 → Nat) a + S10000x128.size a ≤ S10000x128.size a
  h_S10000x128 : 0 < S10000x128.numel
  inb_S10000x32_S10000x32_0_0 : ∀ a, (![0, 0] : Fin 2 → Nat) a + S10000x32.size a ≤ S10000x32.size a
  h_S10000x32 : 0 < S10000x32.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S400x10000_S400x10000_0_0 : ∀ a, (![0, 0] : Fin 2 → Nat) a + S400x10000.size a ≤ S400x10000.size a
  h_S400x10000 : 0 < S400x10000.numel
  inb_S10000x80_S10000x32_0_0 : ∀ a, (![0, 0] : Fin 2 → Nat) a + S10000x32.size a ≤ S10000x80.size a
  h_S400x32 : 0 < S400x32.numel
  shapeCasts_S400x32_S400x32 : S400x32.ShapeCasts S400x32
  inb_S10000x80_S10000x32_0_32 : ∀ a, (![0, 32] : Fin 2 → Nat) a + S10000x32.size a ≤ S10000x80.size a
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  h_S200x16 : 0 < S200x16.numel
  inb_S10000x80_S10000x16_0_64 : ∀ a, (![0, 64] : Fin 2 → Nat) a + S10000x16.size a ≤ S10000x80.size a
  h_S10000x16 : 0 < S10000x16.numel
  inb_S200x10000_S200x10000_0_0 : ∀ a, (![0, 0] : Fin 2 → Nat) a + S200x10000.size a ≤ S200x10000.size a
  h_S200x10000 : 0 < S200x10000.numel
  dot_S128x64_S64x32_S128x32_1_0_0_1_n_n_wf : DotDims.WF S128x64 S64x32 S128x32 [1] [0] [0] [1] [] []
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S200x16_S10000x16_S200x10000_1_1_0_0_n_n_wf : DotDims.WF S200x16 S10000x16 S200x10000 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  k1_off1_inb : ∀ i : grid1.Coords, ∀ (k1_h1 : k1_cond1 i = 1#1), ∀ a, (k1_off1 i) a + S2000x32.size a ≤ S10000x80.size a
  k1_off2_inb : ∀ i : grid1.Coords, ∀ (k1_h2 : k1_cond2 i = 1#1), ∀ a, (k1_off2 i) a + S400x32.size a ≤ S10000x80.size a
  k1_off3_inb : ∀ i : grid1.Coords, ∀ (k1_h3 : k1_cond3 i = 1#1), ∀ a, (k1_off3 i) a + S400x16.size a ≤ S10000x80.size a
  k1_off4_inb : ∀ i : grid1.Coords, ∀ (k1_h4 : k1_cond4 i = 1#1), ∀ a, (k1_off4 i) a + S200x16.size a ≤ S10000x80.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S10000x32.size a
  hwx1_1 : ∀ i : grid1.Coords, EltTy.bits .f32 = 32 ∨ (Rect.block (s := S10000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .f32 = 32 ∨ (Rect.block (s := S10000x16) S400x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)

variable [Facts₀]

def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S200x16_S10000x16_S200x10000_1_1_0_0_n_n : DotDims S200x16 S10000x16 S200x10000 where
  lhsContracting := [1]
  rhsContracting := [1]
  lhsNonContracting := [0]
  rhsNonContracting := [0]
  lhsBatch := []
  rhsBatch := []
  wf := dot_S200x16_S10000x16_S200x10000_1_1_0_0_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v0) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64x16 : Shape := ⟨2, ![64, 16]⟩
abbrev S10000x16 : Shape := ⟨2, ![10000, 16]⟩
abbrev S10000x64 : Shape := ⟨2, ![10000, 64]⟩
abbrev S_ : Shape := ⟨0, ![]⟩
abbrev S16x10000 : Shape := ⟨2, ![16, 10000]⟩

abbrev nBuf : Space → Nat
  | .hbm => 23
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x16, .f32⟩
  | .hbm, ⟨4, _⟩ => ⟨S64x16, .f32⟩
  | .hbm, ⟨5, _⟩ => ⟨S10000x16, .f32⟩
  | .hbm, ⟨6, _⟩ => ⟨S10000x64, .f32⟩
  | .hbm, ⟨7, _⟩ => ⟨S10000x64, .f32⟩
  | .hbm, ⟨8, _⟩ => ⟨S10000x16, .f32⟩
  | .hbm, ⟨9, _⟩ => ⟨S10000x16, .f32⟩
  | .hbm, ⟨10, _⟩ => ⟨S_, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S16x10000, .f32⟩
  | .hbm, ⟨22, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.R0.lean ====
import proofs.«168291_g55903294324759_cont_9to1c4b_598_14_alg».proof.Proof.Gen.Kernel.Launch
import proofs.«168291_g55903294324759_cont_9to1c4b_598_14_alg».proof.Proof.Gen.Kernel.Skeleton
import proofs.«168291_g55903294324759_cont_9to1c4b_598_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The first pallas_call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is `V`'s
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x128 := Rect.unit (s := S10000x128) ![0, 0] S10000x128.size inb_S10000x128_S10000x128_0_0
abbrev r0_b : Rect S128x64 := Rect.unit (s := S128x64) ![0, 0] S128x64.size inb_S128x64_S128x64_0_0
abbrev r0_w : Rect S64x16 := Rect.unit (s := S64x16) ![0, 0] S64x16.size inb_S64x16_S64x16_0_0
abbrev r0_o : Rect S10000x32 := Rect.unit (s := S10000x32) ![0, 0] S10000x32.size inb_S10000x32_S10000x32_0_0

/-! ## What the body leaves in the output window's buffer -/

/-- Window 4's staging buffer after the body, from the input windows' blocks (features, base weight, mean
    weight, log-std weight): its one store as a piece. -/
def out0_4 (x0 : Vec F S10000x128 .f32) (x1 : Vec F S128x64 .f32) (x2 : Vec F S64x16 .f32) (x3 : Vec F S64x16 .f32) : Vec F S10000x32 .f32 :=
  View.canon [⟨r0_o, k0_pay1 (View.ld x2 r0_w) (View.ld x3 r0_w) (View.ld x1 r0_b) (View.ld x0 r0_x)⟩]

/-- The one store is the whole buffer, so it covers it. -/
theorem cover0_4 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

/-! ## The body's triple -/

set_option maxHeartbeats 1000000 in
/-- The kernel body on whole staging memrefs, the inputs' at read contents and the output's at anything, runs to
    the continuation holding the inputs' as they were and the output's at `out0_4` of the inputs'. -/
theorem sound_kernel0 (c : Dev nD) (E : Set ℕ) (arg0 : Memref sig .tc .vmem S10000x128 .f32) (harg0 : arg0.IsWhole) (arg1 : Memref sig .tc .vmem S128x64 .f32) (harg1 : arg1.IsWhole)
    (arg2 : Memref sig .tc .vmem S64x16 .f32) (harg2 : arg2.IsWhole) (arg3 : Memref sig .tc .vmem S64x16 .f32) (harg3 : arg3.IsWhole)
    (arg4 : Memref sig .tc .vmem S10000x32 .f32) (harg4 : arg4.IsWhole)
    (x0 : Vec F S10000x128 .f32) (x1 : Vec F S128x64 .f32) (x2 : Vec F S64x16 .f32) (x3 : Vec F S64x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__p_body arg0 harg0 arg1 harg1 arg2 harg2 arg3 harg3 arg4 harg4) K := by
  simp only [cc0__p_body_eq_skeleton]; unfold cc0__p_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions
end Cert.Kernel.R0
end
-- ==== Proof.K.R1Conds.lean ====
/-
  The second call's schedule over its 105 grid points, in closed form.  Point `t` is in exactly one of four phases:
  `t < 5` copies 2000 rows of the projected table, `5 ≤ t < 30` stores a 400-row panel of the first aggregation,
  `30 ≤ t < 55` a 400-row panel of the latent sample, `55 ≤ t` writes a 200-row panel of the result.  Each fact is
  decided by evaluating the body's integer chain at every point of the grid.
-/
import proofs.«168291_g55903294324759_cont_9to1c4b_598_14_alg».proof.Proof.Gen.Kernel.Launch
import proofs.«168291_g55903294324759_cont_9to1c4b_598_14_alg».proof.Proof.Gen.Kernel.Points

noncomputable section

namespace Cert.Kernel.R1

open Idealize.ShloMosaic Idealize.ShloMosaic.TcCoe Idealize.SL.Sem Cert.Kernel Cert.Kernel.Gen

/-- The four phase conditions as the body computes them. -/
abbrev c1 (i : grid1.Coords) : Prop := k1_cond1 i = 1#1
abbrev c2 (i : grid1.Coords) : Prop := k1_cond2 i = 1#1
abbrev c3 (i : grid1.Coords) : Prop := k1_cond3 i = 1#1
abbrev c4 (i : grid1.Coords) : Prop := k1_cond4 i = 1#1

theorem hc1 : ∀ t : Fin cfg1.N, c1 (grid1.coords t) ↔ t.val < 5 :=
  (by decide +kernel : ∀ t : Fin grid1.N, c1 (grid1.coords t) ↔ t.val < 5)
theorem hc2 : ∀ t : Fin cfg1.N, c2 (grid1.coords t) ↔ (5 ≤ t.val ∧ t.val < 30) :=
  (by decide +kernel : ∀ t : Fin grid1.N, c2 (grid1.coords t) ↔ (5 ≤ t.val ∧ t.val < 30))
theorem hc3 : ∀ t : Fin cfg1.N, c3 (grid1.coords t) ↔ (30 ≤ t.val ∧ t.val < 55) :=
  (by decide +kernel : ∀ t : Fin grid1.N, c3 (grid1.coords t) ↔ (30 ≤ t.val ∧ t.val < 55))
theorem hc4 : ∀ t : Fin cfg1.N, c4 (grid1.coords t) ↔ 55 ≤ t.val :=
  (by decide +kernel : ∀ t : Fin grid1.N, c4 (grid1.coords t) ↔ 55 ≤ t.val)

/-- The row offsets the body computes, in each phase. -/
theorem off1 : ∀ t : Fin cfg1.N, t.val < 5 → k1_off1 (grid1.coords t) = ![2000 * t.val, 0] :=
  (by decide +kernel : ∀ t : Fin grid1.N, t.val < 5 → k1_off1 (grid1.coords t) = ![2000 * t.val, 0])
theorem off2 : ∀ t : Fin cfg1.N, 5 ≤ t.val → t.val < 30 → k1_off2 (grid1.coords t) = ![400 * (t.val - 5), 32] :=
  (by decide +kernel : ∀ t : Fin grid1.N, 5 ≤ t.val → t.val < 30 → k1_off2 (grid1.coords t) = ![400 * (t.val - 5), 32])
theorem off3 : ∀ t : Fin cfg1.N, 30 ≤ t.val → t.val < 55 → k1_off3 (grid1.coords t) = ![400 * (t.val - 30), 64] :=
  (by decide +kernel : ∀ t : Fin grid1.N, 30 ≤ t.val → t.val < 55 → k1_off3 (grid1.coords t) = ![400 * (t.val - 30), 64])
theorem off4 : ∀ t : Fin cfg1.N, 55 ≤ t.val → k1_off4 (grid1.coords t) = ![200 * (t.val - 55), 64] :=
  (by decide +kernel : ∀ t : Fin grid1.N, 55 ≤ t.val → k1_off4 (grid1.coords t) = ![200 * (t.val - 55), 64])

/-- Which block of its array each window is on, phase by phase. -/
theorem idx0_2 : ∀ t : Fin cfg1.N, 5 ≤ t.val → t.val < 30 → (cfg1.win 0).index t = ![t.val - 5, 0] :=
  (by decide +kernel : ∀ t : Fin grid1.N, 5 ≤ t.val → t.val < 30 → win1_0.index t = ![t.val - 5, 0])
theorem idx0_3 : ∀ t : Fin cfg1.N, 30 ≤ t.val → t.val < 55 → (cfg1.win 0).index t = ![t.val - 30, 0] :=
  (by decide +kernel : ∀ t : Fin grid1.N, 30 ≤ t.val → t.val < 55 → win1_0.index t = ![t.val - 30, 0])
theorem idx1_1 : ∀ t : Fin cfg1.N, t.val < 5 → (cfg1.win 1).index t = ![t.val, 0] :=
  (by decide +kernel : ∀ t : Fin grid1.N, t.val < 5 → win1_1.index t = ![t.val, 0])
theorem idx2_3 : ∀ t : Fin cfg1.N, 30 ≤ t.val → t.val < 55 → (cfg1.win 2).index t = ![t.val - 30, 0] :=
  (by decide +kernel : ∀ t : Fin grid1.N, 30 ≤ t.val → t.val < 55 → win1_2.index t = ![t.val - 30, 0])
theorem idx3_4 : ∀ t : Fin cfg1.N, 55 ≤ t.val → (cfg1.win 3).index t = ![t.val - 55, 0] :=
  (by decide +kernel : ∀ t : Fin grid1.N, 55 ≤ t.val → win1_3.index t = ![t.val - 55, 0])

/-- The result window is written back exactly in the last phase, and is idle (the body stores nothing into its buffer)
    exactly before it. -/
theorem flush3 : ∀ t : Fin cfg1.N, 55 ≤ t.val → (cfg1.win 3).flush t = true :=
  (by decide +kernel : ∀ t : Fin grid1.N, 55 ≤ t.val → win1_3.flush t = true)
theorem noFlush3 : ∀ t : Fin cfg1.N, t.val < 55 → (cfg1.win 3).flush t = false :=
  (by decide +kernel : ∀ t : Fin grid1.N, t.val < 55 → win1_3.flush t = false)
theorem idle3 : ∀ t : Fin cfg1.N, t.val < 55 → cfg1.idle 3 (grid1.coords t) = true :=
  (by decide +kernel : ∀ t : Fin grid1.N, t.val < 55 → idle1 3 (grid1.coords t) = true)
theorem live3 : ∀ t : Fin cfg1.N, 55 ≤ t.val → cfg1.idle 3 (grid1.coords t) = false :=
  (by decide +kernel : ∀ t : Fin grid1.N, 55 ≤ t.val → idle1 3 (grid1.coords t) = false)

end Cert.Kernel.R1

end
-- ==== Proof.K.Vals.lean ====
/-
  The kernel's whole-array values, for any float instance, written through the bodies' own arithmetic.

  The second call streams the adjacency matrix in panels of 400 rows.  With `proj` the 32-column table the first call
  leaves, panel `b` of the aggregate is the body's product of adjacency rows `[400 b, 400 b + 400)` with the whole of
  `proj`; panel `b` of the latent sample is the body's rectified product of those rows with the whole aggregate, split
  into mean and log-deviation columns and combined with the noise rows; and panel `b` (200 rows) of the result is the
  body's product of latent rows `[200 b, 200 b + 200)` with the transpose of the whole latent table.
-/
import proofs.«168291_g55903294324759_cont_9to1c4b_598_14_alg».proof.Proof.Gen.Kernel.Skeleton
import Idealize.ShloMosaic.Lib.ValueIdx

noncomputable section

namespace Cert.Kernel.Vals

open Idealize.ShloMosaic Idealize.ShloMosaic.ValueIdx Cert.Kernel Cert.Kernel.Gen

variable {F : FTy → Type} [FloatOps F]

/-- Rows `[h·b, h·b + h)` of an array of 10000 rows and `n` columns, as an array of `h` rows (`h · nb = 10000`). -/
def rowsOf (h nb n : Nat) (hh : h * nb = 10000) (A : Vec F ⟨2, ![10000, n]⟩ .f32) (b : Fin nb) : Vec F ⟨2, ![h, n]⟩ .f32 :=
  fun y => A (ix2 (⟨h * b.val + (y 0).val, by
      have h0 := idx2_lt0 y; have hb := b.isLt
      calc h * b.val + (y 0).val < h * b.val + h := by omega
        _ = h * (b.val + 1) := by ring
        _ ≤ h * nb := Nat.mul_le_mul_left h hb
        _ = 10000 := hh⟩ : Fin 10000) (⟨(y 1).val, idx2_lt1 y⟩ : Fin n))

/-- The aggregate `adj · proj`, panel by panel of 400 rows. -/
def aggA (adj : Vec F S10000x10000 .f32) (P : Vec F S10000x32 .f32) : Vec F S10000x32 .f32 :=
  fun i => k1_pay2 (rowsOf 400 25 10000 (by decide) adj ⟨(i 0).val / 400, by have := idx2_lt0 i; omega⟩) P
    (ix2 (⟨(i 0).val % 400, Nat.mod_lt _ (by decide)⟩ : Fin 400) (⟨(i 1).val, idx2_lt1 i⟩ : Fin 32))

/-- The latent sample, panel by panel of 400 rows. -/
def latA (adj : Vec F S10000x10000 .f32) (P : Vec F S10000x32 .f32) (noise : Vec F S10000x16 .f32) : Vec F S10000x16 .f32 :=
  fun i => k1_pay3 (rowsOf 400 25 10000 (by decide) adj ⟨(i 0).val / 400, by have := idx2_lt0 i; omega⟩) (aggA adj P)
    (rowsOf 400 25 16 (by decide) noise ⟨(i 0).val / 400, by have := idx2_lt0 i; omega⟩)
    (ix2 (⟨(i 0).val % 400, Nat.mod_lt _ (by decide)⟩ : Fin 400) (⟨(i 1).val, idx2_lt1 i⟩ : Fin 16))

/-- The result, panel by panel of 200 rows. -/
def outA (adj : Vec F S10000x10000 .f32) (P : Vec F S10000x32 .f32) (noise : Vec F S10000x16 .f32) : Vec F S10000x10000 .f32 :=
  fun i => k1_pay4 (rowsOf 200 50 16 (by decide) (latA adj P noise) ⟨(i 0).val / 200, by have := idx2_lt0 i; omega⟩) (latA adj P noise)
    (ix2 (⟨(i 0).val % 200, Nat.mod_lt _ (by decide)⟩ : Fin 200) (⟨(i 1).val, idx2_lt1 i⟩ : Fin 10000))

end Cert.Kernel.Vals

end
-- ==== Proof.K.R1Blocks.lean ====
import proofs.«168291_g55903294324759_cont_9to1c4b_598_14_alg».proof.Proof.Gen.Kernel.Launch
import proofs.«168291_g55903294324759_cont_9to1c4b_598_14_alg».proof.Proof.Gen.Kernel.Points
import proofs.«168291_g55903294324759_cont_9to1c4b_598_14_alg».proof.Proof.K.R1Conds
import proofs.«168291_g55903294324759_cont_9to1c4b_598_14_alg».proof.Proof.K.Vals
import Idealize.ShloMosaic.Lib.Pipeline.FrameBody
import Idealize.ShloMosaic.Lib.Pipeline.Value
import Idealize.ShloMosaic.Lib.Tactic

set_option maxRecDepth 16384

noncomputable section

namespace Cert.Kernel.R1

open Cert.Kernel Cert.Kernel.Gen Cert.Kernel.Vals
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

section Regions
-- the TensorCore's buffer contents when the region is entered
variable (V : (c : Dev nD) → (b : Ref sig .tc) → Buf (Elt F) ((c : Thread nD τ).loc b))

/-! # The second pallas_call (pipeline 1): its windows' blocks, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each block read as rows of its array

A block's coordinate in the array is, on each axis, the block index times the block's size plus the coordinate inside
the block; the block indices are the phases' closed forms, and every block spans all the columns. -/

theorem blk1_1 (c : Dev nD) (t : Fin cfg1.N) (h : t.val < 5) :
    (iblk1 V c 1 t : Vec F S2000x32 .f32) = rowsOf 2000 5 32 (by decide) (V c main_v0) ⟨t.val, by omega⟩ := by
  have hi := idx1_1 t h
  have hi0 : (cfg1.win 1).index t 0 = t.val := by rw [hi]; rfl
  have hi1 : (cfg1.win 1).index t 1 = 0 := by rw [hi]; rfl
  funext y
  unfold iblk1 rowsOf
  rw [View.read_apply]
  show V c main_v0 _ = V c main_v0 _
  congr 1
  funext a
  apply Fin.ext
  match a with
  | ⟨0, _⟩ => show (cfg1.win 1).index t 0 * 2000 + 1 * (y 0).val = 2000 * (t.val) + (y 0).val; rw [hi0]; omega
  | ⟨1, _⟩ => show (cfg1.win 1).index t 1 * 32 + 1 * (y 1).val = (y 1).val; rw [hi1]; omega

theorem blk0_2 (c : Dev nD) (t : Fin cfg1.N) (h5 : 5 ≤ t.val) (h30 : t.val < 30) :
    (iblk1 V c 0 t : Vec F S400x10000 .f32) = rowsOf 400 25 10000 (by decide) (V c main_arg0) ⟨t.val - 5, by omega⟩ := by
  have hi := idx0_2 t h5 h30
  have hi0 : (cfg1.win 0).index t 0 = t.val - 5 := by rw [hi]; rfl
  have hi1 : (cfg1.win 0).index t 1 = 0 := by rw [hi]; rfl
  funext y
  unfold iblk1 rowsOf
  rw [View.read_apply]
  show V c main_arg0 _ = V c main_arg0 _
  congr 1
  funext a
  apply Fin.ext
  match a with
  | ⟨0, _⟩ => show (cfg1.win 0).index t 0 * 400 + 1 * (y 0).val = 400 * (t.val - 5) + (y 0).val; rw [hi0]; omega
  | ⟨1, _⟩ => show (cfg1.win 0).index t 1 * 10000 + 1 * (y 1).val = (y 1).val; rw [hi1]; omega

theorem blk0_3 (c : Dev nD) (t : Fin cfg1.N) (h30 : 30 ≤ t.val) (h55 : t.val < 55) :
    (iblk1 V c 0 t : Vec F S400x10000 .f32) = rowsOf 400 25 10000 (by decide) (V c main_arg0) ⟨t.val - 30, by omega⟩ := by
  have hi := idx0_3 t h30 h55
  have hi0 : (cfg1.win 0).index t 0 = t.val - 30 := by rw [hi]; rfl
  have hi1 : (cfg1.win 0).index t 1 = 0 := by rw [hi]; rfl
  funext y
  unfold iblk1 rowsOf
  rw [View.read_apply]
  show V c main_arg0 _ = V c main_arg0 _
  congr 1
  funext a
  apply Fin.ext
  match a with
  | ⟨0, _⟩ => show (cfg1.win 0).index t 0 * 400 + 1 * (y 0).val = 400 * (t.val - 30) + (y 0).val; rw [hi0]; omega
  | ⟨1, _⟩ => show (cfg1.win 0).index t 1 * 10000 + 1 * (y 1).val = (y 1).val; rw [hi1]; omega

theorem blk2_3 (c : Dev nD) (t : Fin cfg1.N) (h30 : 30 ≤ t.val) (h55 : t.val < 55) :
    (iblk1 V c 2 t : Vec F S400x16 .f32) = rowsOf 400 25 16 (by decide) (V c main_arg5) ⟨t.val - 30, by omega⟩ := by
  have hi := idx2_3 t h30 h55
  have hi0 : (cfg1.win 2).index t 0 = t.val - 30 := by rw [hi]; rfl
  have hi1 : (cfg1.win 2).index t 1 = 0 := by rw [hi]; rfl
  funext y
  unfold iblk1 rowsOf
  rw [View.read_apply]
  show V c main_arg5 _ = V c main_arg5 _
  congr 1
  funext a
  apply Fin.ext
  match a with
  | ⟨0, _⟩ => show (cfg1.win 2).index t 0 * 400 + 1 * (y 0).val = 400 * (t.val - 30) + (y 0).val; rw [hi0]; omega
  | ⟨1, _⟩ => show (cfg1.win 2).index t 1 * 16 + 1 * (y 1).val = (y 1).val; rw [hi1]; omega

/-! ## The result window: its block read off any array, and its blocks' cover -/

/-- The result window's block at a point of the last phase, read off an array `G`, is 200 rows of `G`. -/
theorem read3 (G : Vec F S10000x10000 .f32) (t : Fin cfg1.N) (h : 55 ≤ t.val) :
    (((cfg1.win 3).blk t).view.read (Elt F) G : Vec F S200x10000 .f32)
      = rowsOf 200 50 10000 (by decide) G ⟨t.val - 55, by have := t.isLt; have : cfg1.N = 105 := N_1; omega⟩ := by
  have hi := idx3_4 t h
  have hi0 : (cfg1.win 3).index t 0 = t.val - 55 := by rw [hi]; rfl
  have hi1 : (cfg1.win 3).index t 1 = 0 := by rw [hi]; rfl
  funext y
  unfold rowsOf
  rw [View.read_apply]
  show G _ = G _
  congr 1
  funext a
  apply Fin.ext
  match a with
  | ⟨0, _⟩ => show (cfg1.win 3).index t 0 * 200 + 1 * (y 0).val = 200 * (t.val - 55) + (y 0).val; rw [hi0]; omega
  | ⟨1, _⟩ => show (cfg1.win 3).index t 1 * 10000 + 1 * (y 1).val = (y 1).val; rw [hi1]; omega

/-- Every index of the result array is in the block some point of the last phase writes back: row `r` is in the
    block of point `55 + r / 200`. -/
theorem cover3 (c : Dev nD) : ∀ i : ((cfg1.win 3).arr.view.loc (c.tc : Thread nD τ)).2.ty.Idx,
    ∃ t : Fin cfg1.N, (cfg1.win 3).flush t = true ∧ i ∈ ((cfg1.win 3).blk t).view.set := by
  intro i
  have hN : cfg1.N = 105 := N_1
  have h0 : (i 0 : Nat) < 10000 := (i 0).isLt
  have h1 : (i 1 : Nat) < 10000 := (i 1).isLt
  have ht : 55 + (i 0 : Nat) / 200 < cfg1.N := by omega
  have h55 : 55 ≤ (⟨55 + (i 0 : Nat) / 200, ht⟩ : Fin cfg1.N).val := Nat.le_add_right _ _
  refine ⟨⟨55 + (i 0 : Nat) / 200, ht⟩, flush3 _ h55, ?_⟩
  have hi := idx3_4 _ h55
  have hi0 : win1_3.index ⟨55 + (i 0 : Nat) / 200, ht⟩ 0 = (i 0 : Nat) / 200 := by
    rw [show win1_3.index ⟨55 + (i 0 : Nat) / 200, ht⟩ = _ from hi]; show 55 + (i 0 : Nat) / 200 - 55 = _; omega
  have hi1 : win1_3.index ⟨55 + (i 0 : Nat) / 200, ht⟩ 1 = 0 := by
    rw [show win1_3.index ⟨55 + (i 0 : Nat) / 200, ht⟩ = _ from hi]; rfl
  show i ∈ ((View.whole main_v1).slice (win1_3.rect ⟨55 + (i 0 : Nat) / 200, ht⟩)).set
  rw [View.set_slice_whole, Rect.mem_set_unit]
  intro a
  match a with
  | ⟨0, _⟩ =>
    show win1_3.index ⟨55 + (i 0 : Nat) / 200, ht⟩ 0 * 200 ≤ (i 0 : Nat) ∧ (i 0 : Nat) < win1_3.index ⟨55 + (i 0 : Nat) / 200, ht⟩ 0 * 200 + 200
    rw [hi0]; omega
  | ⟨1, _⟩ =>
    show win1_3.index ⟨55 + (i 0 : Nat) / 200, ht⟩ 1 * 10000 ≤ (i 1 : Nat) ∧ (i 1 : Nat) < win1_3.index ⟨55 + (i 0 : Nat) / 200, ht⟩ 1 * 10000 + 10000
    rw [hi1]; omega

end Regions
end Cert.Kernel.R1
end
-- ==== Proof.K.R1Body.lean ====
import proofs.«168291_g55903294324759_cont_9to1c4b_598_14_alg».proof.Proof.Gen.Kernel.Launch
import proofs.«168291_g55903294324759_cont_9to1c4b_598_14_alg».proof.Proof.Gen.Kernel.Skeleton
import proofs.«168291_g55903294324759_cont_9to1c4b_598_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.K.R1Conds
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The second call's body, phase by phase

At every grid point exactly one of the body's four conditionals is taken.  Each theorem below runs the body in one phase on
whole staging buffers and a whole scratch, and says what the buffers it touches hold afterwards:

* copy phase: the scratch with rows `[2000 t, 2000 t + 2000)` of columns 0–31 overwritten by the projected block;
* first aggregation: the scratch with a 400-row panel of columns 32–63 overwritten by the product of the adjacency
  panel with columns 0–31 of the whole scratch;
* latent phase: the scratch with a 400-row panel of columns 64–79 overwritten by the latent sample of that panel, computed
  from the adjacency panel, columns 32–63 of the whole scratch, and the noise panel;
* result phase: the result buffer holding the product of a 200-row panel of columns 64–79 with the transpose of all of
  columns 64–79; the scratch unchanged.
-/

/-- The whole rectangles of the staged blocks. -/
abbrev rAdj : Rect S400x10000 := Rect.unit (s := S400x10000) ![0, 0] S400x10000.size inb_S400x10000_S400x10000_0_0
abbrev rProjBlk : Rect S2000x32 := Rect.unit (s := S2000x32) ![0, 0] S2000x32.size inb_S2000x32_S2000x32_0_0
abbrev rNoise : Rect S400x16 := Rect.unit (s := S400x16) ![0, 0] S400x16.size inb_S400x16_S400x16_0_0
abbrev rOut : Rect S200x10000 := Rect.unit (s := S200x10000) ![0, 0] S200x10000.size inb_S200x10000_S200x10000_0_0
/-- The three column bands of the scratch, all rows: the projected table, the first aggregate, the latent sample. -/
abbrev rBandP : Rect S10000x80 := Rect.unit (s := S10000x80) ![0, 0] S10000x32.size inb_S10000x80_S10000x32_0_0
abbrev rBandG : Rect S10000x80 := Rect.unit (s := S10000x80) ![0, 32] S10000x32.size inb_S10000x80_S10000x32_0_32
abbrev rBandZ : Rect S10000x80 := Rect.unit (s := S10000x80) ![0, 64] S10000x16.size inb_S10000x80_S10000x16_0_64

/-- What a whole scratch memref holding `xs` holds after one more store `p`. -/
def scrAfter (M : Memref sig .tc .vmem S10000x80 .f32) (hM : M.IsWhole) (xs : Vec F S10000x80 .f32)
    (p : View.Piece (Elt F) S10000x80 .f32) : Vec F S10000x80 .f32 :=
  M.view.read (Elt F) (M.view.writes (Elt F) (hM.unread xs) [p])

set_option maxHeartbeats 2000000 in
/-- The copy phase. -/
theorem run1 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : c1 i) (h2 : ¬ c2 i) (h3 : ¬ c3 i) (h4 : ¬ c4 i)
    (x2 : Vec F S2000x32 .f32) (xs : Vec F S10000x80 .f32) (K : PUnit → sProp 𝕄) :
    iprop(owns (c : Thread nD τ) arg2 fullShare x2 ∗ owns (c : Thread nD τ) arg5 fullShare xs
        ∗ (iprop(owns (c : Thread nD τ) arg2 fullShare x2
            ∗ owns (c : Thread nD τ) arg5 fullShare (scrAfter arg5 harg5 xs
                ⟨Rect.unit (s := S10000x80) (k1_off1 i) S2000x32.size (k1_off1_inb i h1), k1_pay1 (View.ld x2 rProjBlk)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f2, %hf2, H2⟩, ⟨%fs, %hfs, HS⟩, Hk⟩
  obtain rfl := harg2.eq_unread hf2; obtain rfl := harg5.eq_unread hfs
  sl_exec (disch := first | exact h1 | exact h2 | exact h3 | exact h4)
  sl_step
  iapply Hk
  isplitl [H2]
  · iexists _; isplitr; · ipureintro; exact hf2
    iexact H2
  iexists _; isplitr
  swap; · iexact HS
  ipureintro
  unfold scrAfter
  rw [View.readAt_eq_ld, hf2]

set_option maxHeartbeats 2000000 in
/-- The first aggregation. -/
theorem run2 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : c2 i) (h3 : ¬ c3 i) (h4 : ¬ c4 i)
    (x1 : Vec F S400x10000 .f32) (xs : Vec F S10000x80 .f32) (K : PUnit → sProp 𝕄) :
    iprop(owns (c : Thread nD τ) arg1 fullShare x1 ∗ owns (c : Thread nD τ) arg5 fullShare xs
        ∗ (iprop(owns (c : Thread nD τ) arg1 fullShare x1
            ∗ owns (c : Thread nD τ) arg5 fullShare (scrAfter arg5 harg5 xs
                ⟨Rect.unit (s := S10000x80) (k1_off2 i) S400x32.size (k1_off2_inb i h2), k1_pay2 (View.ld x1 rAdj) (View.ld xs rBandP)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f1, %hf1, H1⟩, ⟨%fs, %hfs, HS⟩, Hk⟩
  obtain rfl := harg1.eq_unread hf1; obtain rfl := harg5.eq_unread hfs
  sl_exec (disch := first | exact h1 | exact h2 | exact h3 | exact h4)
  sl_step
  iapply Hk
  isplitl [H1]
  · iexists _; isplitr; · ipureintro; exact hf1
    iexact H1
  iexists _; isplitr
  swap; · iexact HS
  ipureintro
  unfold scrAfter
  rw [View.readAt_eq_ld, View.readAt_eq_ld, hf1, hfs]

set_option maxHeartbeats 2000000 in
/-- The latent phase. -/
theorem run3 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : ¬ c2 i) (h3 : c3 i) (h4 : ¬ c4 i)
    (x1 : Vec F S400x10000 .f32) (x3 : Vec F S400x16 .f32) (xs : Vec F S10000x80 .f32) (K : PUnit → sProp 𝕄) :
    iprop(owns (c : Thread nD τ) arg1 fullShare x1 ∗ owns (c : Thread nD τ) arg3 fullShare x3 ∗ owns (c : Thread nD τ) arg5 fullShare xs
        ∗ (iprop(owns (c : Thread nD τ) arg1 fullShare x1 ∗ owns (c : Thread nD τ) arg3 fullShare x3
            ∗ owns (c : Thread nD τ) arg5 fullShare (scrAfter arg5 harg5 xs
                ⟨Rect.unit (s := S10000x80) (k1_off3 i) S400x16.size (k1_off3_inb i h3), k1_pay3 (View.ld x1 rAdj) (View.ld xs rBandG) (View.ld x3 rNoise)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f1, %hf1, H1⟩, ⟨%f3, %hf3, H3⟩, ⟨%fs, %hfs, HS⟩, Hk⟩
  obtain rfl := harg1.eq_unread hf1; obtain rfl := harg3.eq_unread hf3; obtain rfl := harg5.eq_unread hfs
  sl_exec (disch := first | exact h1 | exact h2 | exact h3 | exact h4)
  sl_step
  iapply Hk
  isplitl [H1]
  · iexists _; isplitr; · ipureintro; exact hf1
    iexact H1
  isplitl [H3]
  · iexists _; isplitr; · ipureintro; exact hf3
    iexact H3
  iexists _; isplitr
  swap; · iexact HS
  ipureintro
  unfold scrAfter
  rw [View.readAt_eq_ld, View.readAt_eq_ld, View.readAt_eq_ld, hf1, hf3, hfs]

/-- The result buffer's one store covers it. -/
theorem coverOut (p0 : Vec F S200x10000 .f32) (y : S200x10000.Idx) :
    ∃ pc ∈ ([⟨rOut, p0⟩] : List (View.Piece (Elt F) S200x10000 .f32)), y ∈ pc.1.set :=
  View.cover_of_tiled [⟨rOut, p0⟩] S200x10000.size (by rfl) y

set_option maxHeartbeats 2000000 in
/-- The result phase. -/
theorem run4 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : ¬ c2 i) (h3 : ¬ c3 i) (h4 : c4 i)
    (xs : Vec F S10000x80 .f32) (K : PUnit → sProp 𝕄) :
    iprop((∃ d, owns (c : Thread nD τ) arg4 fullShare d) ∗ owns (c : Thread nD τ) arg5 fullShare xs
        ∗ (iprop(owns (c : Thread nD τ) arg4 fullShare
              (k1_pay4 (View.ld xs (Rect.unit (s := S10000x80) (k1_off4 i) S200x16.size (k1_off4_inb i h4))) (View.ld xs rBandZ))
            ∗ owns (c : Thread nD τ) arg5 fullShare xs) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%d4, %f4, -, H4⟩, ⟨%fs, %hfs, HS⟩, Hk⟩
  obtain rfl := harg5.eq_unread hfs
  sl_exec (disch := first | exact h1 | exact h2 | exact h3 | exact h4)
  sl_step
  iapply Hk
  isplitl [H4]
  · iexists _; isplitr
    swap; · iexact H4
    ipureintro
    rw [View.read_writes_eq_canon _ _ _ (coverOut _), View.canon_unit_zero (by funext a; fin_cases a <;> rfl),
      View.readAt_eq_ld, View.readAt_eq_ld, hfs]
  iexists _; isplitr; · ipureintro; exact hfs
  iexact HS

end Cert.Kernel.R1

end
-- ==== Proof.K.R1Inv.lean ====
/-
  What the scratch holds before grid point `n` of the second call: rows `[0, 2000 · min n 5)` of columns 0–31 hold the
  projected table; rows `[0, 400 · (min n 30 − 5))` of columns 32–63 the first aggregate; rows `[0, 400 · (min n 55 − 30))`
  of columns 64–79 the latent sample.  Nothing is said of the other entries (they hold whatever the scratch held at entry).
-/
import proofs.«168291_g55903294324759_cont_9to1c4b_598_14_alg».proof.Proof.K.R1Body
import proofs.«168291_g55903294324759_cont_9to1c4b_598_14_alg».proof.Proof.K.Vals

noncomputable section

namespace Cert.Kernel.R1

open Idealize.ShloMosaic Idealize.ShloMosaic.ValueIdx Cert.Kernel Cert.Kernel.Gen Cert.Kernel.Vals

variable {F : FTy → Type} [FloatOps F]

/-- The scratch invariant before point `n`. -/
def Inv (adj : Vec F S10000x10000 .f32) (PA : Vec F S10000x32 .f32) (noise : Vec F S10000x16 .f32) (n : ℕ)
    (xs : Vec F S10000x80 .f32) : Prop :=
  (∀ (r : Fin 10000) (j : Fin 32), r.val < 2000 * min n 5 →
      xs (ix2 r (⟨j.val, by omega⟩ : Fin 80)) = PA (ix2 r j)) ∧
  (∀ (r : Fin 10000) (j : Fin 32), r.val < 400 * (min n 30 - 5) →
      xs (ix2 r (⟨32 + j.val, by omega⟩ : Fin 80)) = aggA adj PA (ix2 r j)) ∧
  (∀ (r : Fin 10000) (e : Fin 16), r.val < 400 * (min n 55 - 30) →
      xs (ix2 r (⟨64 + e.val, by omega⟩ : Fin 80)) = latA adj PA noise (ix2 r e))

/-- Before the first point the invariant says nothing. -/
theorem Inv_zero (adj : Vec F S10000x10000 .f32) (PA : Vec F S10000x32 .f32) (noise : Vec F S10000x16 .f32)
    (xs : Vec F S10000x80 .f32) : Inv adj PA noise 0 xs :=
  ⟨fun r j h => absurd h (by simp), fun r j h => absurd h (by simp), fun r e h => absurd h (by simp)⟩

end Cert.Kernel.R1

end
-- ==== Proof.K.R1Dat.lean ====
import proofs.«168291_g55903294324759_cont_9to1c4b_598_14_alg».proof.Proof.Gen.Kernel.Launch
import proofs.«168291_g55903294324759_cont_9to1c4b_598_14_alg».proof.Proof.Gen.Kernel.Skeleton
import proofs.«168291_g55903294324759_cont_9to1c4b_598_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.K.R1Blocks
import proofs.«168291_g55903294324759_cont_9to1c4b_598_14_alg».proof.Proof.K.R1Inv
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx Cert.Kernel.Vals

/-! ## The second call's proof data

The scratch is carried from point to point: the region invariant before point `n` holds it at SOME contents satisfying
the scratch invariant `Inv … n` (what the earlier points have stored), beside the first call's staging buffers at anything
and the generator register.  The three input windows hold their blocks at every point.  The result window is idle before
point 55; from point 55 on the body leaves in it the product of latent rows `[200 (t − 55), 200 (t − 55) + 200)` with the
transpose of the whole latent table — a function of the arrays the region was entered with. -/

section
variable (V : (c : Dev nD) → (b : Ref sig .tc) → Buf (Elt F) ((c : Thread nD τ).loc b))

/-- The scratch, as a whole memref. -/
abbrev scM : Memref sig .tc .vmem S10000x80 .f32 := Memref.whole cc1_scratch0

/-- The arrays the region is entered with: the adjacency matrix, the projected table the first call left, the noise. -/
abbrev adjOf (c : Dev nD) : Vec F S10000x10000 .f32 := V c main_arg0
abbrev projOf (c : Dev nD) : Vec F S10000x32 .f32 := V c main_v0
abbrev noiseOf (c : Dev nD) : Vec F S10000x16 .f32 := V c main_arg5

/-- What the body leaves in the result window's buffer at a point of the last phase. -/
def out3 (c : Dev nD) (t : Fin cfg1.N) : Vec F S200x10000 .f32 :=
  k1_pay4 (rowsOf 200 50 16 (by decide) (latA (adjOf V c) (projOf V c) (noiseOf V c)) ⟨(t.val - 55) % 50, Nat.mod_lt _ (by decide)⟩)
    (latA (adjOf V c) (projOf V c) (noiseOf V c))

theorem out3_eq (c : Dev nD) (t : Fin cfg1.N) (h : 55 ≤ t.val) :
    out3 V c t = k1_pay4 (rowsOf 200 50 16 (by decide) (latA (adjOf V c) (projOf V c) (noiseOf V c))
      ⟨t.val - 55, by have := t.isLt; have : cfg1.N = 105 := N_1; omega⟩) (latA (adjOf V c) (projOf V c) (noiseOf V c)) := by
  have hN : t.val < 105 := lt_of_lt_of_eq t.isLt N_1
  have e : (⟨(t.val - 55) % 50, Nat.mod_lt _ (by decide)⟩ : Fin 50) = ⟨t.val - 55, by omega⟩ :=
    Fin.ext (Nat.mod_eq_of_lt (by omega))
  unfold out3; rw [e]

/-- The first call's staging buffers, which this call never touches, each whole at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- The region invariant before point `n`. -/
def PhiS (c : Dev nD) (n : ℕ) : sProp 𝕄 :=
  iprop(restS (F := F) c
    ∗ (∃ xs : Vec F S10000x80 .f32, ⌜Inv (adjOf V c) (projOf V c) (noiseOf V c) n xs⌝ ∗ owns (c : Thread nD τ) scM fullShare xs)
    ∗ (∃ r, prngReg c r))

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3 V c t
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := by
  dsimp only [dat1]; simp only [Fin.val_succ]

/-- The input windows are never idle. -/
theorem live0 (t : Fin cfg1.N) : cfg1.idle 0 (grid1.coords t) = false := rfl
theorem live1 (t : Fin cfg1.N) : cfg1.idle 1 (grid1.coords t) = false := rfl
theorem live2 (t : Fin cfg1.N) : cfg1.idle 2 (grid1.coords t) = false := rfl

/-- What the launch hands the region is the invariant before the first point: the scratch at anything. -/
theorem hin1 (c : Dev nD) : (Pipeline.ΦA spec1 c : sProp 𝕄) ⊢ (dat1 V c).Φ 0 := by
  rw [show (dat1 V c).Φ 0 = PhiS V c 0 from rfl]
  unfold Pipeline.ΦA PhiS restS
  rw [scopedRest1_eq]
  simp only [scM, owns_whole]
  iintro ⟨⟨H0, H1, H2, H3, H4, ⟨%f, HS⟩⟩, Hg⟩
  isplitl [H0 H1 H2 H3 H4]
  · isplitl [H0]; · iexact H0
    isplitl [H1]; · iexact H1
    isplitl [H2]; · iexact H2
    isplitl [H3]; · iexact H3
    iexact H4
  isplitl [HS]
  · iexists f; isplitr
    · ipureintro; exact Inv_zero _ _ _ _
    iexact HS
  iexact Hg

/-- After the last point the invariant gives the class's back: what the scratch holds is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val from rfl]
  unfold Pipeline.ΦA PhiS restS
  rw [scopedRest1_eq]
  simp only [scM, owns_whole]
  iintro ⟨⟨H0, H1, H2, H3, H4⟩, ⟨%xs, -, HS⟩, Hg⟩
  isplitl [H0 H1 H2 H3 H4 HS]
  · isplitl [H0]; · iexact H0
    isplitl [H1]; · iexact H1
    isplitl [H2]; · iexact H2
    isplitl [H3]; · iexact H3
    isplitl [H4]; · iexact H4
    iexists xs; iexact HS
  iexact Hg

end

end Cert.Kernel.R1

end
-- ==== Proof.K.Run.lean ====
/-
  The run of the whole program: two kernel regions in sequence, with no host operation between them.

  The buffer contents at the three boundaries are a fold from the launch memory: the first call's arrays at what its
  pipeline leaves, every other buffer as launched; then the second call's arrays at what its pipeline leaves, every other
  buffer as the first call left it.  Each region is a segment over the thread state "every unscoped buffer at the
  boundary's contents, the generator register at some state, nothing owed"; the second call's invariant carries its scratch,
  so it is entered from and left at the class invariant through the two entailments proved with its proof data.  The
  second call's body obligation is a hypothesis here.  Every final state holds every unscoped buffer at the last boundary's
  contents, from which both the arguments and the result are read.
-/
import proofs.«168291_g55903294324759_cont_9to1c4b_598_14_alg».proof.Proof.Gen.Kernel.Launch
import proofs.«168291_g55903294324759_cont_9to1c4b_598_14_alg».proof.Proof.Gen.Kernel.Skeleton
import proofs.«168291_g55903294324759_cont_9to1c4b_598_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168291_g55903294324759_cont_9to1c4b_598_14_alg».proof.Proof.K.R0
import proofs.«168291_g55903294324759_cont_9to1c4b_598_14_alg».proof.Proof.K.R1Dat

set_option maxRecDepth 16384

noncomputable section

namespace Cert.Kernel.RunM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch: what the first call is entered from. -/
abbrev W0 : Dev nD → Valuation τ sig (Elt F) := fun c b => (s₀ m ρ).mem ((c : Dev nD), b)
/-- The same read at the TensorCore's references (what the first call's proof data take). -/
abbrev V1 : (c : Dev nD) → (b : Ref sig .tc) → Buf (Elt F) ((c : Thread nD τ).loc b) := fun c b => W0 m ρ c b
/-- At the first call's exit: its arrays at what the pipeline leaves (the inputs as entered, the output's write-backs
    folded), every other buffer as entered. -/
def W2 (c : Dev nD) : Valuation τ sig (Elt F) :=
  Pipeline.withArrays spec0 c (W0 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (the first call's exit contents, the second call's entry contents). -/
abbrev V2 : (c : Dev nD) → (b : Ref sig .tc) → Buf (Elt F) ((c : Thread nD τ).loc b) := fun c b => W2 m ρ c b
/-- At the first call's exit each of its arrays holds what the pipeline leaves and every other buffer what it held at
    entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W4 (c : Dev nD) : Valuation τ sig (Elt F) :=
  Pipeline.withArrays spec1 c (W2 m ρ c) fun w => (R1.dat1 (V2 m ρ) c).arrAt w cfg1.N
theorem W4_arr (c : Dev nD) (w : Fin cfg1.W) :
    W4 m ρ c (Proc.devRef .tc (Pipeline.arrRef spec1 w)) = (R1.dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
/-- At the second call's exit each of its arrays holds what the pipeline leaves and every other buffer what it held at
    entry. -/
theorem hF1 (c : Dev nD) (w : Fin cfg1.W) : (R1.dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: a region reads an argument through an input window or bypasses it, so the fold
    at an argument's buffer walks back to the launch memory -/

/-- `main_arg0` ends as launched: the second call reads it through input window 0, the first call bypasses it. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((R1.dat1 (V2 m ρ) c).arrAt_in 0 rfl _).trans (R1.A_eq1 (V2 m ρ) c 0))
    _ = W0 m ρ c (Proc.devRef .tc main_arg0) := W2_of_ne m ρ c main_arg0 (by decide)
    _ = m ((c : Thread nD τ).loc main_arg0) := rfl
/-- `main_arg1` ends as launched: the second call bypasses it, the first call reads it through input window 0. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((R0.dat0 (V1 m ρ) c).arrAt_in 0 rfl _).trans (R0.A_eq0 (V1 m ρ) c 0))
    _ = m ((c : Thread nD τ).loc main_arg1) := rfl
/-- `main_arg2` ends as launched: the second call bypasses it, the first call reads it through input window 1. -/
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((R0.dat0 (V1 m ρ) c).arrAt_in 1 rfl _).trans (R0.A_eq0 (V1 m ρ) c 1))
    _ = m ((c : Thread nD τ).loc main_arg2) := rfl
/-- `main_arg3` ends as launched: the second call bypasses it, the first call reads it through input window 2. -/
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((R0.dat0 (V1 m ρ) c).arrAt_in 2 rfl _).trans (R0.A_eq0 (V1 m ρ) c 2))
    _ = m ((c : Thread nD τ).loc main_arg3) := rfl
/-- `main_arg4` ends as launched: the second call bypasses it, the first call reads it through input window 3. -/
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 3).trans (((R0.dat0 (V1 m ρ) c).arrAt_in 3 rfl _).trans (R0.A_eq0 (V1 m ρ) c 3))
    _ = m ((c : Thread nD τ).loc main_arg4) := rfl
/-- `main_arg5` ends as launched: the second call reads it through input window 2, the first call bypasses it. -/
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 2).trans (((R1.dat1 (V2 m ρ) c).arrAt_in 2 rfl _).trans (R1.A_eq1 (V2 m ρ) c 2))
    _ = W0 m ρ c (Proc.devRef .tc main_arg5) := W2_of_ne m ρ c main_arg5 (by decide)
    _ = m ((c : Thread nD τ).loc main_arg5) := rfl

/-! ### The boundary contents at the buffers the calls read and write -/

/-- The result's buffer ends at what the second call's pipeline leaves in its output window's array. -/
theorem W4_main_v1 (c : Dev nD) : W4 m ρ c (Proc.devRef .tc main_v1) = (R1.dat1 (V2 m ρ) c).arrAt 3 cfg1.N :=
  W4_arr m ρ c 3
/-- The second call finds in the intermediate table what the first call's pipeline leaves in its output window's array. -/
theorem V2_main_v0 (c : Dev nD) : V2 m ρ c main_v0 = (R0.dat0 (V1 m ρ) c).arrAt 4 cfg0.N :=
  W2_arr m ρ c 4
/-- The second call finds its two arguments as launched: the first call bypasses them. -/
theorem V2_main_arg0 (c : Dev nD) : V2 m ρ c main_arg0 = m ((c : Thread nD τ).loc main_arg0) :=
  (W2_of_ne m ρ c main_arg0 (by decide)).trans rfl
theorem V2_main_arg5 (c : Dev nD) : V2 m ρ c main_arg5 = m ((c : Thread nD τ).loc main_arg5) :=
  (W2_of_ne m ρ c main_arg5 (by decide)).trans rfl
/-- The first call finds its four arguments as launched. -/
theorem V1_main_arg1 (c : Dev nD) : V1 m ρ c main_arg1 = m ((c : Thread nD τ).loc main_arg1) := rfl
theorem V1_main_arg2 (c : Dev nD) : V1 m ρ c main_arg2 = m ((c : Thread nD τ).loc main_arg2) := rfl
theorem V1_main_arg3 (c : Dev nD) : V1 m ρ c main_arg3 = m ((c : Thread nD τ).loc main_arg3) := rfl
theorem V1_main_arg4 (c : Dev nD) : V1 m ρ c main_arg4 = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first call over the thread state: entered from every unscoped buffer at the launch contents, left at `W2`. Its
    arrays split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the second call — the generator register, no table, the scoped buffers no window stages —
    is its invariant before the first point. -/
theorem hin1_of (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (R1.dat1 (V2 m ρ) c).Φ 0 := by
  have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (Pipeline.ΦA spec1 c : sProp 𝕄) := by
    unfold Pipeline.ΦA
    iintro ⟨Hp, -, Hr⟩
    isplitl [Hr]; · iexact Hr
    iexact Hp
  exact h.trans (R1.hin1 (V2 m ρ) c)

/-- The second call's invariant after the last point gives back the generator register and those scoped buffers. -/
theorem hout1_of (c : Dev nD) :
    (R1.dat1 (V2 m ρ) c).Φ (Fin.last cfg1.N)
      ⊢ (iprop((∃ r, prngReg c r) ∗ BI.emp ∗ Pipeline.scopedRest (Pipeline.pin (pcfgs (F := F)) adm 1).spec c) : sProp 𝕄) := by
  have h : (Pipeline.ΦA spec1 c : sProp 𝕄)
      ⊢ (iprop((∃ r, prngReg c r) ∗ BI.emp ∗ Pipeline.scopedRest (Pipeline.pin (pcfgs (F := F)) adm 1).spec c) : sProp 𝕄) := by
    unfold Pipeline.ΦA
    iintro ⟨Hr, Hp⟩
    isplitl [Hp]; · iexact Hp
    isplitr; · iempintro
    iexact Hr
  exact (R1.hout1 (V2 m ρ) c).trans h

set_option backward.isDefEq.respectTransparency.types false in
/-- The second call over the thread state: entered from every unscoped buffer at `W2`, left at `W4` (what the launch
    reads at the end). Its arrays split out of the unscoped buffers and put back at the exit contents; the generator
    register into the invariant and out; nothing owed; no semaphore of the kernel's own. -/
def reg1 (hb1 : ∀ c : Dev nD, BodyObligation (R1.dat1 (F := F) (V2 m ρ) c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1_of m ρ c
  hout c := by
    rw [Pipeline.ownSems0_none]
    exact hout1_of m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per call. -/
abbrev segs (hb1 : ∀ c : Dev nD, BodyObligation (R1.dat1 (F := F) (V2 m ρ) c) (defs₀ (F := F)) Variants.none () Set.univ) :
    List (Pipeline.Seg (pcfgs (F := F)) adm (pdats m ρ) () defs₀ 𝒱₀ L lv) :=
  [ .region (reg0 m ρ),
    .region (reg1 m ρ hb1) ]
/-- The program IS the run of the segments. -/
theorem main_run (hb1 : ∀ c : Dev nD, BodyObligation (R1.dat1 (F := F) (V2 m ρ) c) (defs₀ (F := F)) Variants.none () Set.univ) (c : Dev nD) :
    main (F := F) c = Pipeline.Seg.run (segs m ρ hb1) :=
  main_segs (F := F) adm (pdats m ρ) () 𝒱₀ L lv (reg0 m ρ) (reg1 m ρ hb1) c

set_option backward.isDefEq.respectTransparency.types false in
/-- THE RUN. At the compiled mesh, from any memory with zero counters, every weakly fair execution of the program on the
    TensorCores terminates, nothing faulting, and every final state holds every unscoped buffer at the last boundary's
    contents `W4`: the launch over the two segments, the last thread state read against the final state. -/
theorem run_all (hb1 : ∀ c : Dev nD, BodyObligation (R1.dat1 (F := F) (V2 m ρ) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.Kernel.RunM

end
-- ==== Proof.K.R1InvSteps.lean ====
/-
  The scratch invariant of the second call across one grid point.

  A point of phase k overwrites one rectangle of the scratch — rows [o, o + h) of one column band — and leaves the
  rest.  So each clause of the invariant after the point is read at (r, col) either inside the new rectangle, where
  the scratch holds the payload at the local position (r − o, col − band), or outside it, where it holds what it
  held and the invariant before the point applies.  Inside, the payload is by definition the whole-array value at
  that row: a panel's local row a of panel b is global row h · b + a.
-/
import proofs.«168291_g55903294324759_cont_9to1c4b_598_14_alg».proof.Proof.K.R1Inv
import Idealize.ShloMosaic.Lib.WritesUnit

noncomputable section

namespace Cert.Kernel.R1

open Idealize.ShloMosaic Idealize.ShloMosaic.ValueIdx Cert.Kernel Cert.Kernel.Gen Cert.Kernel.Vals

variable {F : FTy → Type} [FloatOps F]

/-! ## Reading the scratch after one store -/

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- Inside the stored rectangle the scratch holds the payload at the local position. -/
theorem scrAfter_in (M : Memref sig .tc .vmem S10000x80 .f32) (hM : M.IsWhole) (xs : Vec F S10000x80 .f32)
    {off : Fin 2 → ℕ} (h w o c : ℕ) (inb : ∀ a, off a + (![h, w] : Fin 2 → ℕ) a ≤ S10000x80.size a)
    (pay : (⟨2, ![h, w]⟩ : Shape).Idx → F .f32) (heq : off = ![o, c]) (r : Fin 10000) (q : Fin 80) (a : Fin h) (b : Fin w)
    (hr : r.val = o + a.val) (hq : q.val = c + b.val) :
    scrAfter M hM xs ⟨Rect.unit (s := S10000x80) off ![h, w] inb, pay⟩ (ix2 r q) = pay (ix2 a b) := by
  unfold scrAfter
  exact View.read_writes_cons_unit_of_mem M.view (hM.unread xs) inb pay [] (ix2 r q) (ix2 a b) heq
    (Fin.forall_fin_two.mpr ⟨hr, hq⟩)

/-- Outside the stored rectangle, on some axis, the scratch holds what it held. -/
theorem scrAfter_out (M : Memref sig .tc .vmem S10000x80 .f32) (hM : M.IsWhole) (xs : Vec F S10000x80 .f32)
    {off off' size : Fin 2 → ℕ} (inb : ∀ a, off a + size a ≤ S10000x80.size a)
    (pay : (Rect.unit (s := S10000x80) off size inb).shape.Idx → F .f32) (y : S10000x80.Idx) (heq : off = off')
    (a : Fin 2) (ha : (y a).val < off' a ∨ off' a + size a ≤ (y a).val) :
    scrAfter M hM xs ⟨Rect.unit (s := S10000x80) off size inb, pay⟩ y = xs y := by
  unfold scrAfter
  exact (View.read_writes_cons_unit_of_not_mem M.view (hM.unread xs) inb pay [] y heq a ha).trans
    (congrFun (hM.read_unread xs) y)

/-! ## The panels of an array, and the whole-array values, at coordinates -/

/-- Row `a` of panel `b` is row `h · b + a` of the array. -/
theorem rowsOf_at (h nb n : Nat) (hh : h * nb = 10000) (A : Vec F ⟨2, ![10000, n]⟩ .f32) (b : Fin nb) (a : Fin h) (c : Fin n)
    (r : Fin 10000) (hr : r.val = h * b.val + a.val) : rowsOf h nb n hh A b (ix2 a c) = A (ix2 r c) := by
  unfold rowsOf
  exact congrArg A (ix2_congr hr.symm rfl)

/-- The aggregate at row `400 · b + a` is the body's product for panel `b`, at local row `a`. -/
theorem aggA_at (adj : Vec F S10000x10000 .f32) (PA : Vec F S10000x32 .f32) (r : Fin 10000) (j : Fin 32) (b : Fin 25)
    (a : Fin 400) (hr : r.val = 400 * b.val + a.val) :
    aggA adj PA (ix2 r j) = k1_pay2 (rowsOf 400 25 10000 (by decide) adj b) PA (ix2 a j) := by
  unfold aggA
  have hb : (⟨(ix2 r j 0).val / 400, by have := idx2_lt0 (ix2 r j); omega⟩ : Fin 25) = b :=
    Fin.ext (by show r.val / 400 = b.val; have := a.isLt; omega)
  have ha : (⟨(ix2 r j 0).val % 400, Nat.mod_lt _ (by decide)⟩ : Fin 400) = a :=
    Fin.ext (by show r.val % 400 = a.val; have := a.isLt; omega)
  rw [hb, ha]

/-- The latent sample at row `400 · b + a` is the body's value for panel `b`, at local row `a`. -/
theorem latA_at (adj : Vec F S10000x10000 .f32) (PA : Vec F S10000x32 .f32) (noise : Vec F S10000x16 .f32)
    (r : Fin 10000) (e : Fin 16) (b : Fin 25) (a : Fin 400) (hr : r.val = 400 * b.val + a.val) :
    latA adj PA noise (ix2 r e)
      = k1_pay3 (rowsOf 400 25 10000 (by decide) adj b) (aggA adj PA) (rowsOf 400 25 16 (by decide) noise b) (ix2 a e) := by
  unfold latA
  have hb : (⟨(ix2 r e 0).val / 400, by have := idx2_lt0 (ix2 r e); omega⟩ : Fin 25) = b :=
    Fin.ext (by show r.val / 400 = b.val; have := a.isLt; omega)
  have ha : (⟨(ix2 r e 0).val % 400, Nat.mod_lt _ (by decide)⟩ : Fin 400) = a :=
    Fin.ext (by show r.val % 400 = a.val; have := a.isLt; omega)
  rw [hb, ha]

/-! ## The loads of whole blocks and of whole column bands -/

/-- The copy phase's payload is the block it loaded. -/
theorem pay1_eq (v : Vec F S2000x32 .f32) : k1_pay1 v = v := by
  unfold k1_pay1
  exact (shapeCast_self _ _).trans (shapeCast_self _ _)

theorem zero2 : (![0, 0] : Fin 2 → ℕ) = fun _ => 0 := by funext a; fin_cases a <;> rfl

theorem ld_rProjBlk (x : Vec F S2000x32 .f32) : View.ld x rProjBlk = x := View.ld_unit_zero (S := S2000x32) zero2 _ x
theorem ld_rAdj (x : Vec F S400x10000 .f32) : View.ld x rAdj = x := View.ld_unit_zero (S := S400x10000) zero2 _ x
theorem ld_rNoise (x : Vec F S400x16 .f32) : View.ld x rNoise = x := View.ld_unit_zero (S := S400x16) zero2 _ x

/-- A load of `h` rows from row `o`, `w` columns from column `c`, read at local coordinates. -/
theorem ld_unit_at (xs : Vec F S10000x80 .f32) {off : Fin 2 → ℕ} (h w o c : ℕ)
    (inb : ∀ a, off a + (![h, w] : Fin 2 → ℕ) a ≤ S10000x80.size a) (heq : off = ![o, c]) (a : Fin h) (b : Fin w)
    (r : Fin 10000) (q : Fin 80) (hr : r.val = o + a.val) (hq : q.val = c + b.val) :
    View.ld xs (Rect.unit (s := S10000x80) off ![h, w] inb) (ix2 a b) = xs (ix2 r q) := by
  subst heq
  show xs ((Rect.unit (s := S10000x80) ![o, c] ![h, w] inb).idx (ix2 a b)) = xs (ix2 r q)
  refine congrArg xs (funext fun d => Fin.ext ?_)
  match d with
  | ⟨0, _⟩ => show o + 1 * a.val = r.val; omega
  | ⟨1, _⟩ => show c + 1 * b.val = q.val; omega

/-- The load of columns 0–31, all rows, is the projected table once every row of it is there. -/
theorem ldBandP (xs : Vec F S10000x80 .f32) (PA : Vec F S10000x32 .f32)
    (h : ∀ (r : Fin 10000) (j : Fin 32), xs (ix2 r (⟨j.val, by omega⟩ : Fin 80)) = PA (ix2 r j)) :
    View.ld xs rBandP = PA := by
  refine funext fun (x : (⟨2, ![10000, 32]⟩ : Shape).Idx) => ?_
  obtain ⟨r, j, rfl⟩ : ∃ (r : Fin 10000) (j : Fin 32), x = ix2 r j := ⟨x 0, x 1, eq_ix2 x⟩
  exact (ld_unit_at xs 10000 32 0 0 _ rfl r j r ⟨j.val, by omega⟩ (by omega) (by show j.val = 0 + j.val; omega)).trans (h r j)

/-- The load of columns 32–63, all rows, is the first aggregate once every row of it is there. -/
theorem ldBandG (xs : Vec F S10000x80 .f32) (G : Vec F S10000x32 .f32)
    (h : ∀ (r : Fin 10000) (j : Fin 32), xs (ix2 r (⟨32 + j.val, by omega⟩ : Fin 80)) = G (ix2 r j)) :
    View.ld xs rBandG = G := by
  refine funext fun (x : (⟨2, ![10000, 32]⟩ : Shape).Idx) => ?_
  obtain ⟨r, j, rfl⟩ : ∃ (r : Fin 10000) (j : Fin 32), x = ix2 r j := ⟨x 0, x 1, eq_ix2 x⟩
  exact (ld_unit_at xs 10000 32 0 32 _ rfl r j r ⟨32 + j.val, by omega⟩ (by omega) rfl).trans (h r j)

/-- The load of columns 64–79, all rows, is the latent sample once every row of it is there. -/
theorem ldBandZ (xs : Vec F S10000x80 .f32) (Z : Vec F S10000x16 .f32)
    (h : ∀ (r : Fin 10000) (e : Fin 16), xs (ix2 r (⟨64 + e.val, by omega⟩ : Fin 80)) = Z (ix2 r e)) :
    View.ld xs rBandZ = Z := by
  refine funext fun (x : (⟨2, ![10000, 16]⟩ : Shape).Idx) => ?_
  obtain ⟨r, e, rfl⟩ : ∃ (r : Fin 10000) (e : Fin 16), x = ix2 r e := ⟨x 0, x 1, eq_ix2 x⟩
  exact (ld_unit_at xs 10000 16 0 64 _ rfl r e r ⟨64 + e.val, by omega⟩ (by omega) rfl).trans (h r e)

variable (adj : Vec F S10000x10000 .f32) (PA : Vec F S10000x32 .f32) (noise : Vec F S10000x16 .f32)

/-! ## The invariant across one grid point of each phase -/

/-- A copy point adds 2000 rows of the projected table. -/
theorem inv_step1 (t : Fin cfg1.N) (ht : t.val < 5) (M : Memref sig .tc .vmem S10000x80 .f32) (hM : M.IsWhole)
    (xs : Vec F S10000x80 .f32) (x2 : Vec F S2000x32 .f32)
    (hx2 : x2 = rowsOf 2000 5 32 (by decide) PA ⟨t.val, ht⟩)
    (h : Inv adj PA noise t.val xs) (h1 : c1 (grid1.coords t)) :
    Inv adj PA noise (t.val + 1) (scrAfter M hM xs
      ⟨Rect.unit (s := S10000x80) (k1_off1 (grid1.coords t)) S2000x32.size (k1_off1_inb _ h1), k1_pay1 (View.ld x2 rProjBlk)⟩) := by
  subst hx2
  unfold Inv at h ⊢
  obtain ⟨hP, hG, hZ⟩ := h
  have heq := off1 t ht
  have m5 : min t.val 5 = t.val := Nat.min_eq_left (by omega)
  have m5' : min (t.val + 1) 5 = t.val + 1 := Nat.min_eq_left (by omega)
  have m30' : min (t.val + 1) 30 = t.val + 1 := Nat.min_eq_left (by omega)
  have m55' : min (t.val + 1) 55 = t.val + 1 := Nat.min_eq_left (by omega)
  refine ⟨fun r j hr => ?_, fun r j hr => ?_, fun r e hr => ?_⟩
  · rw [m5'] at hr
    by_cases hlt : r.val < 2000 * t.val
    · refine (scrAfter_out M hM xs _ _ _ heq 0 (Or.inl ?_)).trans (hP r j (by rw [m5]; exact hlt))
      exact hlt
    · have ha : r.val - 2000 * t.val < 2000 := by omega
      refine (scrAfter_in M hM xs 2000 32 (2000 * t.val) 0 _ _ heq r ⟨j.val, by omega⟩ ⟨r.val - 2000 * t.val, ha⟩ j
        (by show r.val = 2000 * t.val + (r.val - 2000 * t.val); omega) (by show j.val = 0 + j.val; omega)).trans ?_
      rw [pay1_eq, ld_rProjBlk]
      exact rowsOf_at 2000 5 32 _ PA ⟨t.val, ht⟩ _ j r (by show r.val = 2000 * t.val + (r.val - 2000 * t.val); omega)
  · rw [m30'] at hr; omega
  · rw [m55'] at hr; omega

/-- A point of the first aggregation adds a 400-row panel of the aggregate. -/
theorem inv_step2 (t : Fin cfg1.N) (ht : 5 ≤ t.val) (ht' : t.val < 30) (M : Memref sig .tc .vmem S10000x80 .f32) (hM : M.IsWhole)
    (xs : Vec F S10000x80 .f32) (x1 : Vec F S400x10000 .f32)
    (hx1 : x1 = rowsOf 400 25 10000 (by decide) adj ⟨t.val - 5, by omega⟩)
    (h : Inv adj PA noise t.val xs) (h2 : c2 (grid1.coords t)) :
    Inv adj PA noise (t.val + 1) (scrAfter M hM xs
      ⟨Rect.unit (s := S10000x80) (k1_off2 (grid1.coords t)) S400x32.size (k1_off2_inb _ h2), k1_pay2 (View.ld x1 rAdj) (View.ld xs rBandP)⟩) := by
  subst hx1
  unfold Inv at h ⊢
  obtain ⟨hP, hG, hZ⟩ := h
  have heq := off2 t ht ht'
  have m5 : min t.val 5 = 5 := Nat.min_eq_right (by omega)
  have m5' : min (t.val + 1) 5 = 5 := Nat.min_eq_right (by omega)
  have m30 : min t.val 30 = t.val := Nat.min_eq_left (by omega)
  have m30' : min (t.val + 1) 30 = t.val + 1 := Nat.min_eq_left (by omega)
  have m55' : min (t.val + 1) 55 = t.val + 1 := Nat.min_eq_left (by omega)
  have hband : View.ld xs rBandP = PA := ldBandP xs PA (fun r j => hP r j (by rw [m5]; have := r.isLt; omega))
  refine ⟨fun r j hr => ?_, fun r j hr => ?_, fun r e hr => ?_⟩
  · refine (scrAfter_out M hM xs _ _ _ heq 1 (Or.inl ?_)).trans (hP r j (by rw [m5]; have := r.isLt; omega))
    show j.val < 32
    exact j.isLt
  · rw [m30'] at hr
    by_cases hlt : r.val < 400 * (t.val - 5)
    · refine (scrAfter_out M hM xs _ _ _ heq 0 (Or.inl ?_)).trans (hG r j (by rw [m30]; exact hlt))
      exact hlt
    · have ha : r.val - 400 * (t.val - 5) < 400 := by omega
      refine (scrAfter_in M hM xs 400 32 (400 * (t.val - 5)) 32 _ _ heq r ⟨32 + j.val, by omega⟩ ⟨r.val - 400 * (t.val - 5), ha⟩ j
        (by show r.val = 400 * (t.val - 5) + (r.val - 400 * (t.val - 5)); omega) rfl).trans ?_
      rw [ld_rAdj, hband]
      exact (aggA_at adj PA r j ⟨t.val - 5, by omega⟩ ⟨r.val - 400 * (t.val - 5), ha⟩
        (by show r.val = 400 * (t.val - 5) + (r.val - 400 * (t.val - 5)); omega)).symm
  · rw [m55'] at hr; omega

/-- A point of the latent phase adds a 400-row panel of the latent sample. -/
theorem inv_step3 (t : Fin cfg1.N) (ht : 30 ≤ t.val) (ht' : t.val < 55) (M : Memref sig .tc .vmem S10000x80 .f32) (hM : M.IsWhole)
    (xs : Vec F S10000x80 .f32) (x1 : Vec F S400x10000 .f32) (x3 : Vec F S400x16 .f32)
    (hx1 : x1 = rowsOf 400 25 10000 (by decide) adj ⟨t.val - 30, by omega⟩)
    (hx3 : x3 = rowsOf 400 25 16 (by decide) noise ⟨t.val - 30, by omega⟩)
    (h : Inv adj PA noise t.val xs) (h3 : c3 (grid1.coords t)) :
    Inv adj PA noise (t.val + 1) (scrAfter M hM xs
      ⟨Rect.unit (s := S10000x80) (k1_off3 (grid1.coords t)) S400x16.size (k1_off3_inb _ h3), k1_pay3 (View.ld x1 rAdj) (View.ld xs rBandG) (View.ld x3 rNoise)⟩) := by
  subst hx1
  subst hx3
  unfold Inv at h ⊢
  obtain ⟨hP, hG, hZ⟩ := h
  have heq := off3 t ht ht'
  have m5 : min t.val 5 = 5 := Nat.min_eq_right (by omega)
  have m5' : min (t.val + 1) 5 = 5 := Nat.min_eq_right (by omega)
  have m30 : min t.val 30 = 30 := Nat.min_eq_right (by omega)
  have m30' : min (t.val + 1) 30 = 30 := Nat.min_eq_right (by omega)
  have m55 : min t.val 55 = t.val := Nat.min_eq_left (by omega)
  have m55' : min (t.val + 1) 55 = t.val + 1 := Nat.min_eq_left (by omega)
  have hband : View.ld xs rBandG = aggA adj PA :=
    ldBandG xs (aggA adj PA) (fun r j => hG r j (by rw [m30]; have := r.isLt; omega))
  refine ⟨fun r j hr => ?_, fun r j hr => ?_, fun r e hr => ?_⟩
  · refine (scrAfter_out M hM xs _ _ _ heq 1 (Or.inl ?_)).trans (hP r j (by rw [m5]; have := r.isLt; omega))
    show j.val < 64
    have := j.isLt; omega
  · refine (scrAfter_out M hM xs _ _ _ heq 1 (Or.inl ?_)).trans (hG r j (by rw [m30]; have := r.isLt; omega))
    show 32 + j.val < 64
    have := j.isLt; omega
  · rw [m55'] at hr
    by_cases hlt : r.val < 400 * (t.val - 30)
    · refine (scrAfter_out M hM xs _ _ _ heq 0 (Or.inl ?_)).trans (hZ r e (by rw [m55]; exact hlt))
      exact hlt
    · have ha : r.val - 400 * (t.val - 30) < 400 := by omega
      refine (scrAfter_in M hM xs 400 16 (400 * (t.val - 30)) 64 _ _ heq r ⟨64 + e.val, by omega⟩ ⟨r.val - 400 * (t.val - 30), ha⟩ e
        (by show r.val = 400 * (t.val - 30) + (r.val - 400 * (t.val - 30)); omega) rfl).trans ?_
      rw [ld_rAdj, ld_rNoise, hband]
      exact (latA_at adj PA noise r e ⟨t.val - 30, by omega⟩ ⟨r.val - 400 * (t.val - 30), ha⟩
        (by show r.val = 400 * (t.val - 30) + (r.val - 400 * (t.val - 30)); omega)).symm

/-- A result point leaves the scratch as it is, and its two loads read a 200-row panel of the latent sample and all
    of it. -/
theorem inv_step4 (t : Fin cfg1.N) (ht : 55 ≤ t.val) (xs : Vec F S10000x80 .f32)
    (h : Inv adj PA noise t.val xs) (h4 : c4 (grid1.coords t)) :
    Inv adj PA noise (t.val + 1) xs ∧
    k1_pay4 (View.ld xs (Rect.unit (s := S10000x80) (k1_off4 (grid1.coords t)) S200x16.size (k1_off4_inb _ h4))) (View.ld xs rBandZ)
      = k1_pay4 (rowsOf 200 50 16 (by decide) (latA adj PA noise) ⟨t.val - 55, by have := t.isLt; have : cfg1.N = 105 := N_1; omega⟩) (latA adj PA noise) := by
  have hN : t.val < 105 := by have := t.isLt; have : cfg1.N = 105 := N_1; omega
  have m5 : min t.val 5 = 5 := Nat.min_eq_right (by omega)
  have m5' : min (t.val + 1) 5 = 5 := Nat.min_eq_right (by omega)
  have m30 : min t.val 30 = 30 := Nat.min_eq_right (by omega)
  have m30' : min (t.val + 1) 30 = 30 := Nat.min_eq_right (by omega)
  have m55 : min t.val 55 = 55 := Nat.min_eq_right (by omega)
  have m55' : min (t.val + 1) 55 = 55 := Nat.min_eq_right (by omega)
  unfold Inv at h ⊢
  rw [m5', m30', m55']
  rw [m5, m30, m55] at h
  refine ⟨h, ?_⟩
  obtain ⟨hP, hG, hZ⟩ := h
  have hZall : View.ld xs rBandZ = latA adj PA noise :=
    ldBandZ xs (latA adj PA noise) (fun r e => hZ r e (by have := r.isLt; omega))
  have hpanel : View.ld xs (Rect.unit (s := S10000x80) (k1_off4 (grid1.coords t)) S200x16.size (k1_off4_inb _ h4))
      = rowsOf 200 50 16 (by decide) (latA adj PA noise) ⟨t.val - 55, by omega⟩ := by
    refine funext fun (x : (⟨2, ![200, 16]⟩ : Shape).Idx) => ?_
    obtain ⟨a, e, rfl⟩ : ∃ (a : Fin 200) (e : Fin 16), x = ix2 a e := ⟨x 0, x 1, eq_ix2 x⟩
    have hrow : 200 * (t.val - 55) + a.val < 10000 := by have := a.isLt; omega
    refine (ld_unit_at xs 200 16 (200 * (t.val - 55)) 64 _ (off4 t ht) a e ⟨200 * (t.val - 55) + a.val, hrow⟩
      ⟨64 + e.val, by omega⟩ rfl rfl).trans ?_
    exact (hZ _ e (by show 200 * (t.val - 55) + a.val < 400 * (55 - 30); omega)).trans
      (rowsOf_at 200 50 16 _ (latA adj PA noise) ⟨t.val - 55, by omega⟩ a e _ rfl).symm
  rw [hpanel, hZall]

end Cert.Kernel.R1

end
-- ==== Proof.K.R1Oblig.lean ====
import proofs.«168291_g55903294324759_cont_9to1c4b_598_14_alg».proof.Proof.Gen.Kernel.Launch
import proofs.«168291_g55903294324759_cont_9to1c4b_598_14_alg».proof.Proof.Gen.Kernel.Skeleton
import proofs.«168291_g55903294324759_cont_9to1c4b_598_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.K.R1Dat
import proofs.«168291_g55903294324759_cont_9to1c4b_598_14_alg».proof.Proof.K.R1InvSteps
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx Cert.Kernel.Vals

section
variable (V : (c : Dev nD) → (b : Ref sig .tc) → Buf (Elt F) ((c : Thread nD τ).loc b))

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the phase the point is in decides which conditional runs; the invariant hands the body the
    scratch at contents satisfying the scratch invariant and takes it back at the stored contents, which satisfy the
    next point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, Phi_castSucc, Phi_succ]
  rw [show (dat1 V c).leavesExact 0 t = owns (c : Thread nD τ) (st1_0 t) fullShare ((dat1 V c).after 0 t) from by
        unfold Dat.leavesExact; rw [live0 t], after1_0,
      show (dat1 V c).leavesExact 1 t = owns (c : Thread nD τ) (st1_1 t) fullShare ((dat1 V c).after 1 t) from by
        unfold Dat.leavesExact; rw [live1 t], after1_1,
      show (dat1 V c).leavesExact 2 t = owns (c : Thread nD τ) (st1_2 t) fullShare ((dat1 V c).after 2 t) from by
        unfold Dat.leavesExact; rw [live2 t], after1_2]
  have hN : t.val < 105 := lt_of_lt_of_eq t.isLt N_1
  unfold PhiS
  by_cases p1 : t.val < 5
  · have h1 : c1 (grid1.coords t) := (hc1 t).mpr p1
    have h2 : ¬ c2 (grid1.coords t) := fun h => by have := (hc2 t).mp h; omega
    have h3 : ¬ c3 (grid1.coords t) := fun h => by have := (hc3 t).mp h; omega
    have h4 : ¬ c4 (grid1.coords t) := fun h => by have := (hc4 t).mp h; omega
    rw [Dat.leavesExact_idle (dat1 V c) 3 t (idle3 t (by omega)) (noFlush3 t (by omega))]
    iintro ⟨⟨Hr, ⟨%xs, %hinv, HS⟩, Hg⟩, Ho, ⟨%d0, H0⟩, ⟨%d1, H1⟩, ⟨%d2, H2⟩, ⟨%d3, H3⟩⟩
    iapply (run1 c Set.univ (grid1.coords t) _ _ _ _ _ _ _ _ _ _ h1 h2 h3 h4 (iblk1 V c 1 t) xs _)
    isplitl [H1]; · iexact H1
    isplitl [HS]; · iexact HS
    iintro ⟨H1, HS⟩
    isplitl [Hr HS Hg]
    · isplitl [Hr]; · iexact Hr
      isplitl [HS]
      · iexists _; isplitr
        swap; · iexact HS
        ipureintro
        exact inv_step1 (adjOf V c) (projOf V c) (noiseOf V c) t p1 _ _ xs (iblk1 V c 1 t) (blk1_1 V c t p1) hinv h1
      iexact Hg
    isplitl [Ho]; · iexact Ho
    isplitl [H0]; · iexact H0
    isplitl [H1]; · iexact H1
    isplitl [H2]; · iexact H2
    iexists _; iexact H3
  · by_cases p2 : t.val < 30
    · have h1 : ¬ c1 (grid1.coords t) := fun h => by have := (hc1 t).mp h; omega
      have h2 : c2 (grid1.coords t) := (hc2 t).mpr ⟨by omega, p2⟩
      have h3 : ¬ c3 (grid1.coords t) := fun h => by have := (hc3 t).mp h; omega
      have h4 : ¬ c4 (grid1.coords t) := fun h => by have := (hc4 t).mp h; omega
      rw [Dat.leavesExact_idle (dat1 V c) 3 t (idle3 t (by omega)) (noFlush3 t (by omega))]
      iintro ⟨⟨Hr, ⟨%xs, %hinv, HS⟩, Hg⟩, Ho, ⟨%d0, H0⟩, ⟨%d1, H1⟩, ⟨%d2, H2⟩, ⟨%d3, H3⟩⟩
      iapply (run2 c Set.univ (grid1.coords t) _ _ _ _ _ _ _ _ _ _ h1 h2 h3 h4 (iblk1 V c 0 t) xs _)
      isplitl [H0]; · iexact H0
      isplitl [HS]; · iexact HS
      iintro ⟨H0, HS⟩
      isplitl [Hr HS Hg]
      · isplitl [Hr]; · iexact Hr
        isplitl [HS]
        · iexists _; isplitr
          swap; · iexact HS
          ipureintro
          exact inv_step2 (adjOf V c) (projOf V c) (noiseOf V c) t (by omega) p2 _ _ xs (iblk1 V c 0 t) (blk0_2 V c t (by omega) p2) hinv h2
        iexact Hg
      isplitl [Ho]; · iexact Ho
      isplitl [H0]; · iexact H0
      isplitl [H1]; · iexact H1
      isplitl [H2]; · iexact H2
      iexists _; iexact H3
    · by_cases p3 : t.val < 55
      · have h1 : ¬ c1 (grid1.coords t) := fun h => by have := (hc1 t).mp h; omega
        have h2 : ¬ c2 (grid1.coords t) := fun h => by have := (hc2 t).mp h; omega
        have h3 : c3 (grid1.coords t) := (hc3 t).mpr ⟨by omega, p3⟩
        have h4 : ¬ c4 (grid1.coords t) := fun h => by have := (hc4 t).mp h; omega
        rw [Dat.leavesExact_idle (dat1 V c) 3 t (idle3 t (by omega)) (noFlush3 t (by omega))]
        iintro ⟨⟨Hr, ⟨%xs, %hinv, HS⟩, Hg⟩, Ho, ⟨%d0, H0⟩, ⟨%d1, H1⟩, ⟨%d2, H2⟩, ⟨%d3, H3⟩⟩
        iapply (run3 c Set.univ (grid1.coords t) _ _ _ _ _ _ _ _ _ _ h1 h2 h3 h4 (iblk1 V c 0 t) (iblk1 V c 2 t) xs _)
        isplitl [H0]; · iexact H0
        isplitl [H2]; · iexact H2
        isplitl [HS]; · iexact HS
        iintro ⟨H0, H2, HS⟩
        isplitl [Hr HS Hg]
        · isplitl [Hr]; · iexact Hr
          isplitl [HS]
          · iexists _; isplitr
            swap; · iexact HS
            ipureintro
            exact inv_step3 (adjOf V c) (projOf V c) (noiseOf V c) t (by omega) p3 _ _ xs (iblk1 V c 0 t) (iblk1 V c 2 t)
              (blk0_3 V c t (by omega) p3) (blk2_3 V c t (by omega) p3) hinv h3
          iexact Hg
        isplitl [Ho]; · iexact Ho
        isplitl [H0]; · iexact H0
        isplitl [H1]; · iexact H1
        isplitl [H2]; · iexact H2
        iexists _; iexact H3
      · have h1 : ¬ c1 (grid1.coords t) := fun h => by have := (hc1 t).mp h; omega
        have h2 : ¬ c2 (grid1.coords t) := fun h => by have := (hc2 t).mp h; omega
        have h3 : ¬ c3 (grid1.coords t) := fun h => by have := (hc3 t).mp h; omega
        have h4 : c4 (grid1.coords t) := (hc4 t).mpr (by omega)
        rw [show (dat1 V c).leavesExact 3 t = owns (c : Thread nD τ) (st1_3 t) fullShare ((dat1 V c).after 3 t) from by
              unfold Dat.leavesExact; rw [live3 t (by omega)], after1_3, out3_eq V c t (by omega)]
        iintro ⟨⟨Hr, ⟨%xs, %hinv, HS⟩, Hg⟩, Ho, ⟨%d0, H0⟩, ⟨%d1, H1⟩, ⟨%d2, H2⟩, ⟨%d3, H3⟩⟩
        have hstep := inv_step4 (adjOf V c) (projOf V c) (noiseOf V c) t (by omega) xs hinv h4
        rw [← hstep.2]
        iapply (run4 c Set.univ (grid1.coords t) _ _ _ _ _ _ _ _ _ _ h1 h2 h3 h4 xs _)
        isplitl [H3]; · iexists _; iexact H3
        isplitl [HS]; · iexact HS
        iintro ⟨H3, HS⟩
        isplitl [Hr HS Hg]
        · isplitl [Hr]; · iexact Hr
          isplitl [HS]
          · iexists _; isplitr
            swap; · iexact HS
            ipureintro
            exact hstep.1
          iexact Hg
        isplitl [Ho]; · iexact Ho
        isplitl [H0]; · iexact H0
        isplitl [H1]; · iexact H1
        isplitl [H2]; · iexact H2
        iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.R1

end
-- ==== Proof.K.Final.lean ====
import proofs.«168291_g55903294324759_cont_9to1c4b_598_14_alg».proof.Proof.K.Run
import proofs.«168291_g55903294324759_cont_9to1c4b_598_14_alg».proof.Proof.K.R1Oblig

noncomputable section

namespace Cert.Kernel.Final

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! # The program's run, read at its arguments and at its result

The run over the two regions ends with every unscoped buffer at the last boundary's contents.  At an argument that is the
launch memory: no region writes an argument.  At the result it is what the second region's write-backs leave, which at the
ideal instance is the Gram matrix of the latent rows of the specification. -/

/-- The run, with the second region's body obligation supplied. -/
theorem run : θ_run defs (onTc (τ := τ) (main (F := F))) ⟨m, fun _ => 0, ρ⟩
    (fun r => ∀ c : Dev nD, ∀ b ∈ Pipeline.ucRefs τ sig, r.2.mem ((c : Thread nD τ).1, b) = RunM.W4 m ρ c b) :=
  RunM.run_all m ρ (fun c => R1.body_obligation1 (RunM.V2 m ρ) c)

/-- Every weakly fair execution terminates, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (RunM.mem_uc main_arg0 (by decide))).trans (RunM.W4_main_arg0 m ρ c),
     (h c _ (RunM.mem_uc main_arg1 (by decide))).trans (RunM.W4_main_arg1 m ρ c),
     (h c _ (RunM.mem_uc main_arg2 (by decide))).trans (RunM.W4_main_arg2 m ρ c),
     (h c _ (RunM.mem_uc main_arg3 (by decide))).trans (RunM.W4_main_arg3 m ρ c),
     (h c _ (RunM.mem_uc main_arg4 (by decide))).trans (RunM.W4_main_arg4 m ρ c),
     (h c _ (RunM.mem_uc main_arg5 (by decide))).trans (RunM.W4_main_arg5 m ρ c)⟩) (run m ρ)

end Cert.Kernel.Final

end
-- ==== Proof.KI.R0.lean ====
import proofs.«168291_g55903294324759_cont_9to1c4b_598_14_alg».proof.Proof.Gen.KernelIdeal.Launch
import proofs.«168291_g55903294324759_cont_9to1c4b_598_14_alg».proof.Proof.Gen.KernelIdeal.Skeleton
import proofs.«168291_g55903294324759_cont_9to1c4b_598_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The first pallas_call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is `V`'s
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x128 := Rect.unit (s := S10000x128) ![0, 0] S10000x128.size inb_S10000x128_S10000x128_0_0
abbrev r0_b : Rect S128x64 := Rect.unit (s := S128x64) ![0, 0] S128x64.size inb_S128x64_S128x64_0_0
abbrev r0_w : Rect S64x16 := Rect.unit (s := S64x16) ![0, 0] S64x16.size inb_S64x16_S64x16_0_0
abbrev r0_o : Rect S10000x32 := Rect.unit (s := S10000x32) ![0, 0] S10000x32.size inb_S10000x32_S10000x32_0_0

/-! ## What the body leaves in the output window's buffer -/

/-- Window 4's staging buffer after the body, from the input windows' blocks (features, base weight, mean
    weight, log-std weight): its one store as a piece. -/
def out0_4 (x0 : Vec F S10000x128 .f32) (x1 : Vec F S128x64 .f32) (x2 : Vec F S64x16 .f32) (x3 : Vec F S64x16 .f32) : Vec F S10000x32 .f32 :=
  View.canon [⟨r0_o, k0_pay1 (View.ld x2 r0_w) (View.ld x3 r0_w) (View.ld x1 r0_b) (View.ld x0 r0_x)⟩]

/-- The one store is the whole buffer, so it covers it. -/
theorem cover0_4 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

/-! ## The body's triple -/

set_option maxHeartbeats 1000000 in
/-- The kernel body on whole staging memrefs, the inputs' at read contents and the output's at anything, runs to
    the continuation holding the inputs' as they were and the output's at `out0_4` of the inputs'. -/
theorem sound_kernel0 (c : Dev nD) (E : Set ℕ) (arg0 : Memref sig .tc .vmem S10000x128 .f32) (harg0 : arg0.IsWhole) (arg1 : Memref sig .tc .vmem S128x64 .f32) (harg1 : arg1.IsWhole)
    (arg2 : Memref sig .tc .vmem S64x16 .f32) (harg2 : arg2.IsWhole) (arg3 : Memref sig .tc .vmem S64x16 .f32) (harg3 : arg3.IsWhole)
    (arg4 : Memref sig .tc .vmem S10000x32 .f32) (harg4 : arg4.IsWhole)
    (x0 : Vec F S10000x128 .f32) (x1 : Vec F S128x64 .f32) (x2 : Vec F S64x16 .f32) (x3 : Vec F S64x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__p_body arg0 harg0 arg1 harg1 arg2 harg2 arg3 harg3 arg4 harg4) K := by
  simp only [cc0__p_body_eq_skeleton]; unfold cc0__p_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions
end Cert.KernelIdeal.R0
end
-- ==== Proof.KI.R1Conds.lean ====
/-
  The second call's schedule over its 105 grid points, in closed form.  Point `t` is in exactly one of four phases:
  `t < 5` copies 2000 rows of the projected table, `5 ≤ t < 30` stores a 400-row panel of the first aggregation,
  `30 ≤ t < 55` a 400-row panel of the latent sample, `55 ≤ t` writes a 200-row panel of the result.  Each fact is
  decided by evaluating the body's integer chain at every point of the grid.
-/
import proofs.«168291_g55903294324759_cont_9to1c4b_598_14_alg».proof.Proof.Gen.KernelIdeal.Launch
import proofs.«168291_g55903294324759_cont_9to1c4b_598_14_alg».proof.Proof.Gen.KernelIdeal.Points

noncomputable section

namespace Cert.KernelIdeal.R1

open Idealize.ShloMosaic Idealize.ShloMosaic.TcCoe Idealize.SL.Sem Cert.KernelIdeal Cert.KernelIdeal.Gen

/-- The four phase conditions as the body computes them. -/
abbrev c1 (i : grid1.Coords) : Prop := k1_cond1 i = 1#1
abbrev c2 (i : grid1.Coords) : Prop := k1_cond2 i = 1#1
abbrev c3 (i : grid1.Coords) : Prop := k1_cond3 i = 1#1
abbrev c4 (i : grid1.Coords) : Prop := k1_cond4 i = 1#1

theorem hc1 : ∀ t : Fin cfg1.N, c1 (grid1.coords t) ↔ t.val < 5 :=
  (by decide +kernel : ∀ t : Fin grid1.N, c1 (grid1.coords t) ↔ t.val < 5)
theorem hc2 : ∀ t : Fin cfg1.N, c2 (grid1.coords t) ↔ (5 ≤ t.val ∧ t.val < 30) :=
  (by decide +kernel : ∀ t : Fin grid1.N, c2 (grid1.coords t) ↔ (5 ≤ t.val ∧ t.val < 30))
theorem hc3 : ∀ t : Fin cfg1.N, c3 (grid1.coords t) ↔ (30 ≤ t.val ∧ t.val < 55) :=
  (by decide +kernel : ∀ t : Fin grid1.N, c3 (grid1.coords t) ↔ (30 ≤ t.val ∧ t.val < 55))
theorem hc4 : ∀ t : Fin cfg1.N, c4 (grid1.coords t) ↔ 55 ≤ t.val :=
  (by decide +kernel : ∀ t : Fin grid1.N, c4 (grid1.coords t) ↔ 55 ≤ t.val)

/-- The row offsets the body computes, in each phase. -/
theorem off1 : ∀ t : Fin cfg1.N, t.val < 5 → k1_off1 (grid1.coords t) = ![2000 * t.val, 0] :=
  (by decide +kernel : ∀ t : Fin grid1.N, t.val < 5 → k1_off1 (grid1.coords t) = ![2000 * t.val, 0])
theorem off2 : ∀ t : Fin cfg1.N, 5 ≤ t.val → t.val < 30 → k1_off2 (grid1.coords t) = ![400 * (t.val - 5), 32] :=
  (by decide +kernel : ∀ t : Fin grid1.N, 5 ≤ t.val → t.val < 30 → k1_off2 (grid1.coords t) = ![400 * (t.val - 5), 32])
theorem off3 : ∀ t : Fin cfg1.N, 30 ≤ t.val → t.val < 55 → k1_off3 (grid1.coords t) = ![400 * (t.val - 30), 64] :=
  (by decide +kernel : ∀ t : Fin grid1.N, 30 ≤ t.val → t.val < 55 → k1_off3 (grid1.coords t) = ![400 * (t.val - 30), 64])
theorem off4 : ∀ t : Fin cfg1.N, 55 ≤ t.val → k1_off4 (grid1.coords t) = ![200 * (t.val - 55), 64] :=
  (by decide +kernel : ∀ t : Fin grid1.N, 55 ≤ t.val → k1_off4 (grid1.coords t) = ![200 * (t.val - 55), 64])

/-- Which block of its array each window is on, phase by phase. -/
theorem idx0_2 : ∀ t : Fin cfg1.N, 5 ≤ t.val → t.val < 30 → (cfg1.win 0).index t = ![t.val - 5, 0] :=
  (by decide +kernel : ∀ t : Fin grid1.N, 5 ≤ t.val → t.val < 30 → win1_0.index t = ![t.val - 5, 0])
theorem idx0_3 : ∀ t : Fin cfg1.N, 30 ≤ t.val → t.val < 55 → (cfg1.win 0).index t = ![t.val - 30, 0] :=
  (by decide +kernel : ∀ t : Fin grid1.N, 30 ≤ t.val → t.val < 55 → win1_0.index t = ![t.val - 30, 0])
theorem idx1_1 : ∀ t : Fin cfg1.N, t.val < 5 → (cfg1.win 1).index t = ![t.val, 0] :=
  (by decide +kernel : ∀ t : Fin grid1.N, t.val < 5 → win1_1.index t = ![t.val, 0])
theorem idx2_3 : ∀ t : Fin cfg1.N, 30 ≤ t.val → t.val < 55 → (cfg1.win 2).index t = ![t.val - 30, 0] :=
  (by decide +kernel : ∀ t : Fin grid1.N, 30 ≤ t.val → t.val < 55 → win1_2.index t = ![t.val - 30, 0])
theorem idx3_4 : ∀ t : Fin cfg1.N, 55 ≤ t.val → (cfg1.win 3).index t = ![t.val - 55, 0] :=
  (by decide +kernel : ∀ t : Fin grid1.N, 55 ≤ t.val → win1_3.index t = ![t.val - 55, 0])

/-- The result window is written back exactly in the last phase, and is idle (the body stores nothing into its buffer)
    exactly before it. -/
theorem flush3 : ∀ t : Fin cfg1.N, 55 ≤ t.val → (cfg1.win 3).flush t = true :=
  (by decide +kernel : ∀ t : Fin grid1.N, 55 ≤ t.val → win1_3.flush t = true)
theorem noFlush3 : ∀ t : Fin cfg1.N, t.val < 55 → (cfg1.win 3).flush t = false :=
  (by decide +kernel : ∀ t : Fin grid1.N, t.val < 55 → win1_3.flush t = false)
theorem idle3 : ∀ t : Fin cfg1.N, t.val < 55 → cfg1.idle 3 (grid1.coords t) = true :=
  (by decide +kernel : ∀ t : Fin grid1.N, t.val < 55 → idle1 3 (grid1.coords t) = true)
theorem live3 : ∀ t : Fin cfg1.N, 55 ≤ t.val → cfg1.idle 3 (grid1.coords t) = false :=
  (by decide +kernel : ∀ t : Fin grid1.N, 55 ≤ t.val → idle1 3 (grid1.coords t) = false)

end Cert.KernelIdeal.R1

end
-- ==== Proof.KI.Vals.lean ====
/-
  The kernel's whole-array values, for any float instance, written through the bodies' own arithmetic.

  The second call streams the adjacency matrix in panels of 400 rows.  With `proj` the 32-column table the first call
  leaves, panel `b` of the aggregate is the body's product of adjacency rows `[400 b, 400 b + 400)` with the whole of
  `proj`; panel `b` of the latent sample is the body's rectified product of those rows with the whole aggregate, split
  into mean and log-deviation columns and combined with the noise rows; and panel `b` (200 rows) of the result is the
  body's product of latent rows `[200 b, 200 b + 200)` with the transpose of the whole latent table.
-/
import proofs.«168291_g55903294324759_cont_9to1c4b_598_14_alg».proof.Proof.Gen.KernelIdeal.Skeleton
import Idealize.ShloMosaic.Lib.ValueIdx

noncomputable section

namespace Cert.KernelIdeal.Vals

open Idealize.ShloMosaic Idealize.ShloMosaic.ValueIdx Cert.KernelIdeal Cert.KernelIdeal.Gen

variable {F : FTy → Type} [FloatOps F]

/-- Rows `[h·b, h·b + h)` of an array of 10000 rows and `n` columns, as an array of `h` rows (`h · nb = 10000`). -/
def rowsOf (h nb n : Nat) (hh : h * nb = 10000) (A : Vec F ⟨2, ![10000, n]⟩ .f32) (b : Fin nb) : Vec F ⟨2, ![h, n]⟩ .f32 :=
  fun y => A (ix2 (⟨h * b.val + (y 0).val, by
      have h0 := idx2_lt0 y; have hb := b.isLt
      calc h * b.val + (y 0).val < h * b.val + h := by omega
        _ = h * (b.val + 1) := by ring
        _ ≤ h * nb := Nat.mul_le_mul_left h hb
        _ = 10000 := hh⟩ : Fin 10000) (⟨(y 1).val, idx2_lt1 y⟩ : Fin n))

/-- The aggregate `adj · proj`, panel by panel of 400 rows. -/
def aggA (adj : Vec F S10000x10000 .f32) (P : Vec F S10000x32 .f32) : Vec F S10000x32 .f32 :=
  fun i => k1_pay2 (rowsOf 400 25 10000 (by decide) adj ⟨(i 0).val / 400, by have := idx2_lt0 i; omega⟩) P
    (ix2 (⟨(i 0).val % 400, Nat.mod_lt _ (by decide)⟩ : Fin 400) (⟨(i 1).val, idx2_lt1 i⟩ : Fin 32))

/-- The latent sample, panel by panel of 400 rows. -/
def latA (adj : Vec F S10000x10000 .f32) (P : Vec F S10000x32 .f32) (noise : Vec F S10000x16 .f32) : Vec F S10000x16 .f32 :=
  fun i => k1_pay3 (rowsOf 400 25 10000 (by decide) adj ⟨(i 0).val / 400, by have := idx2_lt0 i; omega⟩) (aggA adj P)
    (rowsOf 400 25 16 (by decide) noise ⟨(i 0).val / 400, by have := idx2_lt0 i; omega⟩)
    (ix2 (⟨(i 0).val % 400, Nat.mod_lt _ (by decide)⟩ : Fin 400) (⟨(i 1).val, idx2_lt1 i⟩ : Fin 16))

/-- The result, panel by panel of 200 rows. -/
def outA (adj : Vec F S10000x10000 .f32) (P : Vec F S10000x32 .f32) (noise : Vec F S10000x16 .f32) : Vec F S10000x10000 .f32 :=
  fun i => k1_pay4 (rowsOf 200 50 16 (by decide) (latA adj P noise) ⟨(i 0).val / 200, by have := idx2_lt0 i; omega⟩) (latA adj P noise)
    (ix2 (⟨(i 0).val % 200, Nat.mod_lt _ (by decide)⟩ : Fin 200) (⟨(i 1).val, idx2_lt1 i⟩ : Fin 10000))

end Cert.KernelIdeal.Vals

end
-- ==== Proof.KI.R1Blocks.lean ====
import proofs.«168291_g55903294324759_cont_9to1c4b_598_14_alg».proof.Proof.Gen.KernelIdeal.Launch
import proofs.«168291_g55903294324759_cont_9to1c4b_598_14_alg».proof.Proof.Gen.KernelIdeal.Points
import proofs.«168291_g55903294324759_cont_9to1c4b_598_14_alg».proof.Proof.KI.R1Conds
import proofs.«168291_g55903294324759_cont_9to1c4b_598_14_alg».proof.Proof.KI.Vals
import Idealize.ShloMosaic.Lib.Pipeline.FrameBody
import Idealize.ShloMosaic.Lib.Pipeline.Value
import Idealize.ShloMosaic.Lib.Tactic

set_option maxRecDepth 16384

noncomputable section

namespace Cert.KernelIdeal.R1

open Cert.KernelIdeal Cert.KernelIdeal.Gen Cert.KernelIdeal.Vals
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

section Regions
-- the TensorCore's buffer contents when the region is entered
variable (V : (c : Dev nD) → (b : Ref sig .tc) → Buf (Elt F) ((c : Thread nD τ).loc b))

/-! # The second pallas_call (pipeline 1): its windows' blocks, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each block read as rows of its array

A block's coordinate in the array is, on each axis, the block index times the block's size plus the coordinate inside
the block; the block indices are the phases' closed forms, and every block spans all the columns. -/

theorem blk1_1 (c : Dev nD) (t : Fin cfg1.N) (h : t.val < 5) :
    (iblk1 V c 1 t : Vec F S2000x32 .f32) = rowsOf 2000 5 32 (by decide) (V c main_v0) ⟨t.val, by omega⟩ := by
  have hi := idx1_1 t h
  have hi0 : (cfg1.win 1).index t 0 = t.val := by rw [hi]; rfl
  have hi1 : (cfg1.win 1).index t 1 = 0 := by rw [hi]; rfl
  funext y
  unfold iblk1 rowsOf
  rw [View.read_apply]
  show V c main_v0 _ = V c main_v0 _
  congr 1
  funext a
  apply Fin.ext
  match a with
  | ⟨0, _⟩ => show (cfg1.win 1).index t 0 * 2000 + 1 * (y 0).val = 2000 * (t.val) + (y 0).val; rw [hi0]; omega
  | ⟨1, _⟩ => show (cfg1.win 1).index t 1 * 32 + 1 * (y 1).val = (y 1).val; rw [hi1]; omega

theorem blk0_2 (c : Dev nD) (t : Fin cfg1.N) (h5 : 5 ≤ t.val) (h30 : t.val < 30) :
    (iblk1 V c 0 t : Vec F S400x10000 .f32) = rowsOf 400 25 10000 (by decide) (V c main_arg0) ⟨t.val - 5, by omega⟩ := by
  have hi := idx0_2 t h5 h30
  have hi0 : (cfg1.win 0).index t 0 = t.val - 5 := by rw [hi]; rfl
  have hi1 : (cfg1.win 0).index t 1 = 0 := by rw [hi]; rfl
  funext y
  unfold iblk1 rowsOf
  rw [View.read_apply]
  show V c main_arg0 _ = V c main_arg0 _
  congr 1
  funext a
  apply Fin.ext
  match a with
  | ⟨0, _⟩ => show (cfg1.win 0).index t 0 * 400 + 1 * (y 0).val = 400 * (t.val - 5) + (y 0).val; rw [hi0]; omega
  | ⟨1, _⟩ => show (cfg1.win 0).index t 1 * 10000 + 1 * (y 1).val = (y 1).val; rw [hi1]; omega

theorem blk0_3 (c : Dev nD) (t : Fin cfg1.N) (h30 : 30 ≤ t.val) (h55 : t.val < 55) :
    (iblk1 V c 0 t : Vec F S400x10000 .f32) = rowsOf 400 25 10000 (by decide) (V c main_arg0) ⟨t.val - 30, by omega⟩ := by
  have hi := idx0_3 t h30 h55
  have hi0 : (cfg1.win 0).index t 0 = t.val - 30 := by rw [hi]; rfl
  have hi1 : (cfg1.win 0).index t 1 = 0 := by rw [hi]; rfl
  funext y
  unfold iblk1 rowsOf
  rw [View.read_apply]
  show V c main_arg0 _ = V c main_arg0 _
  congr 1
  funext a
  apply Fin.ext
  match a with
  | ⟨0, _⟩ => show (cfg1.win 0).index t 0 * 400 + 1 * (y 0).val = 400 * (t.val - 30) + (y 0).val; rw [hi0]; omega
  | ⟨1, _⟩ => show (cfg1.win 0).index t 1 * 10000 + 1 * (y 1).val = (y 1).val; rw [hi1]; omega

theorem blk2_3 (c : Dev nD) (t : Fin cfg1.N) (h30 : 30 ≤ t.val) (h55 : t.val < 55) :
    (iblk1 V c 2 t : Vec F S400x16 .f32) = rowsOf 400 25 16 (by decide) (V c main_arg5) ⟨t.val - 30, by omega⟩ := by
  have hi := idx2_3 t h30 h55
  have hi0 : (cfg1.win 2).index t 0 = t.val - 30 := by rw [hi]; rfl
  have hi1 : (cfg1.win 2).index t 1 = 0 := by rw [hi]; rfl
  funext y
  unfold iblk1 rowsOf
  rw [View.read_apply]
  show V c main_arg5 _ = V c main_arg5 _
  congr 1
  funext a
  apply Fin.ext
  match a with
  | ⟨0, _⟩ => show (cfg1.win 2).index t 0 * 400 + 1 * (y 0).val = 400 * (t.val - 30) + (y 0).val; rw [hi0]; omega
  | ⟨1, _⟩ => show (cfg1.win 2).index t 1 * 16 + 1 * (y 1).val = (y 1).val; rw [hi1]; omega

/-! ## The result window: its block read off any array, and its blocks' cover -/

/-- The result window's block at a point of the last phase, read off an array `G`, is 200 rows of `G`. -/
theorem read3 (G : Vec F S10000x10000 .f32) (t : Fin cfg1.N) (h : 55 ≤ t.val) :
    (((cfg1.win 3).blk t).view.read (Elt F) G : Vec F S200x10000 .f32)
      = rowsOf 200 50 10000 (by decide) G ⟨t.val - 55, by have := t.isLt; have : cfg1.N = 105 := N_1; omega⟩ := by
  have hi := idx3_4 t h
  have hi0 : (cfg1.win 3).index t 0 = t.val - 55 := by rw [hi]; rfl
  have hi1 : (cfg1.win 3).index t 1 = 0 := by rw [hi]; rfl
  funext y
  unfold rowsOf
  rw [View.read_apply]
  show G _ = G _
  congr 1
  funext a
  apply Fin.ext
  match a with
  | ⟨0, _⟩ => show (cfg1.win 3).index t 0 * 200 + 1 * (y 0).val = 200 * (t.val - 55) + (y 0).val; rw [hi0]; omega
  | ⟨1, _⟩ => show (cfg1.win 3).index t 1 * 10000 + 1 * (y 1).val = (y 1).val; rw [hi1]; omega

/-- Every index of the result array is in the block some point of the last phase writes back: row `r` is in the
    block of point `55 + r / 200`. -/
theorem cover3 (c : Dev nD) : ∀ i : ((cfg1.win 3).arr.view.loc (c.tc : Thread nD τ)).2.ty.Idx,
    ∃ t : Fin cfg1.N, (cfg1.win 3).flush t = true ∧ i ∈ ((cfg1.win 3).blk t).view.set := by
  intro i
  have hN : cfg1.N = 105 := N_1
  have h0 : (i 0 : Nat) < 10000 := (i 0).isLt
  have h1 : (i 1 : Nat) < 10000 := (i 1).isLt
  have ht : 55 + (i 0 : Nat) / 200 < cfg1.N := by omega
  have h55 : 55 ≤ (⟨55 + (i 0 : Nat) / 200, ht⟩ : Fin cfg1.N).val := Nat.le_add_right _ _
  refine ⟨⟨55 + (i 0 : Nat) / 200, ht⟩, flush3 _ h55, ?_⟩
  have hi := idx3_4 _ h55
  have hi0 : win1_3.index ⟨55 + (i 0 : Nat) / 200, ht⟩ 0 = (i 0 : Nat) / 200 := by
    rw [show win1_3.index ⟨55 + (i 0 : Nat) / 200, ht⟩ = _ from hi]; show 55 + (i 0 : Nat) / 200 - 55 = _; omega
  have hi1 : win1_3.index ⟨55 + (i 0 : Nat) / 200, ht⟩ 1 = 0 := by
    rw [show win1_3.index ⟨55 + (i 0 : Nat) / 200, ht⟩ = _ from hi]; rfl
  show i ∈ ((View.whole main_v1).slice (win1_3.rect ⟨55 + (i 0 : Nat) / 200, ht⟩)).set
  rw [View.set_slice_whole, Rect.mem_set_unit]
  intro a
  match a with
  | ⟨0, _⟩ =>
    show win1_3.index ⟨55 + (i 0 : Nat) / 200, ht⟩ 0 * 200 ≤ (i 0 : Nat) ∧ (i 0 : Nat) < win1_3.index ⟨55 + (i 0 : Nat) / 200, ht⟩ 0 * 200 + 200
    rw [hi0]; omega
  | ⟨1, _⟩ =>
    show win1_3.index ⟨55 + (i 0 : Nat) / 200, ht⟩ 1 * 10000 ≤ (i 1 : Nat) ∧ (i 1 : Nat) < win1_3.index ⟨55 + (i 0 : Nat) / 200, ht⟩ 1 * 10000 + 10000
    rw [hi1]; omega

end Regions
end Cert.KernelIdeal.R1
end
-- ==== Proof.KI.R1Body.lean ====
import proofs.«168291_g55903294324759_cont_9to1c4b_598_14_alg».proof.Proof.Gen.KernelIdeal.Launch
import proofs.«168291_g55903294324759_cont_9to1c4b_598_14_alg».proof.Proof.Gen.KernelIdeal.Skeleton
import proofs.«168291_g55903294324759_cont_9to1c4b_598_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.KI.R1Conds
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The second call's body, phase by phase

At every grid point exactly one of the body's four conditionals is taken.  Each theorem below runs the body in one phase on
whole staging buffers and a whole scratch, and says what the buffers it touches hold afterwards:

* copy phase: the scratch with rows `[2000 t, 2000 t + 2000)` of columns 0–31 overwritten by the projected block;
* first aggregation: the scratch with a 400-row panel of columns 32–63 overwritten by the product of the adjacency
  panel with columns 0–31 of the whole scratch;
* latent phase: the scratch with a 400-row panel of columns 64–79 overwritten by the latent sample of that panel, computed
  from the adjacency panel, columns 32–63 of the whole scratch, and the noise panel;
* result phase: the result buffer holding the product of a 200-row panel of columns 64–79 with the transpose of all of
  columns 64–79; the scratch unchanged.
-/

/-- The whole rectangles of the staged blocks. -/
abbrev rAdj : Rect S400x10000 := Rect.unit (s := S400x10000) ![0, 0] S400x10000.size inb_S400x10000_S400x10000_0_0
abbrev rProjBlk : Rect S2000x32 := Rect.unit (s := S2000x32) ![0, 0] S2000x32.size inb_S2000x32_S2000x32_0_0
abbrev rNoise : Rect S400x16 := Rect.unit (s := S400x16) ![0, 0] S400x16.size inb_S400x16_S400x16_0_0
abbrev rOut : Rect S200x10000 := Rect.unit (s := S200x10000) ![0, 0] S200x10000.size inb_S200x10000_S200x10000_0_0
/-- The three column bands of the scratch, all rows: the projected table, the first aggregate, the latent sample. -/
abbrev rBandP : Rect S10000x80 := Rect.unit (s := S10000x80) ![0, 0] S10000x32.size inb_S10000x80_S10000x32_0_0
abbrev rBandG : Rect S10000x80 := Rect.unit (s := S10000x80) ![0, 32] S10000x32.size inb_S10000x80_S10000x32_0_32
abbrev rBandZ : Rect S10000x80 := Rect.unit (s := S10000x80) ![0, 64] S10000x16.size inb_S10000x80_S10000x16_0_64

/-- What a whole scratch memref holding `xs` holds after one more store `p`. -/
def scrAfter (M : Memref sig .tc .vmem S10000x80 .f32) (hM : M.IsWhole) (xs : Vec F S10000x80 .f32)
    (p : View.Piece (Elt F) S10000x80 .f32) : Vec F S10000x80 .f32 :=
  M.view.read (Elt F) (M.view.writes (Elt F) (hM.unread xs) [p])

set_option maxHeartbeats 2000000 in
/-- The copy phase. -/
theorem run1 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : c1 i) (h2 : ¬ c2 i) (h3 : ¬ c3 i) (h4 : ¬ c4 i)
    (x2 : Vec F S2000x32 .f32) (xs : Vec F S10000x80 .f32) (K : PUnit → sProp 𝕄) :
    iprop(owns (c : Thread nD τ) arg2 fullShare x2 ∗ owns (c : Thread nD τ) arg5 fullShare xs
        ∗ (iprop(owns (c : Thread nD τ) arg2 fullShare x2
            ∗ owns (c : Thread nD τ) arg5 fullShare (scrAfter arg5 harg5 xs
                ⟨Rect.unit (s := S10000x80) (k1_off1 i) S2000x32.size (k1_off1_inb i h1), k1_pay1 (View.ld x2 rProjBlk)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f2, %hf2, H2⟩, ⟨%fs, %hfs, HS⟩, Hk⟩
  obtain rfl := harg2.eq_unread hf2; obtain rfl := harg5.eq_unread hfs
  sl_exec (disch := first | exact h1 | exact h2 | exact h3 | exact h4)
  sl_step
  iapply Hk
  isplitl [H2]
  · iexists _; isplitr; · ipureintro; exact hf2
    iexact H2
  iexists _; isplitr
  swap; · iexact HS
  ipureintro
  unfold scrAfter
  rw [View.readAt_eq_ld, hf2]

set_option maxHeartbeats 2000000 in
/-- The first aggregation. -/
theorem run2 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : c2 i) (h3 : ¬ c3 i) (h4 : ¬ c4 i)
    (x1 : Vec F S400x10000 .f32) (xs : Vec F S10000x80 .f32) (K : PUnit → sProp 𝕄) :
    iprop(owns (c : Thread nD τ) arg1 fullShare x1 ∗ owns (c : Thread nD τ) arg5 fullShare xs
        ∗ (iprop(owns (c : Thread nD τ) arg1 fullShare x1
            ∗ owns (c : Thread nD τ) arg5 fullShare (scrAfter arg5 harg5 xs
                ⟨Rect.unit (s := S10000x80) (k1_off2 i) S400x32.size (k1_off2_inb i h2), k1_pay2 (View.ld x1 rAdj) (View.ld xs rBandP)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f1, %hf1, H1⟩, ⟨%fs, %hfs, HS⟩, Hk⟩
  obtain rfl := harg1.eq_unread hf1; obtain rfl := harg5.eq_unread hfs
  sl_exec (disch := first | exact h1 | exact h2 | exact h3 | exact h4)
  sl_step
  iapply Hk
  isplitl [H1]
  · iexists _; isplitr; · ipureintro; exact hf1
    iexact H1
  iexists _; isplitr
  swap; · iexact HS
  ipureintro
  unfold scrAfter
  rw [View.readAt_eq_ld, View.readAt_eq_ld, hf1, hfs]

set_option maxHeartbeats 2000000 in
/-- The latent phase. -/
theorem run3 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : ¬ c2 i) (h3 : c3 i) (h4 : ¬ c4 i)
    (x1 : Vec F S400x10000 .f32) (x3 : Vec F S400x16 .f32) (xs : Vec F S10000x80 .f32) (K : PUnit → sProp 𝕄) :
    iprop(owns (c : Thread nD τ) arg1 fullShare x1 ∗ owns (c : Thread nD τ) arg3 fullShare x3 ∗ owns (c : Thread nD τ) arg5 fullShare xs
        ∗ (iprop(owns (c : Thread nD τ) arg1 fullShare x1 ∗ owns (c : Thread nD τ) arg3 fullShare x3
            ∗ owns (c : Thread nD τ) arg5 fullShare (scrAfter arg5 harg5 xs
                ⟨Rect.unit (s := S10000x80) (k1_off3 i) S400x16.size (k1_off3_inb i h3), k1_pay3 (View.ld x1 rAdj) (View.ld xs rBandG) (View.ld x3 rNoise)⟩)) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%f1, %hf1, H1⟩, ⟨%f3, %hf3, H3⟩, ⟨%fs, %hfs, HS⟩, Hk⟩
  obtain rfl := harg1.eq_unread hf1; obtain rfl := harg3.eq_unread hf3; obtain rfl := harg5.eq_unread hfs
  sl_exec (disch := first | exact h1 | exact h2 | exact h3 | exact h4)
  sl_step
  iapply Hk
  isplitl [H1]
  · iexists _; isplitr; · ipureintro; exact hf1
    iexact H1
  isplitl [H3]
  · iexists _; isplitr; · ipureintro; exact hf3
    iexact H3
  iexists _; isplitr
  swap; · iexact HS
  ipureintro
  unfold scrAfter
  rw [View.readAt_eq_ld, View.readAt_eq_ld, View.readAt_eq_ld, hf1, hf3, hfs]

/-- The result buffer's one store covers it. -/
theorem coverOut (p0 : Vec F S200x10000 .f32) (y : S200x10000.Idx) :
    ∃ pc ∈ ([⟨rOut, p0⟩] : List (View.Piece (Elt F) S200x10000 .f32)), y ∈ pc.1.set :=
  View.cover_of_tiled [⟨rOut, p0⟩] S200x10000.size (by rfl) y

set_option maxHeartbeats 2000000 in
/-- The result phase. -/
theorem run4 (c : Dev nD) (E : Set ℕ) (i : grid1.Coords)
    (arg1 : Memref sig .tc .vmem S400x10000 .f32) (harg1 : arg1.IsWhole) (arg2 : Memref sig .tc .vmem S2000x32 .f32) (harg2 : arg2.IsWhole)
    (arg3 : Memref sig .tc .vmem S400x16 .f32) (harg3 : arg3.IsWhole) (arg4 : Memref sig .tc .vmem S200x10000 .f32) (harg4 : arg4.IsWhole)
    (arg5 : Memref sig .tc .vmem S10000x80 .f32) (harg5 : arg5.IsWhole)
    (h1 : ¬ c1 i) (h2 : ¬ c2 i) (h3 : ¬ c3 i) (h4 : c4 i)
    (xs : Vec F S10000x80 .f32) (K : PUnit → sProp 𝕄) :
    iprop((∃ d, owns (c : Thread nD τ) arg4 fullShare d) ∗ owns (c : Thread nD τ) arg5 fullShare xs
        ∗ (iprop(owns (c : Thread nD τ) arg4 fullShare
              (k1_pay4 (View.ld xs (Rect.unit (s := S10000x80) (k1_off4 i) S200x16.size (k1_off4_inb i h4))) (View.ld xs rBandZ))
            ∗ owns (c : Thread nD τ) arg5 fullShare xs) -∗ K ⟨⟩))
      ⊢ wp frame (wpE (defs₀ (F := F)) Variants.none c none) E (cc1__body i arg1 harg1 arg2 harg2 arg3 harg3 arg4 harg4 arg5 harg5) K := by
  simp only [cc1__body_eq_skeleton]; unfold cc1__body_skel
  unfold owns
  iintro ⟨⟨%d4, %f4, -, H4⟩, ⟨%fs, %hfs, HS⟩, Hk⟩
  obtain rfl := harg5.eq_unread hfs
  sl_exec (disch := first | exact h1 | exact h2 | exact h3 | exact h4)
  sl_step
  iapply Hk
  isplitl [H4]
  · iexists _; isplitr
    swap; · iexact H4
    ipureintro
    rw [View.read_writes_eq_canon _ _ _ (coverOut _), View.canon_unit_zero (by funext a; fin_cases a <;> rfl),
      View.readAt_eq_ld, View.readAt_eq_ld, hfs]
  iexists _; isplitr; · ipureintro; exact hfs
  iexact HS

end Cert.KernelIdeal.R1

end
-- ==== Proof.KI.R1Inv.lean ====
/-
  What the scratch holds before grid point `n` of the second call: rows `[0, 2000 · min n 5)` of columns 0–31 hold the
  projected table; rows `[0, 400 · (min n 30 − 5))` of columns 32–63 the first aggregate; rows `[0, 400 · (min n 55 − 30))`
  of columns 64–79 the latent sample.  Nothing is said of the other entries (they hold whatever the scratch held at entry).
-/
import proofs.«168291_g55903294324759_cont_9to1c4b_598_14_alg».proof.Proof.KI.R1Body
import proofs.«168291_g55903294324759_cont_9to1c4b_598_14_alg».proof.Proof.KI.Vals

noncomputable section

namespace Cert.KernelIdeal.R1

open Idealize.ShloMosaic Idealize.ShloMosaic.ValueIdx Cert.KernelIdeal Cert.KernelIdeal.Gen Cert.KernelIdeal.Vals

variable {F : FTy → Type} [FloatOps F]

/-- The scratch invariant before point `n`. -/
def Inv (adj : Vec F S10000x10000 .f32) (PA : Vec F S10000x32 .f32) (noise : Vec F S10000x16 .f32) (n : ℕ)
    (xs : Vec F S10000x80 .f32) : Prop :=
  (∀ (r : Fin 10000) (j : Fin 32), r.val < 2000 * min n 5 →
      xs (ix2 r (⟨j.val, by omega⟩ : Fin 80)) = PA (ix2 r j)) ∧
  (∀ (r : Fin 10000) (j : Fin 32), r.val < 400 * (min n 30 - 5) →
      xs (ix2 r (⟨32 + j.val, by omega⟩ : Fin 80)) = aggA adj PA (ix2 r j)) ∧
  (∀ (r : Fin 10000) (e : Fin 16), r.val < 400 * (min n 55 - 30) →
      xs (ix2 r (⟨64 + e.val, by omega⟩ : Fin 80)) = latA adj PA noise (ix2 r e))

/-- Before the first point the invariant says nothing. -/
theorem Inv_zero (adj : Vec F S10000x10000 .f32) (PA : Vec F S10000x32 .f32) (noise : Vec F S10000x16 .f32)
    (xs : Vec F S10000x80 .f32) : Inv adj PA noise 0 xs :=
  ⟨fun r j h => absurd h (by simp), fun r j h => absurd h (by simp), fun r e h => absurd h (by simp)⟩

end Cert.KernelIdeal.R1

end
-- ==== Proof.KI.R1Dat.lean ====
import proofs.«168291_g55903294324759_cont_9to1c4b_598_14_alg».proof.Proof.Gen.KernelIdeal.Launch
import proofs.«168291_g55903294324759_cont_9to1c4b_598_14_alg».proof.Proof.Gen.KernelIdeal.Skeleton
import proofs.«168291_g55903294324759_cont_9to1c4b_598_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.KI.R1Blocks
import proofs.«168291_g55903294324759_cont_9to1c4b_598_14_alg».proof.Proof.KI.R1Inv
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Vals

/-! ## The second call's proof data

The scratch is carried from point to point: the region invariant before point `n` holds it at SOME contents satisfying
the scratch invariant `Inv … n` (what the earlier points have stored), beside the first call's staging buffers at anything
and the generator register.  The three input windows hold their blocks at every point.  The result window is idle before
point 55; from point 55 on the body leaves in it the product of latent rows `[200 (t − 55), 200 (t − 55) + 200)` with the
transpose of the whole latent table — a function of the arrays the region was entered with. -/

section
variable (V : (c : Dev nD) → (b : Ref sig .tc) → Buf (Elt F) ((c : Thread nD τ).loc b))

/-- The scratch, as a whole memref. -/
abbrev scM : Memref sig .tc .vmem S10000x80 .f32 := Memref.whole cc1_scratch0

/-- The arrays the region is entered with: the adjacency matrix, the projected table the first call left, the noise. -/
abbrev adjOf (c : Dev nD) : Vec F S10000x10000 .f32 := V c main_arg0
abbrev projOf (c : Dev nD) : Vec F S10000x32 .f32 := V c main_v0
abbrev noiseOf (c : Dev nD) : Vec F S10000x16 .f32 := V c main_arg5

/-- What the body leaves in the result window's buffer at a point of the last phase. -/
def out3 (c : Dev nD) (t : Fin cfg1.N) : Vec F S200x10000 .f32 :=
  k1_pay4 (rowsOf 200 50 16 (by decide) (latA (adjOf V c) (projOf V c) (noiseOf V c)) ⟨(t.val - 55) % 50, Nat.mod_lt _ (by decide)⟩)
    (latA (adjOf V c) (projOf V c) (noiseOf V c))

theorem out3_eq (c : Dev nD) (t : Fin cfg1.N) (h : 55 ≤ t.val) :
    out3 V c t = k1_pay4 (rowsOf 200 50 16 (by decide) (latA (adjOf V c) (projOf V c) (noiseOf V c))
      ⟨t.val - 55, by have := t.isLt; have : cfg1.N = 105 := N_1; omega⟩) (latA (adjOf V c) (projOf V c) (noiseOf V c)) := by
  have hN : t.val < 105 := lt_of_lt_of_eq t.isLt N_1
  have e : (⟨(t.val - 55) % 50, Nat.mod_lt _ (by decide)⟩ : Fin 50) = ⟨t.val - 55, by omega⟩ :=
    Fin.ext (Nat.mod_eq_of_lt (by omega))
  unfold out3; rw [e]

/-- The first call's staging buffers, which this call never touches, each whole at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- The region invariant before point `n`. -/
def PhiS (c : Dev nD) (n : ℕ) : sProp 𝕄 :=
  iprop(restS (F := F) c
    ∗ (∃ xs : Vec F S10000x80 .f32, ⌜Inv (adjOf V c) (projOf V c) (noiseOf V c) n xs⌝ ∗ owns (c : Thread nD τ) scM fullShare xs)
    ∗ (∃ r, prngReg c r))

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3 V c t
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := by
  dsimp only [dat1]; simp only [Fin.val_succ]

/-- The input windows are never idle. -/
theorem live0 (t : Fin cfg1.N) : cfg1.idle 0 (grid1.coords t) = false := rfl
theorem live1 (t : Fin cfg1.N) : cfg1.idle 1 (grid1.coords t) = false := rfl
theorem live2 (t : Fin cfg1.N) : cfg1.idle 2 (grid1.coords t) = false := rfl

/-- What the launch hands the region is the invariant before the first point: the scratch at anything. -/
theorem hin1 (c : Dev nD) : (Pipeline.ΦA spec1 c : sProp 𝕄) ⊢ (dat1 V c).Φ 0 := by
  rw [show (dat1 V c).Φ 0 = PhiS V c 0 from rfl]
  unfold Pipeline.ΦA PhiS restS
  rw [scopedRest1_eq]
  simp only [scM, owns_whole]
  iintro ⟨⟨H0, H1, H2, H3, H4, ⟨%f, HS⟩⟩, Hg⟩
  isplitl [H0 H1 H2 H3 H4]
  · isplitl [H0]; · iexact H0
    isplitl [H1]; · iexact H1
    isplitl [H2]; · iexact H2
    isplitl [H3]; · iexact H3
    iexact H4
  isplitl [HS]
  · iexists f; isplitr
    · ipureintro; exact Inv_zero _ _ _ _
    iexact HS
  iexact Hg

/-- After the last point the invariant gives the class's back: what the scratch holds is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val from rfl]
  unfold Pipeline.ΦA PhiS restS
  rw [scopedRest1_eq]
  simp only [scM, owns_whole]
  iintro ⟨⟨H0, H1, H2, H3, H4⟩, ⟨%xs, -, HS⟩, Hg⟩
  isplitl [H0 H1 H2 H3 H4 HS]
  · isplitl [H0]; · iexact H0
    isplitl [H1]; · iexact H1
    isplitl [H2]; · iexact H2
    isplitl [H3]; · iexact H3
    isplitl [H4]; · iexact H4
    iexists xs; iexact HS
  iexact Hg

end

end Cert.KernelIdeal.R1

end
-- ==== Proof.KI.Run.lean ====
/-
  The run of the whole program: two kernel regions in sequence, with no host operation between them.

  The buffer contents at the three boundaries are a fold from the launch memory: the first call's arrays at what its
  pipeline leaves, every other buffer as launched; then the second call's arrays at what its pipeline leaves, every other
  buffer as the first call left it.  Each region is a segment over the thread state "every unscoped buffer at the
  boundary's contents, the generator register at some state, nothing owed"; the second call's invariant carries its scratch,
  so it is entered from and left at the class invariant through the two entailments proved with its proof data.  The
  second call's body obligation is a hypothesis here.  Every final state holds every unscoped buffer at the last boundary's
  contents, from which both the arguments and the result are read.
-/
import proofs.«168291_g55903294324759_cont_9to1c4b_598_14_alg».proof.Proof.Gen.KernelIdeal.Launch
import proofs.«168291_g55903294324759_cont_9to1c4b_598_14_alg».proof.Proof.Gen.KernelIdeal.Skeleton
import proofs.«168291_g55903294324759_cont_9to1c4b_598_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168291_g55903294324759_cont_9to1c4b_598_14_alg».proof.Proof.KI.R0
import proofs.«168291_g55903294324759_cont_9to1c4b_598_14_alg».proof.Proof.KI.R1Dat

set_option maxRecDepth 16384

noncomputable section

namespace Cert.KernelIdeal.RunM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch: what the first call is entered from. -/
abbrev W0 : Dev nD → Valuation τ sig (Elt F) := fun c b => (s₀ m ρ).mem ((c : Dev nD), b)
/-- The same read at the TensorCore's references (what the first call's proof data take). -/
abbrev V1 : (c : Dev nD) → (b : Ref sig .tc) → Buf (Elt F) ((c : Thread nD τ).loc b) := fun c b => W0 m ρ c b
/-- At the first call's exit: its arrays at what the pipeline leaves (the inputs as entered, the output's write-backs
    folded), every other buffer as entered. -/
def W2 (c : Dev nD) : Valuation τ sig (Elt F) :=
  Pipeline.withArrays spec0 c (W0 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (the first call's exit contents, the second call's entry contents). -/
abbrev V2 : (c : Dev nD) → (b : Ref sig .tc) → Buf (Elt F) ((c : Thread nD τ).loc b) := fun c b => W2 m ρ c b
/-- At the first call's exit each of its arrays holds what the pipeline leaves and every other buffer what it held at
    entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W4 (c : Dev nD) : Valuation τ sig (Elt F) :=
  Pipeline.withArrays spec1 c (W2 m ρ c) fun w => (R1.dat1 (V2 m ρ) c).arrAt w cfg1.N
theorem W4_arr (c : Dev nD) (w : Fin cfg1.W) :
    W4 m ρ c (Proc.devRef .tc (Pipeline.arrRef spec1 w)) = (R1.dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
/-- At the second call's exit each of its arrays holds what the pipeline leaves and every other buffer what it held at
    entry. -/
theorem hF1 (c : Dev nD) (w : Fin cfg1.W) : (R1.dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: a region reads an argument through an input window or bypasses it, so the fold
    at an argument's buffer walks back to the launch memory -/

/-- `main_arg0` ends as launched: the second call reads it through input window 0, the first call bypasses it. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((R1.dat1 (V2 m ρ) c).arrAt_in 0 rfl _).trans (R1.A_eq1 (V2 m ρ) c 0))
    _ = W0 m ρ c (Proc.devRef .tc main_arg0) := W2_of_ne m ρ c main_arg0 (by decide)
    _ = m ((c : Thread nD τ).loc main_arg0) := rfl
/-- `main_arg1` ends as launched: the second call bypasses it, the first call reads it through input window 0. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((R0.dat0 (V1 m ρ) c).arrAt_in 0 rfl _).trans (R0.A_eq0 (V1 m ρ) c 0))
    _ = m ((c : Thread nD τ).loc main_arg1) := rfl
/-- `main_arg2` ends as launched: the second call bypasses it, the first call reads it through input window 1. -/
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((R0.dat0 (V1 m ρ) c).arrAt_in 1 rfl _).trans (R0.A_eq0 (V1 m ρ) c 1))
    _ = m ((c : Thread nD τ).loc main_arg2) := rfl
/-- `main_arg3` ends as launched: the second call bypasses it, the first call reads it through input window 2. -/
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((R0.dat0 (V1 m ρ) c).arrAt_in 2 rfl _).trans (R0.A_eq0 (V1 m ρ) c 2))
    _ = m ((c : Thread nD τ).loc main_arg3) := rfl
/-- `main_arg4` ends as launched: the second call bypasses it, the first call reads it through input window 3. -/
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 3).trans (((R0.dat0 (V1 m ρ) c).arrAt_in 3 rfl _).trans (R0.A_eq0 (V1 m ρ) c 3))
    _ = m ((c : Thread nD τ).loc main_arg4) := rfl
/-- `main_arg5` ends as launched: the second call reads it through input window 2, the first call bypasses it. -/
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 2).trans (((R1.dat1 (V2 m ρ) c).arrAt_in 2 rfl _).trans (R1.A_eq1 (V2 m ρ) c 2))
    _ = W0 m ρ c (Proc.devRef .tc main_arg5) := W2_of_ne m ρ c main_arg5 (by decide)
    _ = m ((c : Thread nD τ).loc main_arg5) := rfl

/-! ### The boundary contents at the buffers the calls read and write -/

/-- The result's buffer ends at what the second call's pipeline leaves in its output window's array. -/
theorem W4_main_v1 (c : Dev nD) : W4 m ρ c (Proc.devRef .tc main_v1) = (R1.dat1 (V2 m ρ) c).arrAt 3 cfg1.N :=
  W4_arr m ρ c 3
/-- The second call finds in the intermediate table what the first call's pipeline leaves in its output window's array. -/
theorem V2_main_v0 (c : Dev nD) : V2 m ρ c main_v0 = (R0.dat0 (V1 m ρ) c).arrAt 4 cfg0.N :=
  W2_arr m ρ c 4
/-- The second call finds its two arguments as launched: the first call bypasses them. -/
theorem V2_main_arg0 (c : Dev nD) : V2 m ρ c main_arg0 = m ((c : Thread nD τ).loc main_arg0) :=
  (W2_of_ne m ρ c main_arg0 (by decide)).trans rfl
theorem V2_main_arg5 (c : Dev nD) : V2 m ρ c main_arg5 = m ((c : Thread nD τ).loc main_arg5) :=
  (W2_of_ne m ρ c main_arg5 (by decide)).trans rfl
/-- The first call finds its four arguments as launched. -/
theorem V1_main_arg1 (c : Dev nD) : V1 m ρ c main_arg1 = m ((c : Thread nD τ).loc main_arg1) := rfl
theorem V1_main_arg2 (c : Dev nD) : V1 m ρ c main_arg2 = m ((c : Thread nD τ).loc main_arg2) := rfl
theorem V1_main_arg3 (c : Dev nD) : V1 m ρ c main_arg3 = m ((c : Thread nD τ).loc main_arg3) := rfl
theorem V1_main_arg4 (c : Dev nD) : V1 m ρ c main_arg4 = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first call over the thread state: entered from every unscoped buffer at the launch contents, left at `W2`. Its
    arrays split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the second call — the generator register, no table, the scoped buffers no window stages —
    is its invariant before the first point. -/
theorem hin1_of (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (R1.dat1 (V2 m ρ) c).Φ 0 := by
  have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (Pipeline.ΦA spec1 c : sProp 𝕄) := by
    unfold Pipeline.ΦA
    iintro ⟨Hp, -, Hr⟩
    isplitl [Hr]; · iexact Hr
    iexact Hp
  exact h.trans (R1.hin1 (V2 m ρ) c)

/-- The second call's invariant after the last point gives back the generator register and those scoped buffers. -/
theorem hout1_of (c : Dev nD) :
    (R1.dat1 (V2 m ρ) c).Φ (Fin.last cfg1.N)
      ⊢ (iprop((∃ r, prngReg c r) ∗ BI.emp ∗ Pipeline.scopedRest (Pipeline.pin (pcfgs (F := F)) adm 1).spec c) : sProp 𝕄) := by
  have h : (Pipeline.ΦA spec1 c : sProp 𝕄)
      ⊢ (iprop((∃ r, prngReg c r) ∗ BI.emp ∗ Pipeline.scopedRest (Pipeline.pin (pcfgs (F := F)) adm 1).spec c) : sProp 𝕄) := by
    unfold Pipeline.ΦA
    iintro ⟨Hr, Hp⟩
    isplitl [Hp]; · iexact Hp
    isplitr; · iempintro
    iexact Hr
  exact (R1.hout1 (V2 m ρ) c).trans h

set_option backward.isDefEq.respectTransparency.types false in
/-- The second call over the thread state: entered from every unscoped buffer at `W2`, left at `W4` (what the launch
    reads at the end). Its arrays split out of the unscoped buffers and put back at the exit contents; the generator
    register into the invariant and out; nothing owed; no semaphore of the kernel's own. -/
def reg1 (hb1 : ∀ c : Dev nD, BodyObligation (R1.dat1 (F := F) (V2 m ρ) c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1_of m ρ c
  hout c := by
    rw [Pipeline.ownSems0_none]
    exact hout1_of m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per call. -/
abbrev segs (hb1 : ∀ c : Dev nD, BodyObligation (R1.dat1 (F := F) (V2 m ρ) c) (defs₀ (F := F)) Variants.none () Set.univ) :
    List (Pipeline.Seg (pcfgs (F := F)) adm (pdats m ρ) () defs₀ 𝒱₀ L lv) :=
  [ .region (reg0 m ρ),
    .region (reg1 m ρ hb1) ]
/-- The program IS the run of the segments. -/
theorem main_run (hb1 : ∀ c : Dev nD, BodyObligation (R1.dat1 (F := F) (V2 m ρ) c) (defs₀ (F := F)) Variants.none () Set.univ) (c : Dev nD) :
    main (F := F) c = Pipeline.Seg.run (segs m ρ hb1) :=
  main_segs (F := F) adm (pdats m ρ) () 𝒱₀ L lv (reg0 m ρ) (reg1 m ρ hb1) c

set_option backward.isDefEq.respectTransparency.types false in
/-- THE RUN. At the compiled mesh, from any memory with zero counters, every weakly fair execution of the program on the
    TensorCores terminates, nothing faulting, and every final state holds every unscoped buffer at the last boundary's
    contents `W4`: the launch over the two segments, the last thread state read against the final state. -/
theorem run_all (hb1 : ∀ c : Dev nD, BodyObligation (R1.dat1 (F := F) (V2 m ρ) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.RunM

end
-- ==== Proof.KI.R1InvSteps.lean ====
/-
  The scratch invariant of the second call across one grid point.

  A point of phase k overwrites one rectangle of the scratch — rows [o, o + h) of one column band — and leaves the
  rest.  So each clause of the invariant after the point is read at (r, col) either inside the new rectangle, where
  the scratch holds the payload at the local position (r − o, col − band), or outside it, where it holds what it
  held and the invariant before the point applies.  Inside, the payload is by definition the whole-array value at
  that row: a panel's local row a of panel b is global row h · b + a.
-/
import proofs.«168291_g55903294324759_cont_9to1c4b_598_14_alg».proof.Proof.KI.R1Inv
import Idealize.ShloMosaic.Lib.WritesUnit

noncomputable section

namespace Cert.KernelIdeal.R1

open Idealize.ShloMosaic Idealize.ShloMosaic.ValueIdx Cert.KernelIdeal Cert.KernelIdeal.Gen Cert.KernelIdeal.Vals

variable {F : FTy → Type} [FloatOps F]

/-! ## Reading the scratch after one store -/

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- Inside the stored rectangle the scratch holds the payload at the local position. -/
theorem scrAfter_in (M : Memref sig .tc .vmem S10000x80 .f32) (hM : M.IsWhole) (xs : Vec F S10000x80 .f32)
    {off : Fin 2 → ℕ} (h w o c : ℕ) (inb : ∀ a, off a + (![h, w] : Fin 2 → ℕ) a ≤ S10000x80.size a)
    (pay : (⟨2, ![h, w]⟩ : Shape).Idx → F .f32) (heq : off = ![o, c]) (r : Fin 10000) (q : Fin 80) (a : Fin h) (b : Fin w)
    (hr : r.val = o + a.val) (hq : q.val = c + b.val) :
    scrAfter M hM xs ⟨Rect.unit (s := S10000x80) off ![h, w] inb, pay⟩ (ix2 r q) = pay (ix2 a b) := by
  unfold scrAfter
  exact View.read_writes_cons_unit_of_mem M.view (hM.unread xs) inb pay [] (ix2 r q) (ix2 a b) heq
    (Fin.forall_fin_two.mpr ⟨hr, hq⟩)

/-- Outside the stored rectangle, on some axis, the scratch holds what it held. -/
theorem scrAfter_out (M : Memref sig .tc .vmem S10000x80 .f32) (hM : M.IsWhole) (xs : Vec F S10000x80 .f32)
    {off off' size : Fin 2 → ℕ} (inb : ∀ a, off a + size a ≤ S10000x80.size a)
    (pay : (Rect.unit (s := S10000x80) off size inb).shape.Idx → F .f32) (y : S10000x80.Idx) (heq : off = off')
    (a : Fin 2) (ha : (y a).val < off' a ∨ off' a + size a ≤ (y a).val) :
    scrAfter M hM xs ⟨Rect.unit (s := S10000x80) off size inb, pay⟩ y = xs y := by
  unfold scrAfter
  exact (View.read_writes_cons_unit_of_not_mem M.view (hM.unread xs) inb pay [] y heq a ha).trans
    (congrFun (hM.read_unread xs) y)

/-! ## The panels of an array, and the whole-array values, at coordinates -/

/-- Row `a` of panel `b` is row `h · b + a` of the array. -/
theorem rowsOf_at (h nb n : Nat) (hh : h * nb = 10000) (A : Vec F ⟨2, ![10000, n]⟩ .f32) (b : Fin nb) (a : Fin h) (c : Fin n)
    (r : Fin 10000) (hr : r.val = h * b.val + a.val) : rowsOf h nb n hh A b (ix2 a c) = A (ix2 r c) := by
  unfold rowsOf
  exact congrArg A (ix2_congr hr.symm rfl)

/-- The aggregate at row `400 · b + a` is the body's product for panel `b`, at local row `a`. -/
theorem aggA_at (adj : Vec F S10000x10000 .f32) (PA : Vec F S10000x32 .f32) (r : Fin 10000) (j : Fin 32) (b : Fin 25)
    (a : Fin 400) (hr : r.val = 400 * b.val + a.val) :
    aggA adj PA (ix2 r j) = k1_pay2 (rowsOf 400 25 10000 (by decide) adj b) PA (ix2 a j) := by
  unfold aggA
  have hb : (⟨(ix2 r j 0).val / 400, by have := idx2_lt0 (ix2 r j); omega⟩ : Fin 25) = b :=
    Fin.ext (by show r.val / 400 = b.val; have := a.isLt; omega)
  have ha : (⟨(ix2 r j 0).val % 400, Nat.mod_lt _ (by decide)⟩ : Fin 400) = a :=
    Fin.ext (by show r.val % 400 = a.val; have := a.isLt; omega)
  rw [hb, ha]

/-- The latent sample at row `400 · b + a` is the body's value for panel `b`, at local row `a`. -/
theorem latA_at (adj : Vec F S10000x10000 .f32) (PA : Vec F S10000x32 .f32) (noise : Vec F S10000x16 .f32)
    (r : Fin 10000) (e : Fin 16) (b : Fin 25) (a : Fin 400) (hr : r.val = 400 * b.val + a.val) :
    latA adj PA noise (ix2 r e)
      = k1_pay3 (rowsOf 400 25 10000 (by decide) adj b) (aggA adj PA) (rowsOf 400 25 16 (by decide) noise b) (ix2 a e) := by
  unfold latA
  have hb : (⟨(ix2 r e 0).val / 400, by have := idx2_lt0 (ix2 r e); omega⟩ : Fin 25) = b :=
    Fin.ext (by show r.val / 400 = b.val; have := a.isLt; omega)
  have ha : (⟨(ix2 r e 0).val % 400, Nat.mod_lt _ (by decide)⟩ : Fin 400) = a :=
    Fin.ext (by show r.val % 400 = a.val; have := a.isLt; omega)
  rw [hb, ha]

/-! ## The loads of whole blocks and of whole column bands -/

/-- The copy phase's payload is the block it loaded. -/
theorem pay1_eq (v : Vec F S2000x32 .f32) : k1_pay1 v = v := by
  unfold k1_pay1
  exact (shapeCast_self _ _).trans (shapeCast_self _ _)

theorem zero2 : (![0, 0] : Fin 2 → ℕ) = fun _ => 0 := by funext a; fin_cases a <;> rfl

theorem ld_rProjBlk (x : Vec F S2000x32 .f32) : View.ld x rProjBlk = x := View.ld_unit_zero (S := S2000x32) zero2 _ x
theorem ld_rAdj (x : Vec F S400x10000 .f32) : View.ld x rAdj = x := View.ld_unit_zero (S := S400x10000) zero2 _ x
theorem ld_rNoise (x : Vec F S400x16 .f32) : View.ld x rNoise = x := View.ld_unit_zero (S := S400x16) zero2 _ x

/-- A load of `h` rows from row `o`, `w` columns from column `c`, read at local coordinates. -/
theorem ld_unit_at (xs : Vec F S10000x80 .f32) {off : Fin 2 → ℕ} (h w o c : ℕ)
    (inb : ∀ a, off a + (![h, w] : Fin 2 → ℕ) a ≤ S10000x80.size a) (heq : off = ![o, c]) (a : Fin h) (b : Fin w)
    (r : Fin 10000) (q : Fin 80) (hr : r.val = o + a.val) (hq : q.val = c + b.val) :
    View.ld xs (Rect.unit (s := S10000x80) off ![h, w] inb) (ix2 a b) = xs (ix2 r q) := by
  subst heq
  show xs ((Rect.unit (s := S10000x80) ![o, c] ![h, w] inb).idx (ix2 a b)) = xs (ix2 r q)
  refine congrArg xs (funext fun d => Fin.ext ?_)
  match d with
  | ⟨0, _⟩ => show o + 1 * a.val = r.val; omega
  | ⟨1, _⟩ => show c + 1 * b.val = q.val; omega

/-- The load of columns 0–31, all rows, is the projected table once every row of it is there. -/
theorem ldBandP (xs : Vec F S10000x80 .f32) (PA : Vec F S10000x32 .f32)
    (h : ∀ (r : Fin 10000) (j : Fin 32), xs (ix2 r (⟨j.val, by omega⟩ : Fin 80)) = PA (ix2 r j)) :
    View.ld xs rBandP = PA := by
  refine funext fun (x : (⟨2, ![10000, 32]⟩ : Shape).Idx) => ?_
  obtain ⟨r, j, rfl⟩ : ∃ (r : Fin 10000) (j : Fin 32), x = ix2 r j := ⟨x 0, x 1, eq_ix2 x⟩
  exact (ld_unit_at xs 10000 32 0 0 _ rfl r j r ⟨j.val, by omega⟩ (by omega) (by show j.val = 0 + j.val; omega)).trans (h r j)

/-- The load of columns 32–63, all rows, is the first aggregate once every row of it is there. -/
theorem ldBandG (xs : Vec F S10000x80 .f32) (G : Vec F S10000x32 .f32)
    (h : ∀ (r : Fin 10000) (j : Fin 32), xs (ix2 r (⟨32 + j.val, by omega⟩ : Fin 80)) = G (ix2 r j)) :
    View.ld xs rBandG = G := by
  refine funext fun (x : (⟨2, ![10000, 32]⟩ : Shape).Idx) => ?_
  obtain ⟨r, j, rfl⟩ : ∃ (r : Fin 10000) (j : Fin 32), x = ix2 r j := ⟨x 0, x 1, eq_ix2 x⟩
  exact (ld_unit_at xs 10000 32 0 32 _ rfl r j r ⟨32 + j.val, by omega⟩ (by omega) rfl).trans (h r j)

/-- The load of columns 64–79, all rows, is the latent sample once every row of it is there. -/
theorem ldBandZ (xs : Vec F S10000x80 .f32) (Z : Vec F S10000x16 .f32)
    (h : ∀ (r : Fin 10000) (e : Fin 16), xs (ix2 r (⟨64 + e.val, by omega⟩ : Fin 80)) = Z (ix2 r e)) :
    View.ld xs rBandZ = Z := by
  refine funext fun (x : (⟨2, ![10000, 16]⟩ : Shape).Idx) => ?_
  obtain ⟨r, e, rfl⟩ : ∃ (r : Fin 10000) (e : Fin 16), x = ix2 r e := ⟨x 0, x 1, eq_ix2 x⟩
  exact (ld_unit_at xs 10000 16 0 64 _ rfl r e r ⟨64 + e.val, by omega⟩ (by omega) rfl).trans (h r e)

variable (adj : Vec F S10000x10000 .f32) (PA : Vec F S10000x32 .f32) (noise : Vec F S10000x16 .f32)

/-! ## The invariant across one grid point of each phase -/

/-- A copy point adds 2000 rows of the projected table. -/
theorem inv_step1 (t : Fin cfg1.N) (ht : t.val < 5) (M : Memref sig .tc .vmem S10000x80 .f32) (hM : M.IsWhole)
    (xs : Vec F S10000x80 .f32) (x2 : Vec F S2000x32 .f32)
    (hx2 : x2 = rowsOf 2000 5 32 (by decide) PA ⟨t.val, ht⟩)
    (h : Inv adj PA noise t.val xs) (h1 : c1 (grid1.coords t)) :
    Inv adj PA noise (t.val + 1) (scrAfter M hM xs
      ⟨Rect.unit (s := S10000x80) (k1_off1 (grid1.coords t)) S2000x32.size (k1_off1_inb _ h1), k1_pay1 (View.ld x2 rProjBlk)⟩) := by
  subst hx2
  unfold Inv at h ⊢
  obtain ⟨hP, hG, hZ⟩ := h
  have heq := off1 t ht
  have m5 : min t.val 5 = t.val := Nat.min_eq_left (by omega)
  have m5' : min (t.val + 1) 5 = t.val + 1 := Nat.min_eq_left (by omega)
  have m30' : min (t.val + 1) 30 = t.val + 1 := Nat.min_eq_left (by omega)
  have m55' : min (t.val + 1) 55 = t.val + 1 := Nat.min_eq_left (by omega)
  refine ⟨fun r j hr => ?_, fun r j hr => ?_, fun r e hr => ?_⟩
  · rw [m5'] at hr
    by_cases hlt : r.val < 2000 * t.val
    · refine (scrAfter_out M hM xs _ _ _ heq 0 (Or.inl ?_)).trans (hP r j (by rw [m5]; exact hlt))
      exact hlt
    · have ha : r.val - 2000 * t.val < 2000 := by omega
      refine (scrAfter_in M hM xs 2000 32 (2000 * t.val) 0 _ _ heq r ⟨j.val, by omega⟩ ⟨r.val - 2000 * t.val, ha⟩ j
        (by show r.val = 2000 * t.val + (r.val - 2000 * t.val); omega) (by show j.val = 0 + j.val; omega)).trans ?_
      rw [pay1_eq, ld_rProjBlk]
      exact rowsOf_at 2000 5 32 _ PA ⟨t.val, ht⟩ _ j r (by show r.val = 2000 * t.val + (r.val - 2000 * t.val); omega)
  · rw [m30'] at hr; omega
  · rw [m55'] at hr; omega

/-- A point of the first aggregation adds a 400-row panel of the aggregate. -/
theorem inv_step2 (t : Fin cfg1.N) (ht : 5 ≤ t.val) (ht' : t.val < 30) (M : Memref sig .tc .vmem S10000x80 .f32) (hM : M.IsWhole)
    (xs : Vec F S10000x80 .f32) (x1 : Vec F S400x10000 .f32)
    (hx1 : x1 = rowsOf 400 25 10000 (by decide) adj ⟨t.val - 5, by omega⟩)
    (h : Inv adj PA noise t.val xs) (h2 : c2 (grid1.coords t)) :
    Inv adj PA noise (t.val + 1) (scrAfter M hM xs
      ⟨Rect.unit (s := S10000x80) (k1_off2 (grid1.coords t)) S400x32.size (k1_off2_inb _ h2), k1_pay2 (View.ld x1 rAdj) (View.ld xs rBandP)⟩) := by
  subst hx1
  unfold Inv at h ⊢
  obtain ⟨hP, hG, hZ⟩ := h
  have heq := off2 t ht ht'
  have m5 : min t.val 5 = 5 := Nat.min_eq_right (by omega)
  have m5' : min (t.val + 1) 5 = 5 := Nat.min_eq_right (by omega)
  have m30 : min t.val 30 = t.val := Nat.min_eq_left (by omega)
  have m30' : min (t.val + 1) 30 = t.val + 1 := Nat.min_eq_left (by omega)
  have m55' : min (t.val + 1) 55 = t.val + 1 := Nat.min_eq_left (by omega)
  have hband : View.ld xs rBandP = PA := ldBandP xs PA (fun r j => hP r j (by rw [m5]; have := r.isLt; omega))
  refine ⟨fun r j hr => ?_, fun r j hr => ?_, fun r e hr => ?_⟩
  · refine (scrAfter_out M hM xs _ _ _ heq 1 (Or.inl ?_)).trans (hP r j (by rw [m5]; have := r.isLt; omega))
    show j.val < 32
    exact j.isLt
  · rw [m30'] at hr
    by_cases hlt : r.val < 400 * (t.val - 5)
    · refine (scrAfter_out M hM xs _ _ _ heq 0 (Or.inl ?_)).trans (hG r j (by rw [m30]; exact hlt))
      exact hlt
    · have ha : r.val - 400 * (t.val - 5) < 400 := by omega
      refine (scrAfter_in M hM xs 400 32 (400 * (t.val - 5)) 32 _ _ heq r ⟨32 + j.val, by omega⟩ ⟨r.val - 400 * (t.val - 5), ha⟩ j
        (by show r.val = 400 * (t.val - 5) + (r.val - 400 * (t.val - 5)); omega) rfl).trans ?_
      rw [ld_rAdj, hband]
      exact (aggA_at adj PA r j ⟨t.val - 5, by omega⟩ ⟨r.val - 400 * (t.val - 5), ha⟩
        (by show r.val = 400 * (t.val - 5) + (r.val - 400 * (t.val - 5)); omega)).symm
  · rw [m55'] at hr; omega

/-- A point of the latent phase adds a 400-row panel of the latent sample. -/
theorem inv_step3 (t : Fin cfg1.N) (ht : 30 ≤ t.val) (ht' : t.val < 55) (M : Memref sig .tc .vmem S10000x80 .f32) (hM : M.IsWhole)
    (xs : Vec F S10000x80 .f32) (x1 : Vec F S400x10000 .f32) (x3 : Vec F S400x16 .f32)
    (hx1 : x1 = rowsOf 400 25 10000 (by decide) adj ⟨t.val - 30, by omega⟩)
    (hx3 : x3 = rowsOf 400 25 16 (by decide) noise ⟨t.val - 30, by omega⟩)
    (h : Inv adj PA noise t.val xs) (h3 : c3 (grid1.coords t)) :
    Inv adj PA noise (t.val + 1) (scrAfter M hM xs
      ⟨Rect.unit (s := S10000x80) (k1_off3 (grid1.coords t)) S400x16.size (k1_off3_inb _ h3), k1_pay3 (View.ld x1 rAdj) (View.ld xs rBandG) (View.ld x3 rNoise)⟩) := by
  subst hx1
  subst hx3
  unfold Inv at h ⊢
  obtain ⟨hP, hG, hZ⟩ := h
  have heq := off3 t ht ht'
  have m5 : min t.val 5 = 5 := Nat.min_eq_right (by omega)
  have m5' : min (t.val + 1) 5 = 5 := Nat.min_eq_right (by omega)
  have m30 : min t.val 30 = 30 := Nat.min_eq_right (by omega)
  have m30' : min (t.val + 1) 30 = 30 := Nat.min_eq_right (by omega)
  have m55 : min t.val 55 = t.val := Nat.min_eq_left (by omega)
  have m55' : min (t.val + 1) 55 = t.val + 1 := Nat.min_eq_left (by omega)
  have hband : View.ld xs rBandG = aggA adj PA :=
    ldBandG xs (aggA adj PA) (fun r j => hG r j (by rw [m30]; have := r.isLt; omega))
  refine ⟨fun r j hr => ?_, fun r j hr => ?_, fun r e hr => ?_⟩
  · refine (scrAfter_out M hM xs _ _ _ heq 1 (Or.inl ?_)).trans (hP r j (by rw [m5]; have := r.isLt; omega))
    show j.val < 64
    have := j.isLt; omega
  · refine (scrAfter_out M hM xs _ _ _ heq 1 (Or.inl ?_)).trans (hG r j (by rw [m30]; have := r.isLt; omega))
    show 32 + j.val < 64
    have := j.isLt; omega
  · rw [m55'] at hr
    by_cases hlt : r.val < 400 * (t.val - 30)
    · refine (scrAfter_out M hM xs _ _ _ heq 0 (Or.inl ?_)).trans (hZ r e (by rw [m55]; exact hlt))
      exact hlt
    · have ha : r.val - 400 * (t.val - 30) < 400 := by omega
      refine (scrAfter_in M hM xs 400 16 (400 * (t.val - 30)) 64 _ _ heq r ⟨64 + e.val, by omega⟩ ⟨r.val - 400 * (t.val - 30), ha⟩ e
        (by show r.val = 400 * (t.val - 30) + (r.val - 400 * (t.val - 30)); omega) rfl).trans ?_
      rw [ld_rAdj, ld_rNoise, hband]
      exact (latA_at adj PA noise r e ⟨t.val - 30, by omega⟩ ⟨r.val - 400 * (t.val - 30), ha⟩
        (by show r.val = 400 * (t.val - 30) + (r.val - 400 * (t.val - 30)); omega)).symm

/-- A result point leaves the scratch as it is, and its two loads read a 200-row panel of the latent sample and all
    of it. -/
theorem inv_step4 (t : Fin cfg1.N) (ht : 55 ≤ t.val) (xs : Vec F S10000x80 .f32)
    (h : Inv adj PA noise t.val xs) (h4 : c4 (grid1.coords t)) :
    Inv adj PA noise (t.val + 1) xs ∧
    k1_pay4 (View.ld xs (Rect.unit (s := S10000x80) (k1_off4 (grid1.coords t)) S200x16.size (k1_off4_inb _ h4))) (View.ld xs rBandZ)
      = k1_pay4 (rowsOf 200 50 16 (by decide) (latA adj PA noise) ⟨t.val - 55, by have := t.isLt; have : cfg1.N = 105 := N_1; omega⟩) (latA adj PA noise) := by
  have hN : t.val < 105 := by have := t.isLt; have : cfg1.N = 105 := N_1; omega
  have m5 : min t.val 5 = 5 := Nat.min_eq_right (by omega)
  have m5' : min (t.val + 1) 5 = 5 := Nat.min_eq_right (by omega)
  have m30 : min t.val 30 = 30 := Nat.min_eq_right (by omega)
  have m30' : min (t.val + 1) 30 = 30 := Nat.min_eq_right (by omega)
  have m55 : min t.val 55 = 55 := Nat.min_eq_right (by omega)
  have m55' : min (t.val + 1) 55 = 55 := Nat.min_eq_right (by omega)
  unfold Inv at h ⊢
  rw [m5', m30', m55']
  rw [m5, m30, m55] at h
  refine ⟨h, ?_⟩
  obtain ⟨hP, hG, hZ⟩ := h
  have hZall : View.ld xs rBandZ = latA adj PA noise :=
    ldBandZ xs (latA adj PA noise) (fun r e => hZ r e (by have := r.isLt; omega))
  have hpanel : View.ld xs (Rect.unit (s := S10000x80) (k1_off4 (grid1.coords t)) S200x16.size (k1_off4_inb _ h4))
      = rowsOf 200 50 16 (by decide) (latA adj PA noise) ⟨t.val - 55, by omega⟩ := by
    refine funext fun (x : (⟨2, ![200, 16]⟩ : Shape).Idx) => ?_
    obtain ⟨a, e, rfl⟩ : ∃ (a : Fin 200) (e : Fin 16), x = ix2 a e := ⟨x 0, x 1, eq_ix2 x⟩
    have hrow : 200 * (t.val - 55) + a.val < 10000 := by have := a.isLt; omega
    refine (ld_unit_at xs 200 16 (200 * (t.val - 55)) 64 _ (off4 t ht) a e ⟨200 * (t.val - 55) + a.val, hrow⟩
      ⟨64 + e.val, by omega⟩ rfl rfl).trans ?_
    exact (hZ _ e (by show 200 * (t.val - 55) + a.val < 400 * (55 - 30); omega)).trans
      (rowsOf_at 200 50 16 _ (latA adj PA noise) ⟨t.val - 55, by omega⟩ a e _ rfl).symm
  rw [hpanel, hZall]

end Cert.KernelIdeal.R1

end
-- ==== Proof.KI.R1Oblig.lean ====
import proofs.«168291_g55903294324759_cont_9to1c4b_598_14_alg».proof.Proof.Gen.KernelIdeal.Launch
import proofs.«168291_g55903294324759_cont_9to1c4b_598_14_alg».proof.Proof.Gen.KernelIdeal.Skeleton
import proofs.«168291_g55903294324759_cont_9to1c4b_598_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«168291_g55903294324759_cont_9to1c4b_598_14_alg».proof.Proof.KI.R1Dat
import proofs.«168291_g55903294324759_cont_9to1c4b_598_14_alg».proof.Proof.KI.R1InvSteps
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Vals

section
variable (V : (c : Dev nD) → (b : Ref sig .tc) → Buf (Elt F) ((c : Thread nD τ).loc b))

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the phase the point is in decides which conditional runs; the invariant hands the body the
    scratch at contents satisfying the scratch invariant and takes it back at the stored contents, which satisfy the
    next point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, Phi_castSucc, Phi_succ]
  rw [show (dat1 V c).leavesExact 0 t = owns (c : Thread nD τ) (st1_0 t) fullShare ((dat1 V c).after 0 t) from by
        unfold Dat.leavesExact; rw [live0 t], after1_0,
      show (dat1 V c).leavesExact 1 t = owns (c : Thread nD τ) (st1_1 t) fullShare ((dat1 V c).after 1 t) from by
        unfold Dat.leavesExact; rw [live1 t], after1_1,
      show (dat1 V c).leavesExact 2 t = owns (c : Thread nD τ) (st1_2 t) fullShare ((dat1 V c).after 2 t) from by
        unfold Dat.leavesExact; rw [live2 t], after1_2]
  have hN : t.val < 105 := lt_of_lt_of_eq t.isLt N_1
  unfold PhiS
  by_cases p1 : t.val < 5
  · have h1 : c1 (grid1.coords t) := (hc1 t).mpr p1
    have h2 : ¬ c2 (grid1.coords t) := fun h => by have := (hc2 t).mp h; omega
    have h3 : ¬ c3 (grid1.coords t) := fun h => by have := (hc3 t).mp h; omega
    have h4 : ¬ c4 (grid1.coords t) := fun h => by have := (hc4 t).mp h; omega
    rw [Dat.leavesExact_idle (dat1 V c) 3 t (idle3 t (by omega)) (noFlush3 t (by omega))]
    iintro ⟨⟨Hr, ⟨%xs, %hinv, HS⟩, Hg⟩, Ho, ⟨%d0, H0⟩, ⟨%d1, H1⟩, ⟨%d2, H2⟩, ⟨%d3, H3⟩⟩
    iapply (run1 c Set.univ (grid1.coords t) _ _ _ _ _ _ _ _ _ _ h1 h2 h3 h4 (iblk1 V c 1 t) xs _)
    isplitl [H1]; · iexact H1
    isplitl [HS]; · iexact HS
    iintro ⟨H1, HS⟩
    isplitl [Hr HS Hg]
    · isplitl [Hr]; · iexact Hr
      isplitl [HS]
      · iexists _; isplitr
        swap; · iexact HS
        ipureintro
        exact inv_step1 (adjOf V c) (projOf V c) (noiseOf V c) t p1 _ _ xs (iblk1 V c 1 t) (blk1_1 V c t p1) hinv h1
      iexact Hg
    isplitl [Ho]; · iexact Ho
    isplitl [H0]; · iexact H0
    isplitl [H1]; · iexact H1
    isplitl [H2]; · iexact H2
    iexists _; iexact H3
  · by_cases p2 : t.val < 30
    · have h1 : ¬ c1 (grid1.coords t) := fun h => by have := (hc1 t).mp h; omega
      have h2 : c2 (grid1.coords t) := (hc2 t).mpr ⟨by omega, p2⟩
      have h3 : ¬ c3 (grid1.coords t) := fun h => by have := (hc3 t).mp h; omega
      have h4 : ¬ c4 (grid1.coords t) := fun h => by have := (hc4 t).mp h; omega
      rw [Dat.leavesExact_idle (dat1 V c) 3 t (idle3 t (by omega)) (noFlush3 t (by omega))]
      iintro ⟨⟨Hr, ⟨%xs, %hinv, HS⟩, Hg⟩, Ho, ⟨%d0, H0⟩, ⟨%d1, H1⟩, ⟨%d2, H2⟩, ⟨%d3, H3⟩⟩
      iapply (run2 c Set.univ (grid1.coords t) _ _ _ _ _ _ _ _ _ _ h1 h2 h3 h4 (iblk1 V c 0 t) xs _)
      isplitl [H0]; · iexact H0
      isplitl [HS]; · iexact HS
      iintro ⟨H0, HS⟩
      isplitl [Hr HS Hg]
      · isplitl [Hr]; · iexact Hr
        isplitl [HS]
        · iexists _; isplitr
          swap; · iexact HS
          ipureintro
          exact inv_step2 (adjOf V c) (projOf V c) (noiseOf V c) t (by omega) p2 _ _ xs (iblk1 V c 0 t) (blk0_2 V c t (by omega) p2) hinv h2
        iexact Hg
      isplitl [Ho]; · iexact Ho
      isplitl [H0]; · iexact H0
      isplitl [H1]; · iexact H1
      isplitl [H2]; · iexact H2
      iexists _; iexact H3
    · by_cases p3 : t.val < 55
      · have h1 : ¬ c1 (grid1.coords t) := fun h => by have := (hc1 t).mp h; omega
        have h2 : ¬ c2 (grid1.coords t) := fun h => by have := (hc2 t).mp h; omega
        have h3 : c3 (grid1.coords t) := (hc3 t).mpr ⟨by omega, p3⟩
        have h4 : ¬ c4 (grid1.coords t) := fun h => by have := (hc4 t).mp h; omega
        rw [Dat.leavesExact_idle (dat1 V c) 3 t (idle3 t (by omega)) (noFlush3 t (by omega))]
        iintro ⟨⟨Hr, ⟨%xs, %hinv, HS⟩, Hg⟩, Ho, ⟨%d0, H0⟩, ⟨%d1, H1⟩, ⟨%d2, H2⟩, ⟨%d3, H3⟩⟩
        iapply (run3 c Set.univ (grid1.coords t) _ _ _ _ _ _ _ _ _ _ h1 h2 h3 h4 (iblk1 V c 0 t) (iblk1 V c 2 t) xs _)
        isplitl [H0]; · iexact H0
        isplitl [H2]; · iexact H2
        isplitl [HS]; · iexact HS
        iintro ⟨H0, H2, HS⟩
        isplitl [Hr HS Hg]
        · isplitl [Hr]; · iexact Hr
          isplitl [HS]
          · iexists _; isplitr
            swap; · iexact HS
            ipureintro
            exact inv_step3 (adjOf V c) (projOf V c) (noiseOf V c) t (by omega) p3 _ _ xs (iblk1 V c 0 t) (iblk1 V c 2 t)
              (blk0_3 V c t (by omega) p3) (blk2_3 V c t (by omega) p3) hinv h3
          iexact Hg
        isplitl [Ho]; · iexact Ho
        isplitl [H0]; · iexact H0
        isplitl [H1]; · iexact H1
        isplitl [H2]; · iexact H2
        iexists _; iexact H3
      · have h1 : ¬ c1 (grid1.coords t) := fun h => by have := (hc1 t).mp h; omega
        have h2 : ¬ c2 (grid1.coords t) := fun h => by have := (hc2 t).mp h; omega
        have h3 : ¬ c3 (grid1.coords t) := fun h => by have := (hc3 t).mp h; omega
        have h4 : c4 (grid1.coords t) := (hc4 t).mpr (by omega)
        rw [show (dat1 V c).leavesExact 3 t = owns (c : Thread nD τ) (st1_3 t) fullShare ((dat1 V c).after 3 t) from by
              unfold Dat.leavesExact; rw [live3 t (by omega)], after1_3, out3_eq V c t (by omega)]
        iintro ⟨⟨Hr, ⟨%xs, %hinv, HS⟩, Hg⟩, Ho, ⟨%d0, H0⟩, ⟨%d1, H1⟩, ⟨%d2, H2⟩, ⟨%d3, H3⟩⟩
        have hstep := inv_step4 (adjOf V c) (projOf V c) (noiseOf V c) t (by omega) xs hinv h4
        rw [← hstep.2]
        iapply (run4 c Set.univ (grid1.coords t) _ _ _ _ _ _ _ _ _ _ h1 h2 h3 h4 xs _)
        isplitl [H3]; · iexists _; iexact H3
        isplitl [HS]; · iexact HS
        iintro ⟨H3, HS⟩
        isplitl [Hr HS Hg]
        · isplitl [Hr]; · iexact Hr
          isplitl [HS]
          · iexists _; isplitr
            swap; · iexact HS
            ipureintro
            exact hstep.1
          iexact Hg
        isplitl [Ho]; · iexact Ho
        isplitl [H0]; · iexact H0
        isplitl [H1]; · iexact H1
        isplitl [H2]; · iexact H2
        iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.R1

end
-- ==== Proof.KI.Final.lean ====
import proofs.«168291_g55903294324759_cont_9to1c4b_598_14_alg».proof.Proof.KI.Run
import proofs.«168291_g55903294324759_cont_9to1c4b_598_14_alg».proof.Proof.KI.R1Oblig

noncomputable section

namespace Cert.KernelIdeal.Final

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! # The program's run, read at its arguments and at its result

The run over the two regions ends with every unscoped buffer at the last boundary's contents.  At an argument that is the
launch memory: no region writes an argument.  At the result it is what the second region's write-backs leave, which at the
ideal instance is the Gram matrix of the latent rows of the specification. -/

/-- The run, with the second region's body obligation supplied. -/
theorem run : θ_run defs (onTc (τ := τ) (main (F := F))) ⟨m, fun _ => 0, ρ⟩
    (fun r => ∀ c : Dev nD, ∀ b ∈ Pipeline.ucRefs τ sig, r.2.mem ((c : Thread nD τ).1, b) = RunM.W4 m ρ c b) :=
  RunM.run_all m ρ (fun c => R1.body_obligation1 (RunM.V2 m ρ) c)

/-- Every weakly fair execution terminates, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (RunM.mem_uc main_arg0 (by decide))).trans (RunM.W4_main_arg0 m ρ c),
     (h c _ (RunM.mem_uc main_arg1 (by decide))).trans (RunM.W4_main_arg1 m ρ c),
     (h c _ (RunM.mem_uc main_arg2 (by decide))).trans (RunM.W4_main_arg2 m ρ c),
     (h c _ (RunM.mem_uc main_arg3 (by decide))).trans (RunM.W4_main_arg3 m ρ c),
     (h c _ (RunM.mem_uc main_arg4 (by decide))).trans (RunM.W4_main_arg4 m ρ c),
     (h c _ (RunM.mem_uc main_arg5 (by decide))).trans (RunM.W4_main_arg5 m ρ c)⟩) (run m ρ)

end Cert.KernelIdeal.Final

end
-- ==== Proof.KI.R0Val.lean ====
import proofs.«168291_g55903294324759_cont_9to1c4b_598_14_alg».proof.Proof.KI.R0
import Idealize.ShloMosaic.Lib.Pipeline.Value
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

section Regions
variable (V : (c : Dev nD) → (b : Ref sig .tc) → Buf (Elt F) ((c : Thread nD τ).loc b))

/-! # The first pallas_call's output array after the region

One grid point; every window is its whole array. So each input block read is the array itself, the one store
through the whole output buffer leaves its payload, and the one write-back covers the output array. -/

theorem zeros2 : (![0, 0] : Fin 2 → Nat) = fun _ => 0 := funext fun a => by fin_cases a <;> rfl

/-! ## Each input block is the array -/

theorem iblk0_0 (c : Dev nD) (t : Fin cfg0.N) :
    (iblk0 V c 0 t : Vec F S10000x128 .f32) = (V c main_arg1 : S10000x128.Idx → Elt F .f32) := by
  funext x
  unfold iblk0
  rw [View.read_apply]
  show V c main_arg1 _ = V c main_arg1 _
  congr 1
  funext a
  apply Fin.ext
  match a with
  | ⟨0, _⟩ => show win0_0.index t 0 * 10000 + 1 * (x 0).val = (x 0).val; show 0 * 10000 + 1 * (x 0).val = (x 0).val; omega
  | ⟨1, _⟩ => show win0_0.index t 1 * 128 + 1 * (x 1).val = (x 1).val; show 0 * 128 + 1 * (x 1).val = (x 1).val; omega

theorem iblk0_1 (c : Dev nD) (t : Fin cfg0.N) :
    (iblk0 V c 1 t : Vec F S128x64 .f32) = (V c main_arg2 : S128x64.Idx → Elt F .f32) := by
  funext x
  unfold iblk0
  rw [View.read_apply]
  show V c main_arg2 _ = V c main_arg2 _
  congr 1
  funext a
  apply Fin.ext
  match a with
  | ⟨0, _⟩ => show win0_1.index t 0 * 128 + 1 * (x 0).val = (x 0).val; show 0 * 128 + 1 * (x 0).val = (x 0).val; omega
  | ⟨1, _⟩ => show win0_1.index t 1 * 64 + 1 * (x 1).val = (x 1).val; show 0 * 64 + 1 * (x 1).val = (x 1).val; omega

theorem iblk0_2 (c : Dev nD) (t : Fin cfg0.N) :
    (iblk0 V c 2 t : Vec F S64x16 .f32) = (V c main_arg3 : S64x16.Idx → Elt F .f32) := by
  funext x
  unfold iblk0
  rw [View.read_apply]
  show V c main_arg3 _ = V c main_arg3 _
  congr 1
  funext a
  apply Fin.ext
  match a with
  | ⟨0, _⟩ => show win0_2.index t 0 * 64 + 1 * (x 0).val = (x 0).val; show 0 * 64 + 1 * (x 0).val = (x 0).val; omega
  | ⟨1, _⟩ => show win0_2.index t 1 * 16 + 1 * (x 1).val = (x 1).val; show 0 * 16 + 1 * (x 1).val = (x 1).val; omega

theorem iblk0_3 (c : Dev nD) (t : Fin cfg0.N) :
    (iblk0 V c 3 t : Vec F S64x16 .f32) = (V c main_arg4 : S64x16.Idx → Elt F .f32) := by
  funext x
  unfold iblk0
  rw [View.read_apply]
  show V c main_arg4 _ = V c main_arg4 _
  congr 1
  funext a
  apply Fin.ext
  match a with
  | ⟨0, _⟩ => show win0_3.index t 0 * 64 + 1 * (x 0).val = (x 0).val; show 0 * 64 + 1 * (x 0).val = (x 0).val; omega
  | ⟨1, _⟩ => show win0_3.index t 1 * 16 + 1 * (x 1).val = (x 1).val; show 0 * 16 + 1 * (x 1).val = (x 1).val; omega

/-! ## What the one point writes back, and the array it leaves -/

/-- The point writes back the body's payload of the four argument arrays as the region finds them. -/
theorem flushed0_4 (c : Dev nD) (t : Fin cfg0.N) :
    (dat0 V c).flushed 4 t = ((cfg0.win 4).blk t).view.read (Elt F)
      (k0_pay1 (V c main_arg3) (V c main_arg4) (V c main_arg2) (V c main_arg1)) := by
  show (cfg0.win 4).cut (grid0.coords t) ((dat0 V c).after 4 t) = _
  rw [after0_4]
  unfold out0_4
  rw [View.canon_unit_zero zeros2]
  simp only [View.ld_unit_zero (S := S10000x128) zeros2, View.ld_unit_zero (S := S128x64) zeros2, View.ld_unit_zero (S := S64x16) zeros2]
  rw [iblk0_0, iblk0_1, iblk0_2, iblk0_3]
  have hz' : (fun a => win0_4.index t a * main_v0.ty.shape.size a) = fun _ => 0 := funext fun a => Nat.zero_mul _
  exact (Memref.read_access_unit_zero (Elt F) main_v0 hz' (fun a => by rw [congrFun hz' a]; simp) _).symm

/-- After the region the output array is the body's payload of the four argument arrays as entered. -/
theorem arr0_4 (c : Dev nD) :
    (dat0 V c).arrAt 4 cfg0.N = k0_pay1 (V c main_arg3) (V c main_arg4) (V c main_arg2) (V c main_arg1) :=
  (dat0 V c).arrAt_eq_of_cover 4 _ (fun t _ => flushed0_4 V c t) fun i =>
    ⟨t0_0, flush0_4 t0_0, by
      show i ∈ ((View.whole main_v0).slice (win0_4.rect t0_0)).set
      rw [View.set_slice_whole, Rect.mem_set_unit]
      intro a
      have h0 : (i 0 : Nat) < 10000 := (i 0).isLt
      have h1 : (i 1 : Nat) < 32 := (i 1).isLt
      match a with
      | ⟨0, _⟩ => show 0 * 10000 ≤ (i 0 : Nat) ∧ (i 0 : Nat) < 0 * 10000 + 10000; omega
      | ⟨1, _⟩ => show 0 * 32 ≤ (i 1 : Nat) ∧ (i 1 : Nat) < 0 * 32 + 32; omega⟩

end Regions
end Cert.KernelIdeal.R0
end
-- ==== Proof.KI.R1Val.lean ====
import proofs.«168291_g55903294324759_cont_9to1c4b_598_14_alg».proof.Proof.KI.R1Dat
import Idealize.ShloMosaic.Lib.Pipeline.Value
import Idealize.ShloMosaic.Lib.Tactic

set_option maxRecDepth 16384

noncomputable section

namespace Cert.KernelIdeal.R1

open Cert.KernelIdeal Cert.KernelIdeal.Gen Cert.KernelIdeal.Vals
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {F : FTy → Type} [FloatOps F]

section Regions
variable (V : (c : Dev nD) → (b : Ref sig .tc) → Buf (Elt F) ((c : Thread nD τ).loc b))

/-! # The second call's result array after the region

Only the points of the last phase write the result window back.  Point `t ≥ 55` writes rows `[200 (t − 55), 200 (t − 55) + 200)`
of the whole-array function `outA` of the arrays the region was entered with, and these fifty panels cover the array. -/

/-- A point that writes the result window back is in the last phase. -/
theorem last_of_flush (t : Fin cfg1.N) (hf : (cfg1.win 3).flush t = true) : 55 ≤ t.val := by
  by_contra h
  have := noFlush3 t (by omega)
  rw [this] at hf
  exact Bool.false_ne_true hf

/-- What a point of the last phase writes back: its 200 rows of `outA`. -/
theorem flushed1_3 (c : Dev nD) (t : Fin cfg1.N) (hf : (cfg1.win 3).flush t = true) :
    (dat1 V c).flushed 3 t = ((cfg1.win 3).blk t).view.read (Elt F) (outA (adjOf V c) (projOf V c) (noiseOf V c)) := by
  have hN : t.val < 105 := lt_of_lt_of_eq t.isLt N_1
  have h55 : 55 ≤ t.val := last_of_flush t hf
  show (cfg1.win 3).cut (grid1.coords t) ((dat1 V c).after 3 t) = _
  rw [after1_3, out3_eq V c t h55]
  refine Eq.trans ?_ (read3 (outA (adjOf V c) (projOf V c) (noiseOf V c)) t h55).symm
  funext y
  have hy0 : (y 0).val < 200 := idx2_lt0 y
  have e1 : (⟨(200 * (t.val - 55) + (y 0).val) / 200, by omega⟩ : Fin 50) = ⟨t.val - 55, by omega⟩ :=
    Fin.ext (by show (200 * (t.val - 55) + (y 0).val) / 200 = t.val - 55; omega)
  have e2 : (ix2 (⟨(200 * (t.val - 55) + (y 0).val) % 200, Nat.mod_lt _ (by decide)⟩ : Fin 200)
      (⟨(y 1).val, idx2_lt1 y⟩ : Fin 10000) : S200x10000.Idx) = y := by
    funext a
    apply Fin.ext
    match a with
    | ⟨0, _⟩ => show (200 * (t.val - 55) + (y 0).val) % 200 = (y 0).val; omega
    | ⟨1, _⟩ => rfl
  show k1_pay4 _ _ y
    = k1_pay4 (rowsOf 200 50 16 (by decide) (latA (adjOf V c) (projOf V c) (noiseOf V c))
          ⟨(200 * (t.val - 55) + (y 0).val) / 200, by omega⟩)
        (latA (adjOf V c) (projOf V c) (noiseOf V c))
        (ix2 (⟨(200 * (t.val - 55) + (y 0).val) % 200, Nat.mod_lt _ (by decide)⟩ : Fin 200) (⟨(y 1).val, idx2_lt1 y⟩ : Fin 10000))
  rw [e1, e2]

/-- After the region the result array is `outA` of the arrays as entered. -/
theorem arr1_3 (c : Dev nD) :
    (dat1 V c).arrAt 3 cfg1.N = outA (adjOf V c) (projOf V c) (noiseOf V c) :=
  (dat1 V c).arrAt_eq_of_cover 3 _ (fun t hf => flushed1_3 V c t hf) (cover3 c)

end Regions
end Cert.KernelIdeal.R1
end
-- ==== Proof.KI.ValsIdealDots.lean ====
/-
  The four matrix products of the kernel read at an index, at the ideal values.

  Each product accumulates into the zero array, so at the extended reals its element at row `a` and column `b` is the
  plain sum over the contracted coordinate of the operands' products.  Three of them contract the left operand's columns
  with the right operand's rows; the last contracts the columns of BOTH operands, so it reads the right operand at
  (column of the result, contracted coordinate): a product with a transpose.
-/
import proofs.«168291_g55903294324759_cont_9to1c4b_598_14_alg».proof.Proof.KI.Vals
import Idealize.ShloMosaic.PureOps.Ideal.Laws
import Idealize.ShloMosaic.Lib.ValueIdx

noncomputable section

namespace Cert.KernelIdeal.ValsIdeal

open Idealize.ShloMosaic Idealize.ShloMosaic.ValueIdx Cert.KernelIdeal Cert.KernelIdeal.Gen

/-! ### `dot_S128x64_S64x32_S128x32_1_0_0_1_n_n` -/

theorem dotW_lhs_nc (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
theorem dotW_lhs_c (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
theorem dotW_rhs_c (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
theorem dotW_rhs_nc (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-- The product into the zero accumulator, read at row `a` and column `b`: the sum over the contracted coordinate. -/
theorem dotW_apply (lhs : FVec Ideal S128x64 .f32) (rhs : FVec Ideal S64x32 .f32) (a : Fin 128) (b : Fin 32) :
    matmul dot_S128x64_S64x32_S128x32_1_0_0_1_n_n none lhs rhs (constant S128x32 .f32 0x00000000#32) (ix2 a b)
      = ∑ k : Fin 64, lhs (ix2 a k) * rhs (ix2 k b) := by
  refine (Ideal.matmul_constant_zero_apply dot_S128x64_S64x32_S128x32_1_0_0_1_n_n none lhs rhs (ix2 a b)).trans ?_
  rw [← Equiv.sum_comp (contrEquiv1 dot_S128x64_S64x32_S128x32_1_0_0_1_n_n 64 rfl rfl).symm]
  refine Finset.sum_congr rfl fun k _ => ?_
  have hk := contrEquiv1_symm_val dot_S128x64_S64x32_S128x32_1_0_0_1_n_n 64 rfl rfl k
  have el : dot_S128x64_S64x32_S128x32_1_0_0_1_n_n.lhsIdx (ix2 a b) ((contrEquiv1 dot_S128x64_S64x32_S128x32_1_0_0_1_n_n 64 rfl rfl).symm k) = ix2 a k := funext fun c => Fin.ext (by
    match c with
    | ⟨0, _⟩ => exact dotW_lhs_nc _ _
    | ⟨1, _⟩ => exact (dotW_lhs_c _ _).trans hk)
  have er : dot_S128x64_S64x32_S128x32_1_0_0_1_n_n.rhsIdx (ix2 a b) ((contrEquiv1 dot_S128x64_S64x32_S128x32_1_0_0_1_n_n 64 rfl rfl).symm k) = ix2 k b := funext fun c => Fin.ext (by
    match c with
    | ⟨0, _⟩ => exact (dotW_rhs_c _ _).trans hk
    | ⟨1, _⟩ => exact dotW_rhs_nc _ _)
  rw [el, er]

/-! ### `dot_S10000x128_S128x32_S10000x32_1_0_0_1_n_n` -/

theorem dotP_lhs_nc (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem dotP_lhs_c (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem dotP_rhs_c (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem dotP_rhs_nc (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The product into the zero accumulator, read at row `a` and column `b`: the sum over the contracted coordinate. -/
theorem dotP_apply (lhs : FVec Ideal S10000x128 .f32) (rhs : FVec Ideal S128x32 .f32) (a : Fin 10000) (b : Fin 32) :
    matmul dot_S10000x128_S128x32_S10000x32_1_0_0_1_n_n none lhs rhs (constant S10000x32 .f32 0x00000000#32) (ix2 a b)
      = ∑ k : Fin 128, lhs (ix2 a k) * rhs (ix2 k b) := by
  refine (Ideal.matmul_constant_zero_apply dot_S10000x128_S128x32_S10000x32_1_0_0_1_n_n none lhs rhs (ix2 a b)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 a b) ((contrEquiv1 dot_S10000x128_S128x32_S10000x32_1_0_0_1_n_n 128 rfl rfl).symm k) = ix2 a k := funext fun c => Fin.ext (by
    match c with
    | ⟨0, _⟩ => exact dotP_lhs_nc _ _
    | ⟨1, _⟩ => exact (dotP_lhs_c _ _).trans hk)
  have er : dot_S10000x128_S128x32_S10000x32_1_0_0_1_n_n.rhsIdx (ix2 a b) ((contrEquiv1 dot_S10000x128_S128x32_S10000x32_1_0_0_1_n_n 128 rfl rfl).symm k) = ix2 k b := funext fun c => Fin.ext (by
    match c with
    | ⟨0, _⟩ => exact (dotP_rhs_c _ _).trans hk
    | ⟨1, _⟩ => exact dotP_rhs_nc _ _)
  rw [el, er]

/-! ### `dot_S400x10000_S10000x32_S400x32_1_0_0_1_n_n` -/

theorem dotA_lhs_nc (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem dotA_lhs_c (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem dotA_rhs_c (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem dotA_rhs_nc (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The product into the zero accumulator, read at row `a` and column `b`: the sum over the contracted coordinate. -/
theorem dotA_apply (lhs : FVec Ideal S400x10000 .f32) (rhs : FVec Ideal S10000x32 .f32) (a : Fin 400) (b : Fin 32) :
    matmul dot_S400x10000_S10000x32_S400x32_1_0_0_1_n_n none lhs rhs (constant S400x32 .f32 0x00000000#32) (ix2 a b)
      = ∑ k : Fin 10000, lhs (ix2 a k) * rhs (ix2 k b) := by
  refine (Ideal.matmul_constant_zero_apply dot_S400x10000_S10000x32_S400x32_1_0_0_1_n_n none lhs rhs (ix2 a b)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 a b) ((contrEquiv1 dot_S400x10000_S10000x32_S400x32_1_0_0_1_n_n 10000 rfl rfl).symm k) = ix2 a k := funext fun c => Fin.ext (by
    match c with
    | ⟨0, _⟩ => exact dotA_lhs_nc _ _
    | ⟨1, _⟩ => exact (dotA_lhs_c _ _).trans hk)
  have er : dot_S400x10000_S10000x32_S400x32_1_0_0_1_n_n.rhsIdx (ix2 a b) ((contrEquiv1 dot_S400x10000_S10000x32_S400x32_1_0_0_1_n_n 10000 rfl rfl).symm k) = ix2 k b := funext fun c => Fin.ext (by
    match c with
    | ⟨0, _⟩ => exact (dotA_rhs_c _ _).trans hk
    | ⟨1, _⟩ => exact dotA_rhs_nc _ _)
  rw [el, er]

/-! ### `dot_S200x16_S10000x16_S200x10000_1_1_0_0_n_n` -/

theorem dotG_lhs_nc (i : S200x10000.Idx) (q : dot_S200x16_S10000x16_S200x10000_1_1_0_0_n_n.contr.Idx) :
    (dot_S200x16_S10000x16_S200x10000_1_1_0_0_n_n.lhsIdx i q 0).val = (i 0).val := by
  unfold DotDims.lhsIdx
  rw [dif_neg (show ¬(0 : Fin S200x16.rank) ∈ dot_S200x16_S10000x16_S200x10000_1_1_0_0_n_n.lhsBatch by decide), dif_pos (show (0 : Fin S200x16.rank) ∈ dot_S200x16_S10000x16_S200x10000_1_1_0_0_n_n.lhsNonContracting by decide)]
  rfl
theorem dotG_lhs_c (i : S200x10000.Idx) (q : dot_S200x16_S10000x16_S200x10000_1_1_0_0_n_n.contr.Idx) :
    (dot_S200x16_S10000x16_S200x10000_1_1_0_0_n_n.lhsIdx i q 1).val = (q ⟨0, by decide⟩).val :=
  dot_S200x16_S10000x16_S200x10000_1_1_0_0_n_n.lhsIdx_val_of_single rfl i q
theorem dotG_rhs_c (i : S200x10000.Idx) (q : dot_S200x16_S10000x16_S200x10000_1_1_0_0_n_n.contr.Idx) :
    (dot_S200x16_S10000x16_S200x10000_1_1_0_0_n_n.rhsIdx i q 1).val = (q ⟨0, by decide⟩).val :=
  dot_S200x16_S10000x16_S200x10000_1_1_0_0_n_n.rhsIdx_val_of_single rfl i q
theorem dotG_rhs_nc (i : S200x10000.Idx) (q : dot_S200x16_S10000x16_S200x10000_1_1_0_0_n_n.contr.Idx) :
    (dot_S200x16_S10000x16_S200x10000_1_1_0_0_n_n.rhsIdx i q 0).val = (i 1).val := by
  unfold DotDims.rhsIdx
  rw [dif_neg (show ¬(0 : Fin S10000x16.rank) ∈ dot_S200x16_S10000x16_S200x10000_1_1_0_0_n_n.rhsBatch by decide), dif_pos (show (0 : Fin S10000x16.rank) ∈ dot_S200x16_S10000x16_S200x10000_1_1_0_0_n_n.rhsNonContracting by decide)]
  rfl

/-- The product into the zero accumulator, read at row `a` and column `b`: the sum over the contracted coordinate. -/
theorem dotG_apply (lhs : FVec Ideal S200x16 .f32) (rhs : FVec Ideal S10000x16 .f32) (a : Fin 200) (b : Fin 10000) :
    matmul dot_S200x16_S10000x16_S200x10000_1_1_0_0_n_n none lhs rhs (constant S200x10000 .f32 0x00000000#32) (ix2 a b)
      = ∑ k : Fin 16, lhs (ix2 a k) * rhs (ix2 b k) := by
  refine (Ideal.matmul_constant_zero_apply dot_S200x16_S10000x16_S200x10000_1_1_0_0_n_n none lhs rhs (ix2 a b)).trans ?_
  rw [← Equiv.sum_comp (contrEquiv1 dot_S200x16_S10000x16_S200x10000_1_1_0_0_n_n 16 rfl rfl).symm]
  refine Finset.sum_congr rfl fun k _ => ?_
  have hk := contrEquiv1_symm_val dot_S200x16_S10000x16_S200x10000_1_1_0_0_n_n 16 rfl rfl k
  have el : dot_S200x16_S10000x16_S200x10000_1_1_0_0_n_n.lhsIdx (ix2 a b) ((contrEquiv1 dot_S200x16_S10000x16_S200x10000_1_1_0_0_n_n 16 rfl rfl).symm k) = ix2 a k := funext fun c => Fin.ext (by
    match c with
    | ⟨0, _⟩ => exact dotG_lhs_nc _ _
    | ⟨1, _⟩ => exact (dotG_lhs_c _ _).trans hk)
  have er : dot_S200x16_S10000x16_S200x10000_1_1_0_0_n_n.rhsIdx (ix2 a b) ((contrEquiv1 dot_S200x16_S10000x16_S200x10000_1_1_0_0_n_n 16 rfl rfl).symm k) = ix2 b k := funext fun c => Fin.ext (by
    match c with
    | ⟨1, _⟩ => exact (dotG_rhs_c _ _).trans hk
    | ⟨0, _⟩ => exact dotG_rhs_nc _ _)
  rw [el, er]

end Cert.KernelIdeal.ValsIdeal

end
-- ==== Proof.Spec.lean ====
/-
  The mathematics of the variational graph auto-encoder's forward pass, stated once, index by index, over the
  extended reals.  With `W = [Wm | Wl]` (the mean and log-deviation weights side by side, 32 columns),

    proj  = X · (Wb · W)                       (rows × 32)
    agg   = adj · proj                          (rows × 32)
    act   = max (adj · agg) 0                   (rows × 32)
    lat r e = noise r e · exp (act r (16 + e)) + act r e      (rows × 16)
    gram r s = ∑ e, lat r e · lat s e           (rows × rows)

  Every sum is a finite sum of the additive monoid of extended reals, so these are defined with no finiteness
  assumption; only comparing `adj · (adj · (X · (Wb · W)))` with `adj · ((adj · (X · Wb)) · Wm)` needs the entries real.
-/
import Idealize.ShloMosaic.PureOps.Ideal
import Idealize.ShloMosaic.PureOps.Ideal.Laws
import Idealize.ShloMosaic.Lib.ValueIdx

noncomputable section

namespace Cert.Vgae

open Idealize.ShloMosaic Idealize.ShloMosaic.ValueIdx

/-- A rank-2 array of extended reals with literal extents. -/
abbrev Arr2 (a b : Nat) : Type := (⟨2, ![a, b]⟩ : Shape).Idx → EReal

/-- Every entry of the array is a real number. -/
def AllReal {a b : Nat} (x : Arr2 a b) : Prop := ∀ i, ∃ r : ℝ, x i = (r : EReal)

/-- The two 16-column weight matrices side by side: column `j < 16` is `Wm`'s, column `16 + j'` is `Wl`'s. -/
def wcat (Wm Wl : Arr2 64 16) (l : Fin 64) (j : Fin 32) : EReal :=
  if h : j.val < 16 then Wm (ix2 l ⟨j.val, h⟩) else Wl (ix2 l ⟨j.val - 16, by omega⟩)

/-- `Wb · [Wm | Wl]`. -/
def wc (Wb : Arr2 128 64) (Wm Wl : Arr2 64 16) (k : Fin 128) (j : Fin 32) : EReal :=
  ∑ l : Fin 64, Wb (ix2 k l) * wcat Wm Wl l j

/-- `X · (Wb · [Wm | Wl])`. -/
def proj (X : Arr2 10000 128) (Wb : Arr2 128 64) (Wm Wl : Arr2 64 16) (r : Fin 10000) (j : Fin 32) : EReal :=
  ∑ k : Fin 128, X (ix2 r k) * wc Wb Wm Wl k j

/-- One neighbourhood aggregation of a 32-column table: `adj · T`. -/
def aggOf (adj : Arr2 10000 10000) (T : Fin 10000 → Fin 32 → EReal) (r : Fin 10000) (j : Fin 32) : EReal :=
  ∑ k : Fin 10000, adj (ix2 r k) * T k j

/-- `adj · proj`. -/
def agg (adj : Arr2 10000 10000) (X : Arr2 10000 128) (Wb : Arr2 128 64) (Wm Wl : Arr2 64 16) : Fin 10000 → Fin 32 → EReal :=
  aggOf adj (proj X Wb Wm Wl)

/-- The rectified second aggregation: `max (adj · agg) 0`. -/
def act (adj : Arr2 10000 10000) (X : Arr2 10000 128) (Wb : Arr2 128 64) (Wm Wl : Arr2 64 16) (r : Fin 10000) (j : Fin 32) : EReal :=
  max (aggOf adj (agg adj X Wb Wm Wl) r j) 0

/-- The latent sample: `noise · exp (log-deviation) + mean`, the mean in columns 0–15 of `act`, the log-deviation in 16–31. -/
def lat (adj : Arr2 10000 10000) (X : Arr2 10000 128) (Wb : Arr2 128 64) (Wm Wl : Arr2 64 16) (noise : Arr2 10000 16)
    (r : Fin 10000) (e : Fin 16) : EReal :=
  noise (ix2 r e) * Ideal.exp (act adj X Wb Wm Wl r ⟨16 + e.val, by omega⟩) + act adj X Wb Wm Wl r ⟨e.val, by omega⟩

/-- The result: the Gram matrix of the latent rows. -/
def gram (adj : Arr2 10000 10000) (X : Arr2 10000 128) (Wb : Arr2 128 64) (Wm Wl : Arr2 64 16) (noise : Arr2 10000 16) :
    Arr2 10000 10000 :=
  fun i => ∑ e : Fin 16, lat adj X Wb Wm Wl noise (i 0) e * lat adj X Wb Wm Wl noise (i 1) e

end Cert.Vgae

end
-- ==== Proof.KI.ValsIdealLayout.lean ====
/-
  Layout reads used by the kernel's payloads, at an index with literal coordinates.

  A row panel of an array reads the array's own rows; the concatenation of the two 16-column weight matrices along the
  columns is the side-by-side matrix of the specification; the two unit-stride slices of a 32-column panel are its
  column halves.
-/
import proofs.«168291_g55903294324759_cont_9to1c4b_598_14_alg».proof.Proof.KI.Vals
import proofs.«168291_g55903294324759_cont_9to1c4b_598_14_alg».proof.Proof.Spec
import Idealize.ShloMosaic.PureOps.Ideal.Laws
import Idealize.ShloMosaic.Lib.ValueIdx
import Idealize.ShloMosaic.Lib.Pipeline.Value

noncomputable section

namespace Cert.KernelIdeal.ValsIdeal

open Idealize.ShloMosaic Idealize.ShloMosaic.ValueIdx Cert.KernelIdeal Cert.KernelIdeal.Gen

/-! ### Row panels -/

/-- Row `a` of panel `b` is row `h·b + a` of the array. -/
theorem rowsOf_apply {F : FTy → Type} [FloatOps F] (h nb n : Nat) (hh : h * nb = 10000) (A : Vec F ⟨2, ![10000, n]⟩ .f32)
    (b : Fin nb) (a : Fin h) (q : Fin n) (hlt : h * b.val + a.val < 10000) :
    Vals.rowsOf h nb n hh A b (ix2 a q) = A (ix2 (⟨h * b.val + a.val, hlt⟩ : Fin 10000) q) := rfl

/-! ### The two weight matrices side by side -/

/-- The concatenation along the columns reads the first matrix in columns below 16 and the second from column 16 on. -/
theorem concat_apply (Wm Wl : Vec Ideal S64x16 .f32) (l : Fin 64) (j : Fin 32) :
    concatenate S64x32 1 [⟨S64x16, Wm⟩, ⟨S64x16, Wl⟩] concatenates_S64x16_S64x16_S64x32_d1 (ix2 l j)
      = Cert.Vgae.wcat Wm Wl l j := by
  unfold Cert.Vgae.wcat
  split
  · next h =>
    exact concatenate_pair_apply_left 1 Wm Wl concatenates_S64x16_S64x16_S64x32_d1 (ix2 l j) rfl (ix2 l (⟨j.val, h⟩ : Fin 16))
      (fun b => by match b with | ⟨0, _⟩ => rfl | ⟨1, _⟩ => rfl)
  · next h =>
    exact concatenate_pair_apply_right 1 Wm Wl concatenates_S64x16_S64x16_S64x32_d1 (ix2 l j) rfl rfl
      (ix2 l (⟨j.val - 16, by omega⟩ : Fin 16))
      (fun b hb => by match b with | ⟨0, _⟩ => rfl | ⟨1, _⟩ => exact absurd rfl hb)
      (by show (j.val - 16) + 16 = j.val; omega)

/-! ### The two column halves of a 32-column panel -/

/-- Columns 0–15. -/
theorem slice_lo_apply (x : FVec Ideal S400x32 .f32) (a : Fin 400) (e : Fin 16) :
    extractStridedSlice S400x16 ![0, 0] x slices_S400x32_o0_0_S400x16 (ix2 a e) = x (ix2 a (⟨e.val, by omega⟩ : Fin 32)) :=
  extractStridedSlice_apply ![0, 0] x slices_S400x32_o0_0_S400x16 (ix2 a e) (ix2 a (⟨e.val, by omega⟩ : Fin 32))
    (fun c => by match c with
      | ⟨0, _⟩ => show a.val = 0 + a.val; omega
      | ⟨1, _⟩ => show e.val = 0 + e.val; omega)

/-- Columns 16–31. -/
theorem slice_hi_apply (x : FVec Ideal S400x32 .f32) (a : Fin 400) (e : Fin 16) :
    extractStridedSlice S400x16 ![0, 16] x slices_S400x32_o0_16_S400x16 (ix2 a e) = x (ix2 a (⟨16 + e.val, by omega⟩ : Fin 32)) :=
  extractStridedSlice_apply ![0, 16] x slices_S400x32_o0_16_S400x16 (ix2 a e) (ix2 a (⟨16 + e.val, by omega⟩ : Fin 32))
    (fun c => by match c with
      | ⟨0, _⟩ => show a.val = 0 + a.val; omega
      | ⟨1, _⟩ => show 16 + e.val = 16 + e.val; omega)

end Cert.KernelIdeal.ValsIdeal

end
-- ==== Proof.KI.ValsIdealProj.lean ====
/-
  The first call's payload, read at an index, is the specification's projection.

  The payload multiplies the features by the product of the base weights with the two 16-column weight matrices side by
  side, each product into a zero accumulator; at the extended reals that is the double sum the specification writes.
-/
import proofs.«168291_g55903294324759_cont_9to1c4b_598_14_alg».proof.Proof.KI.ValsIdealDots
import proofs.«168291_g55903294324759_cont_9to1c4b_598_14_alg».proof.Proof.KI.ValsIdealLayout

noncomputable section

namespace Cert.KernelIdeal.ValsIdeal

open Idealize.ShloMosaic Idealize.ShloMosaic.ValueIdx Cert.KernelIdeal Cert.KernelIdeal.Gen

/-- The first call's payload at row `r` and column `j`: `X · (Wb · [Wm | Wl])`. -/
theorem proj_eq (Wm Wl : Vec Ideal Cert.KernelIdeal.S64x16 .f32) (Wb : Vec Ideal Cert.KernelIdeal.S128x64 .f32)
    (X : Vec Ideal Cert.KernelIdeal.S10000x128 .f32) (r : Fin 10000) (j : Fin 32) :
    Cert.KernelIdeal.Gen.k0_pay1 (F := Ideal) Wm Wl Wb X (ValueIdx.ix2 r j) = Cert.Vgae.proj X Wb Wm Wl r j := by
  unfold Cert.KernelIdeal.Gen.k0_pay1 Cert.Vgae.proj
  refine (dotP_apply _ _ r j).trans ?_
  refine Finset.sum_congr rfl fun k _ => ?_
  refine congrArg (X (ix2 r k) * ·) ?_
  unfold Cert.Vgae.wc
  refine (dotW_apply _ _ k j).trans ?_
  refine Finset.sum_congr rfl fun l _ => ?_
  exact congrArg (Wb (ix2 k l) * ·) (concat_apply Wm Wl l j)

end Cert.KernelIdeal.ValsIdeal

end
-- ==== Proof.KI.ValsIdealAgg.lean ====
/-
  The aggregate and the latent sample of the kernel, read at an index.

  A row `r` of a 10000-row array sits in the 400-row panel `r / 400` at row `r % 400`, so the panel-by-panel values are
  the whole-array products: the aggregate is `adj · P`, and the latent sample is the noise times the exponential of the
  log-deviation columns plus the mean columns of the rectified second aggregation.
-/
import proofs.«168291_g55903294324759_cont_9to1c4b_598_14_alg».proof.Proof.KI.ValsIdealDots
import proofs.«168291_g55903294324759_cont_9to1c4b_598_14_alg».proof.Proof.KI.ValsIdealLayout

noncomputable section

namespace Cert.KernelIdeal.ValsIdeal

open Idealize.ShloMosaic Idealize.ShloMosaic.ValueIdx Cert.KernelIdeal Cert.KernelIdeal.Gen

/-! ### The aggregate -/

/-- The second payload at row `a` and column `j`: the panel's rows times the whole table. -/
theorem pay2_apply (A : Vec Ideal S400x10000 .f32) (Q : Vec Ideal S10000x32 .f32) (a : Fin 400) (j : Fin 32) :
    k1_pay2 (F := Ideal) A Q (ix2 a j) = ∑ k : Fin 10000, A (ix2 a k) * Q (ix2 k j) := by
  unfold k1_pay2
  refine (congrFun (shapeCast_self _ _) (ix2 a j)).trans ?_
  exact dotA_apply A Q a j

/-- The aggregate at row `r` and column `j`: row `r` sits in panel `r / 400` at row `r % 400`. -/
theorem aggA_apply (adj : Vec Ideal S10000x10000 .f32) (P : Vec Ideal S10000x32 .f32) (r : Fin 10000) (j : Fin 32) :
    Vals.aggA (F := Ideal) adj P (ix2 r j) = ∑ k : Fin 10000, adj (ix2 r k) * P (ix2 k j) := by
  have hb : r.val / 400 < 25 := by have := r.isLt; omega
  have ha : r.val % 400 < 400 := Nat.mod_lt _ (by decide)
  show k1_pay2 (F := Ideal) (Vals.rowsOf 400 25 10000 (by decide) adj ⟨r.val / 400, hb⟩) P (ix2 (⟨r.val % 400, ha⟩ : Fin 400) j) = _
  refine (pay2_apply _ P _ j).trans ?_
  refine Finset.sum_congr rfl fun k _ => ?_
  refine congrArg (· * P (ix2 k j)) ?_
  have hlt : 400 * (r.val / 400) + r.val % 400 < 10000 := by rw [Nat.div_add_mod]; exact r.isLt
  refine (rowsOf_apply 400 25 10000 (by decide) adj ⟨r.val / 400, hb⟩ ⟨r.val % 400, ha⟩ k hlt).trans ?_
  exact congrArg (fun x : Fin 10000 => adj (ix2 x k)) (Fin.ext (Nat.div_add_mod _ _))

/-- With the table the specification's, the aggregate is the specification's. -/
theorem aggA_eq (adj : Vec Ideal S10000x10000 .f32) (P : Vec Ideal S10000x32 .f32) (T : Fin 10000 → Fin 32 → EReal)
    (hP : ∀ (r : Fin 10000) (j : Fin 32), P (ix2 r j) = T r j) (r : Fin 10000) (j : Fin 32) :
    Vals.aggA (F := Ideal) adj P (ix2 r j) = Cert.Vgae.aggOf adj T r j := by
  refine (aggA_apply adj P r j).trans ?_
  unfold Cert.Vgae.aggOf
  exact Finset.sum_congr rfl fun k _ => congrArg (adj (ix2 r k) * ·) (hP k j)

/-! ### The latent sample -/

/-- The rectified product of a panel with a table, at an index. -/
theorem relu_apply (A : FVec Ideal S400x10000 .f32) (Q : FVec Ideal S10000x32 .f32) (a : Fin 400) (c : Fin 32) :
    maximumf (matmul dot_S400x10000_S10000x32_S400x32_1_0_0_1_n_n none A Q (constant S400x32 .f32 0x00000000#32))
        (broadcast S400x32 (Scalar.ofBits (F := Ideal) .f32 0x00000000#32)) (ix2 a c)
      = max (∑ k : Fin 10000, A (ix2 a k) * Q (ix2 k c)) 0 := by
  refine (maximumf_apply _ _ _).trans ?_
  refine congrArg₂ max (dotA_apply A Q a c) ?_
  exact Ideal.ofBits_zero_f32

/-- The third payload at row `a` and column `e`: noise times the exponential of the log-deviation column plus the mean
    column, both columns of the rectified product. -/
theorem pay3_apply (A : Vec Ideal S400x10000 .f32) (Q : Vec Ideal S10000x32 .f32) (N : Vec Ideal S400x16 .f32)
    (a : Fin 400) (e : Fin 16) :
    k1_pay3 (F := Ideal) A Q N (ix2 a e)
      = N (ix2 a e) * Ideal.exp (max (∑ k : Fin 10000, A (ix2 a k) * Q (ix2 k (⟨16 + e.val, by omega⟩ : Fin 32))) 0)
        + max (∑ k : Fin 10000, A (ix2 a k) * Q (ix2 k (⟨e.val, by omega⟩ : Fin 32))) 0 := by
  unfold k1_pay3
  refine (congrFun (shapeCast_self _ _) (ix2 a e)).trans ?_
  refine (addf_apply _ _ _).trans ?_
  refine congrArg₂ (· + ·) ?_ ?_
  · refine (mulf_apply _ _ _).trans ?_
    refine congrArg (N (ix2 a e) * ·) ?_
    show Ideal.exp _ = Ideal.exp _
    refine congrArg Ideal.exp ?_
    refine (slice_hi_apply _ a e).trans ?_
    exact relu_apply A Q a _
  · refine (slice_lo_apply _ a e).trans ?_
    exact relu_apply A Q a _

end Cert.KernelIdeal.ValsIdeal

end
-- ==== Proof.KI.ValsIdealOut.lean ====
/-
  The kernel's latent sample and result are the specification's.

  The latent sample reads its 400-row panel of the adjacency matrix and of the noise at the array's own rows, so over
  the kernel's aggregate — the specification's once the 32-column table is the projection — it is the specification's
  latent sample.  The result reads its 200-row panel of the latent table the same way, and its last product contracts the
  16 latent coordinates of both operands: entry (r, s) is the inner product of the latent rows r and s.
-/
import proofs.«168291_g55903294324759_cont_9to1c4b_598_14_alg».proof.Proof.KI.ValsIdealAgg

noncomputable section

namespace Cert.KernelIdeal.ValsIdeal

open Idealize.ShloMosaic Idealize.ShloMosaic.ValueIdx Cert.KernelIdeal Cert.KernelIdeal.Gen

/-! ### A row of an array inside its panel -/

/-- Row `r` sits in the panel `r / h` at row `r % h`. -/
theorem rowsOf_panel {F : FTy → Type} [FloatOps F] (h nb n : Nat) (hh : h * nb = 10000) (hpos : 0 < h)
    (A : Vec F ⟨2, ![10000, n]⟩ .f32) (r : Fin 10000) (q : Fin n) (hb : r.val / h < nb) :
    Vals.rowsOf h nb n hh A ⟨r.val / h, hb⟩ (ix2 (⟨r.val % h, Nat.mod_lt _ hpos⟩ : Fin h) q) = A (ix2 r q) := by
  have hlt : h * (r.val / h) + r.val % h < 10000 := by rw [Nat.div_add_mod]; exact r.isLt
  refine (rowsOf_apply h nb n hh A ⟨r.val / h, hb⟩ ⟨r.val % h, Nat.mod_lt _ hpos⟩ q hlt).trans ?_
  exact congrArg (fun x : Fin 10000 => A (ix2 x q)) (Fin.ext (Nat.div_add_mod _ _))

/-! ### The latent sample -/

/-- The latent sample at row `r` and column `e`, over the kernel's own aggregate. -/
theorem latA_apply (adj : Vec Ideal S10000x10000 .f32) (P : Vec Ideal S10000x32 .f32) (noise : Vec Ideal S10000x16 .f32)
    (r : Fin 10000) (e : Fin 16) :
    Vals.latA (F := Ideal) adj P noise (ix2 r e)
      = noise (ix2 r e)
          * Ideal.exp (max (∑ k : Fin 10000, adj (ix2 r k) * Vals.aggA (F := Ideal) adj P (ix2 k (⟨16 + e.val, by omega⟩ : Fin 32))) 0)
        + max (∑ k : Fin 10000, adj (ix2 r k) * Vals.aggA (F := Ideal) adj P (ix2 k (⟨e.val, by omega⟩ : Fin 32))) 0 := by
  have hb : r.val / 400 < 25 := by have := r.isLt; omega
  have ha : r.val % 400 < 400 := Nat.mod_lt _ (by decide)
  show k1_pay3 (F := Ideal) (Vals.rowsOf 400 25 10000 (by decide) adj ⟨r.val / 400, hb⟩) (Vals.aggA adj P)
      (Vals.rowsOf 400 25 16 (by decide) noise ⟨r.val / 400, hb⟩) (ix2 (⟨r.val % 400, ha⟩ : Fin 400) e) = _
  refine (pay3_apply _ _ _ _ e).trans ?_
  have hrow : ∀ k : Fin 10000,
      Vals.rowsOf 400 25 10000 (by decide) adj ⟨r.val / 400, hb⟩ (ix2 (⟨r.val % 400, ha⟩ : Fin 400) k) = adj (ix2 r k) :=
    fun k => rowsOf_panel 400 25 10000 (by decide) (by decide) adj r k hb
  have hn : Vals.rowsOf 400 25 16 (by decide) noise ⟨r.val / 400, hb⟩ (ix2 (⟨r.val % 400, ha⟩ : Fin 400) e) = noise (ix2 r e) :=
    rowsOf_panel 400 25 16 (by decide) (by decide) noise r e hb
  have hsum : ∀ c : Fin 32,
      (∑ k : Fin 10000, Vals.rowsOf 400 25 10000 (by decide) adj ⟨r.val / 400, hb⟩ (ix2 (⟨r.val % 400, ha⟩ : Fin 400) k)
          * Vals.aggA (F := Ideal) adj P (ix2 k c))
        = ∑ k : Fin 10000, adj (ix2 r k) * Vals.aggA (F := Ideal) adj P (ix2 k c) :=
    fun c => Finset.sum_congr rfl fun k _ => congrArg (· * Vals.aggA (F := Ideal) adj P (ix2 k c)) (hrow k)
  rw [hn, hsum, hsum]

/-- With the table the specification's projection, the latent sample is the specification's. -/
theorem latA_eq (adj : Vec Ideal S10000x10000 .f32) (X : Vec Ideal S10000x128 .f32) (Wb : Vec Ideal S128x64 .f32)
    (Wm Wl : Vec Ideal S64x16 .f32) (noise : Vec Ideal S10000x16 .f32) (P : Vec Ideal S10000x32 .f32)
    (hP : ∀ (r : Fin 10000) (j : Fin 32), P (ix2 r j) = Cert.Vgae.proj X Wb Wm Wl r j) (r : Fin 10000) (e : Fin 16) :
    Vals.latA (F := Ideal) adj P noise (ix2 r e) = Cert.Vgae.lat adj X Wb Wm Wl noise r e := by
  have hsum : ∀ c : Fin 32, (∑ k : Fin 10000, adj (ix2 r k) * Vals.aggA (F := Ideal) adj P (ix2 k c))
      = Cert.Vgae.aggOf adj (Cert.Vgae.agg adj X Wb Wm Wl) r c := fun c => by
    unfold Cert.Vgae.agg
    show _ = ∑ k : Fin 10000, adj (ix2 r k) * Cert.Vgae.aggOf adj (Cert.Vgae.proj X Wb Wm Wl) k c
    exact Finset.sum_congr rfl fun k _ => congrArg (adj (ix2 r k) * ·) (aggA_eq adj P _ hP k c)
  refine (latA_apply adj P noise r e).trans ?_
  rw [hsum, hsum]
  rfl

/-! ### The result -/

/-- The fourth payload at row `a` and column `s`: the latent row `a` of the panel against latent row `s` of the table. -/
theorem pay4_apply (L : Vec Ideal S200x16 .f32) (M : Vec Ideal S10000x16 .f32) (a : Fin 200) (s : Fin 10000) :
    k1_pay4 (F := Ideal) L M (ix2 a s) = ∑ e : Fin 16, L (ix2 a e) * M (ix2 s e) := by
  unfold k1_pay4
  exact dotG_apply L M a s

/-- The result at row `r` and column `s`: the inner product of the latent rows `r` and `s`. -/
theorem outA_apply (adj : Vec Ideal S10000x10000 .f32) (P : Vec Ideal S10000x32 .f32) (noise : Vec Ideal S10000x16 .f32)
    (r s : Fin 10000) :
    Vals.outA (F := Ideal) adj P noise (ix2 r s)
      = ∑ e : Fin 16, Vals.latA (F := Ideal) adj P noise (ix2 r e) * Vals.latA (F := Ideal) adj P noise (ix2 s e) := by
  have hb : r.val / 200 < 50 := by have := r.isLt; omega
  have ha : r.val % 200 < 200 := Nat.mod_lt _ (by decide)
  show k1_pay4 (F := Ideal) (Vals.rowsOf 200 50 16 (by decide) (Vals.latA adj P noise) ⟨r.val / 200, hb⟩) (Vals.latA adj P noise)
      (ix2 (⟨r.val % 200, ha⟩ : Fin 200) s) = _
  refine (pay4_apply _ _ _ s).trans ?_
  refine Finset.sum_congr rfl fun e _ => ?_
  exact congrArg (· * Vals.latA (F := Ideal) adj P noise (ix2 s e))
    (rowsOf_panel 200 50 16 (by decide) (by decide) (Vals.latA (F := Ideal) adj P noise) r e hb)

/-- The kernel's result, over a table that is the specification's projection, is the Gram matrix of the latent rows. -/
theorem outA_eq (adj : Vec Ideal Cert.KernelIdeal.S10000x10000 .f32) (X : Vec Ideal Cert.KernelIdeal.S10000x128 .f32)
    (Wb : Vec Ideal Cert.KernelIdeal.S128x64 .f32) (Wm Wl : Vec Ideal Cert.KernelIdeal.S64x16 .f32)
    (noise : Vec Ideal Cert.KernelIdeal.S10000x16 .f32) (P : Vec Ideal Cert.KernelIdeal.S10000x32 .f32)
    (hP : ∀ (r : Fin 10000) (j : Fin 32), P (ValueIdx.ix2 r j) = Cert.Vgae.proj X Wb Wm Wl r j) :
    Cert.KernelIdeal.Vals.outA (F := Ideal) adj P noise = Cert.Vgae.gram adj X Wb Wm Wl noise := by
  funext i
  obtain ⟨r, s, rfl⟩ : ∃ (r s : Fin 10000), i = ix2 r s := ⟨i 0, i 1, eq_ix2 i⟩
  refine (outA_apply adj P noise r s).trans ?_
  show _ = ∑ e : Fin 16, Cert.Vgae.lat adj X Wb Wm Wl noise r e * Cert.Vgae.lat adj X Wb Wm Wl noise s e
  refine Finset.sum_congr rfl fun e _ => ?_
  rw [latA_eq adj X Wb Wm Wl noise P hP r e, latA_eq adj X Wb Wm Wl noise P hP s e]

end Cert.KernelIdeal.ValsIdeal

end
-- ==== Proof.KI.FinalVal.lean ====
/-
  The kernel's result array, at the extended reals, is the specification's Gram matrix.

  The first call leaves in its output array its payload of the four argument arrays, which index by index is the
  specification's projection.  The second call is entered with that table in place of the first call's output and
  with the adjacency matrix and the noise unchanged, and leaves in the result array its whole-array function of the
  three, which over a table that is the projection is the Gram matrix of the latent rows.
-/
import proofs.«168291_g55903294324759_cont_9to1c4b_598_14_alg».proof.Proof.KI.R0Val
import proofs.«168291_g55903294324759_cont_9to1c4b_598_14_alg».proof.Proof.KI.R1Val
import proofs.«168291_g55903294324759_cont_9to1c4b_598_14_alg».proof.Proof.KI.ValsIdealProj
import proofs.«168291_g55903294324759_cont_9to1c4b_598_14_alg».proof.Proof.KI.ValsIdealOut
import proofs.«168291_g55903294324759_cont_9to1c4b_598_14_alg».proof.Proof.Spec

noncomputable section

namespace Cert.KernelIdeal.Final

open Idealize.ShloMosaic Idealize.ShloMosaic.TcCoe Idealize.ShloMosaic.ValueIdx Idealize.SL.Sem
open Cert.KernelIdeal Cert.KernelIdeal.Gen

/-- `V` is what the first call is entered with and `V'` what the second is: they agree on the adjacency matrix and the
    noise, and `V'` holds in the first call's output array what the first call left there. Then the second call leaves
    the specification's Gram matrix of the six argument arrays in the result array. -/
theorem out_eq (V V' : (c : Dev nD) → (b : Ref sig .tc) → Buf (Elt Ideal) ((c : Thread nD τ).loc b)) (c : Dev nD)
    (h0 : V' c main_arg0 = V c main_arg0) (h5 : V' c main_arg5 = V c main_arg5)
    (hv0 : V' c main_v0 = (R0.dat0 V c).arrAt 4 cfg0.N) :
    (R1.dat1 V' c).arrAt 3 cfg1.N
      = Cert.Vgae.gram (V c main_arg0) (V c main_arg1) (V c main_arg2) (V c main_arg3) (V c main_arg4) (V c main_arg5) := by
  rw [R1.arr1_3 V' c]
  show Vals.outA (V' c main_arg0) (V' c main_v0) (V' c main_arg5) = _
  rw [h0, h5, hv0, R0.arr0_4 V c]
  exact ValsIdeal.outA_eq (V c main_arg0) (V c main_arg1) (V c main_arg2) (V c main_arg3) (V c main_arg4) (V c main_arg5) _
    (fun r j => ValsIdeal.proj_eq (V c main_arg3) (V c main_arg4) (V c main_arg2) (V c main_arg1) r j)

end Cert.KernelIdeal.Final

end
-- ==== Proof.KI.FinalIdeal.lean ====
import proofs.«168291_g55903294324759_cont_9to1c4b_598_14_alg».proof.Proof.KI.Final
import proofs.«168291_g55903294324759_cont_9to1c4b_598_14_alg».proof.Proof.KI.FinalVal

noncomputable section

/-! ## At the ideal instance: the result is the specification's Gram matrix -/

namespace Cert.KernelIdeal.Final

open Cert.KernelIdeal Cert.KernelIdeal.Gen
open Idealize.ShloMosaic Idealize.ShloMosaic.TcCoe Idealize.SL.Sem

/-- At the ideal instance every execution ends with the result array at the Gram matrix of the specification's latent
    rows of the launch arguments, and the arguments as launched. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = Cert.Vgae.gram (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (RunM.mem_uc main_v1 (by decide))).trans ((RunM.W4_main_v1 m ρ c).trans
        (out_eq (RunM.V1 m ρ) (RunM.V2 m ρ) c (RunM.V2_main_arg0 m ρ c) (RunM.V2_main_arg5 m ρ c) (RunM.V2_main_v0 m ρ c))),
     (h c _ (RunM.mem_uc main_arg0 (by decide))).trans (RunM.W4_main_arg0 m ρ c),
     (h c _ (RunM.mem_uc main_arg1 (by decide))).trans (RunM.W4_main_arg1 m ρ c),
     (h c _ (RunM.mem_uc main_arg2 (by decide))).trans (RunM.W4_main_arg2 m ρ c),
     (h c _ (RunM.mem_uc main_arg3 (by decide))).trans (RunM.W4_main_arg3 m ρ c),
     (h c _ (RunM.mem_uc main_arg4 (by decide))).trans (RunM.W4_main_arg4 m ρ c),
     (h c _ (RunM.mem_uc main_arg5 (by decide))).trans (RunM.W4_main_arg5 m ρ c)⟩) (run m ρ)

end Cert.KernelIdeal.Final

end
-- ==== Proof.RefAlgebra.lean ====
/-
  The associativity law behind the two arrangements of the encoder, over the reals and then over extended reals
  whose entries are all real.

  For one row of the adjacency matrix `A`, a feature table `X`, a first weight matrix `B` and one column `M` of a
  second weight matrix,

      ∑ l, (∑ k, A k * (∑ d, X k d * B d l)) * M l   =   ∑ k, A k * (∑ d, X k d * (∑ l, B d l * M l)).

  Over the reals this is distributivity and a change of the order of summation. Over the extended reals
  distributivity fails at the infinities, so the law is stated with every entry real and proved by moving the
  coercion out of the products and the finite sums.
-/
import Mathlib.Data.EReal.Operations
import Mathlib.Algebra.BigOperators.Ring.Finset
import Mathlib.Algebra.BigOperators.Group.Finset.Sigma
import Mathlib.Tactic.Ring

namespace Cert.Vgae.Ref

open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem assoc_real {κ δ μ : Type*} [Fintype κ] [Fintype δ] [Fintype μ]
    (A : κ → ℝ) (X : κ → δ → ℝ) (B : δ → μ → ℝ) (M : μ → ℝ) :
    ∑ l, (∑ k, A k * (∑ d, X k d * B d l)) * M l = ∑ k, A k * (∑ d, X k d * (∑ l, B d l * M l)) := by
  simp only [Finset.mul_sum, Finset.sum_mul]
  rw [Finset.sum_comm]
  refine Finset.sum_congr rfl fun k _ => ?_
  rw [Finset.sum_comm]
  exact Finset.sum_congr rfl fun d _ => Finset.sum_congr rfl fun l _ => by ring

/-- The law over the extended reals, every entry a real number. -/
theorem assoc_ereal {κ δ μ : Type*} [Fintype κ] [Fintype δ] [Fintype μ]
    (A : κ → EReal) (X : κ → δ → EReal) (B : δ → μ → EReal) (M : μ → EReal)
    (hA : ∀ k, ∃ r : ℝ, A k = (r : EReal)) (hX : ∀ k d, ∃ r : ℝ, X k d = (r : EReal))
    (hB : ∀ d l, ∃ r : ℝ, B d l = (r : EReal)) (hM : ∀ l, ∃ r : ℝ, M l = (r : EReal)) :
    ∑ l, (∑ k, A k * (∑ d, X k d * B d l)) * M l = ∑ k, A k * (∑ d, X k d * (∑ l, B d l * M l)) := by
  choose a ha using hA
  choose x hx using hX
  choose b hb using hB
  choose m hm using hM
  simp only [ha, hx, hb, hm, ← EReal.coe_mul, ← coe_sum]
  exact congrArg _ (assoc_real a x b m)

end Cert.Vgae.Ref
-- ==== Proof.RefValue.lean ====
/-
  The reference program computes the specification.

  Read at an index, the reference is

      H = adj · (X · Wb),   mean = max (adj · (H · Wm)) 0,   logstd = max (adj · (H · Wl)) 0,
      Z = noise · exp logstd + mean,   out = Z · Zᵀ,

  while the specification aggregates the 32-column table X · (Wb · [Wm | Wl]) twice. Column by column the two
  pre-activations agree by the associativity law for real entries; the maximum with zero, the exponential, the
  product with the noise and the Gram matrix are then the same functions of equal arguments.
-/
import proofs.«168291_g55903294324759_cont_9to1c4b_598_14_alg».proof.Proof.Gen.ReferenceIdeal.Read
import proofs.«168291_g55903294324759_cont_9to1c4b_598_14_alg».proof.Proof.Spec
import proofs.«168291_g55903294324759_cont_9to1c4b_598_14_alg».proof.Proof.RefAlgebra

noncomputable section

namespace Cert.Vgae.Ref

open Idealize.ShloMosaic Idealize.ShloMosaic.ValueIdx Cert.ReferenceIdeal Cert.ReferenceIdeal.Read

/-! ## Each matrix product of the reference, read at coordinates -/

/-- `X · Wb` at row `r`, column `l`. -/
theorem v0_at (x1 : (⟨S10000x128, .f32⟩ : BufTy).Contents (Elt Ideal)) (x2 : (⟨S128x64, .f32⟩ : BufTy).Contents (Elt Ideal))
    (r : Fin 10000) (l : Fin 64) :
    val_main_v0 (F := Ideal) x1 x2 (ix2 r l) = ∑ d : Fin 128, x1 (ix2 r d) * x2 (ix2 d l) := by
  rw [val_main_v0_apply]
  refine Finset.sum_congr rfl fun d _ => ?_
  have el : lidx_main_v0 (ix2 r l) d = ix2 r d := funext fun a => by
    match a with
    | ⟨0, _⟩ => rfl
    | ⟨1, _⟩ => rfl
  have er : ridx_main_v0 (ix2 r l) d = ix2 d l := funext fun a => by
    match a with
    | ⟨0, _⟩ => rfl
    | ⟨1, _⟩ => rfl
  rw [el, er]

/-- `H = adj · (X · Wb)` at row `r`, column `l`. -/
theorem v1_at (x0 : (⟨S10000x10000, .f32⟩ : BufTy).Contents (Elt Ideal)) (x1 : (⟨S10000x128, .f32⟩ : BufTy).Contents (Elt Ideal))
    (x2 : (⟨S128x64, .f32⟩ : BufTy).Contents (Elt Ideal)) (r : Fin 10000) (l : Fin 64) :
    val_main_v1 (F := Ideal) x0 x1 x2 (ix2 r l) = ∑ k : Fin 10000, x0 (ix2 r k) * val_main_v0 (F := Ideal) x1 x2 (ix2 k l) := by
  rw [val_main_v1_apply]
  refine Finset.sum_congr rfl fun k _ => ?_
  have el : lidx_main_v1 (ix2 r l) k = ix2 r k := funext fun a => by
    match a with
    | ⟨0, _⟩ => rfl
    | ⟨1, _⟩ => rfl
  have er : ridx_main_v1 (ix2 r l) k = ix2 k l := funext fun a => by
    match a with
    | ⟨0, _⟩ => rfl
    | ⟨1, _⟩ => rfl
  rw [el, er]

/-- `H · W` at row `r`, column `e`, for a 16-column weight matrix `W`. -/
theorem v2_at (x0 : (⟨S10000x10000, .f32⟩ : BufTy).Contents (Elt Ideal)) (x1 : (⟨S10000x128, .f32⟩ : BufTy).Contents (Elt Ideal))
    (x2 : (⟨S128x64, .f32⟩ : BufTy).Contents (Elt Ideal)) (x3 : (⟨S64x16, .f32⟩ : BufTy).Contents (Elt Ideal))
    (r : Fin 10000) (e : Fin 16) :
    val_main_v2 (F := Ideal) x0 x1 x2 x3 (ix2 r e) = ∑ l : Fin 64, val_main_v1 (F := Ideal) x0 x1 x2 (ix2 r l) * x3 (ix2 l e) := by
  rw [val_main_v2_apply]
  refine Finset.sum_congr rfl fun l _ => ?_
  have el : lidx_main_v2 (ix2 r e) l = ix2 r l := funext fun a => by
    match a with
    | ⟨0, _⟩ => rfl
    | ⟨1, _⟩ => rfl
  have er : ridx_main_v2 (ix2 r e) l = ix2 l e := funext fun a => by
    match a with
    | ⟨0, _⟩ => rfl
    | ⟨1, _⟩ => rfl
  rw [el, er]

/-- `adj · (H · W)` at row `r`, column `e`. -/
theorem v3_at (x0 : (⟨S10000x10000, .f32⟩ : BufTy).Contents (Elt Ideal)) (x1 : (⟨S10000x128, .f32⟩ : BufTy).Contents (Elt Ideal))
    (x2 : (⟨S128x64, .f32⟩ : BufTy).Contents (Elt Ideal)) (x3 : (⟨S64x16, .f32⟩ : BufTy).Contents (Elt Ideal))
    (r : Fin 10000) (e : Fin 16) :
    val_main_v3 (F := Ideal) x0 x1 x2 x3 (ix2 r e) = ∑ k : Fin 10000, x0 (ix2 r k) * val_main_v2 (F := Ideal) x0 x1 x2 x3 (ix2 k e) := by
  rw [val_main_v3_apply]
  refine Finset.sum_congr rfl fun k _ => ?_
  have el : lidx_main_v3 (ix2 r e) k = ix2 r k := funext fun a => by
    match a with
    | ⟨0, _⟩ => rfl
    | ⟨1, _⟩ => rfl
  have er : ridx_main_v3 (ix2 r e) k = ix2 k e := funext fun a => by
    match a with
    | ⟨0, _⟩ => rfl
    | ⟨1, _⟩ => rfl
  rw [el, er]

/-! ## The pre-activation is the twice aggregated 32-column table -/

/-- For a 16-column weight matrix `W` whose column `e` is column `j` of `[Wm | Wl]`, the reference's
    `adj · ((adj · (X · Wb)) · W)` at `(r, e)` is the specification's `adj · (adj · (X · (Wb · [Wm | Wl])))` at `(r, j)`. -/
theorem pre_eq (x0 : (⟨S10000x10000, .f32⟩ : BufTy).Contents (Elt Ideal)) (x1 : (⟨S10000x128, .f32⟩ : BufTy).Contents (Elt Ideal))
    (x2 : (⟨S128x64, .f32⟩ : BufTy).Contents (Elt Ideal)) (x3 x4 W : (⟨S64x16, .f32⟩ : BufTy).Contents (Elt Ideal))
    (h0 : AllReal x0) (h1 : AllReal x1) (h2 : AllReal x2) (hW : AllReal W)
    (r : Fin 10000) (e : Fin 16) (j : Fin 32) (hj : ∀ l : Fin 64, wcat x3 x4 l j = W (ix2 l e)) :
    val_main_v3 (F := Ideal) x0 x1 x2 W (ix2 r e) = aggOf x0 (agg x0 x1 x2 x3 x4) r j := by
  rw [v3_at]
  unfold agg aggOf
  refine Finset.sum_congr rfl fun k _ => congrArg (fun t => x0 (ix2 r k) * t) ?_
  rw [v2_at]
  simp only [v1_at, v0_at]
  unfold proj wc
  simp only [hj]
  exact assoc_ereal (fun k' : Fin 10000 => x0 (ix2 k k')) (fun (k' : Fin 10000) (d : Fin 128) => x1 (ix2 k' d))
    (fun (d : Fin 128) (l : Fin 64) => x2 (ix2 d l)) (fun l : Fin 64 => W (ix2 l e))
    (fun _ => h0 _) (fun _ _ => h1 _) (fun _ _ => h2 _) (fun _ => hW _)

/-- Column `e` of `Wm` is column `e` of `[Wm | Wl]`. -/
theorem wcat_left (x3 x4 : (⟨S64x16, .f32⟩ : BufTy).Contents (Elt Ideal)) (e : Fin 16) (l : Fin 64) :
    wcat x3 x4 l ⟨e.val, by omega⟩ = x3 (ix2 l e) := by
  unfold wcat
  rw [dif_pos (show e.val < 16 from e.isLt)]

/-- Column `e` of `Wl` is column `16 + e` of `[Wm | Wl]`. -/
theorem wcat_right (x3 x4 : (⟨S64x16, .f32⟩ : BufTy).Contents (Elt Ideal)) (e : Fin 16) (l : Fin 64) :
    wcat x3 x4 l ⟨16 + e.val, by omega⟩ = x4 (ix2 l e) := by
  unfold wcat
  rw [dif_neg (show ¬ (16 + e.val < 16) by omega)]
  exact congrArg (fun t => x4 (ix2 l t)) (Fin.ext (by show 16 + e.val - 16 = e.val; omega))

/-! ## The latent sample and the Gram matrix -/

/-- The reference's latent sample at `(r, e)` is the specification's. -/
theorem v10_at (x0 : (⟨S10000x10000, .f32⟩ : BufTy).Contents (Elt Ideal)) (x1 : (⟨S10000x128, .f32⟩ : BufTy).Contents (Elt Ideal))
    (x2 : (⟨S128x64, .f32⟩ : BufTy).Contents (Elt Ideal)) (x3 x4 : (⟨S64x16, .f32⟩ : BufTy).Contents (Elt Ideal))
    (x5 : (⟨S10000x16, .f32⟩ : BufTy).Contents (Elt Ideal))
    (h0 : AllReal x0) (h1 : AllReal x1) (h2 : AllReal x2) (h3 : AllReal x3) (h4 : AllReal x4)
    (r : Fin 10000) (e : Fin 16) :
    val_main_v10 (F := Ideal) x0 x1 x2 x3 x4 x5 (ix2 r e) = lat x0 x1 x2 x3 x4 x5 r e := by
  have hm := pre_eq x0 x1 x2 x3 x4 x3 h0 h1 h2 h3 r e ⟨e.val, by omega⟩ (wcat_left x3 x4 e)
  have hl := pre_eq x0 x1 x2 x3 x4 x4 h0 h1 h2 h4 r e ⟨16 + e.val, by omega⟩ (wcat_right x3 x4 e)
  have h65 : val_main_v6 (F := Ideal) x0 x1 x2 x4 = val_main_v3 (F := Ideal) x0 x1 x2 x4 := rfl
  rw [val_main_v10_apply, val_main_v9_apply, val_main_v8_apply, val_main_v7_apply, val_main_v4_apply,
    val_main_call0_v0_apply, val_main_call1_v0_apply, val_main_call0_cst_apply, val_main_call1_cst_apply, h65, hm, hl]
  simp only [Ideal.addf_def, Ideal.mulf_def, Ideal.maximumf_def, Ideal.hostUnary_exp_def, Ideal.ofBits_def,
    Ideal.ofBits_zero_f32]
  rfl

/-- THE REFERENCE IS THE SPECIFICATION: with every input entry real, the reference's result array is the Gram matrix
    of the specification's latent rows. -/
theorem ref_value (x0 : (⟨Cert.ReferenceIdeal.S10000x10000, .f32⟩ : BufTy).Contents (Elt Ideal))
    (x1 : (⟨Cert.ReferenceIdeal.S10000x128, .f32⟩ : BufTy).Contents (Elt Ideal))
    (x2 : (⟨Cert.ReferenceIdeal.S128x64, .f32⟩ : BufTy).Contents (Elt Ideal))
    (x3 x4 : (⟨Cert.ReferenceIdeal.S64x16, .f32⟩ : BufTy).Contents (Elt Ideal))
    (x5 : (⟨Cert.ReferenceIdeal.S10000x16, .f32⟩ : BufTy).Contents (Elt Ideal))
    (h0 : Cert.Vgae.AllReal x0) (h1 : Cert.Vgae.AllReal x1) (h2 : Cert.Vgae.AllReal x2)
    (h3 : Cert.Vgae.AllReal x3) (h4 : Cert.Vgae.AllReal x4) (h5 : Cert.Vgae.AllReal x5) :
    Cert.ReferenceIdeal.Read.val_main_v12 (F := Ideal) x0 x1 x2 x3 x4 x5 = Cert.Vgae.gram x0 x1 x2 x3 x4 x5 := by
  funext i
  obtain ⟨p, q, rfl⟩ : ∃ (p : Fin 10000) (q : Fin 10000), i = ix2 p q := ⟨i 0, i 1, eq_ix2 i⟩
  rw [val_main_v12_apply]
  show _ = ∑ e : Fin 16, lat x0 x1 x2 x3 x4 x5 p e * lat x0 x1 x2 x3 x4 x5 q e
  refine Finset.sum_congr rfl fun e _ => ?_
  have el : lidx_main_v12 (ix2 p q) e = ix2 p e := funext fun a => by
    match a with
    | ⟨0, _⟩ => rfl
    | ⟨1, _⟩ => rfl
  have er : idx_main_v11 (ridx_main_v12 (ix2 p q) e) = ix2 q e := funext fun a => by
    match a with
    | ⟨0, _⟩ => rfl
    | ⟨1, _⟩ => rfl
  rw [val_main_v11_apply, el, er, v10_at x0 x1 x2 x3 x4 x5 h0 h1 h2 h3 h4, v10_at x0 x1 x2 x3 x4 x5 h0 h1 h2 h3 h4]

end Cert.Vgae.Ref

end
-- ==== Proof.RefRun.lean ====
/-
  The reference program's run ends at the specification: every weakly fair execution of the reference terminates with
  its result array equal to the Gram matrix of the specification's latent rows, the argument arrays unchanged, once
  every argument entry is a real number.
-/
import proofs.«168291_g55903294324759_cont_9to1c4b_598_14_alg».proof.Proof.RefValue

noncomputable section

namespace Cert.Vgae.Ref

open Idealize.ShloMosaic Idealize.SL.Sem

/-- THE REFERENCE'S RUN: it terminates, its result is the specification of the launch contents of its arguments, and
    the arguments end as they started. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD,
      Cert.Vgae.AllReal (m' ((c.tc : Thread Cert.ReferenceIdeal.nD Cert.ReferenceIdeal.τ).loc Cert.ReferenceIdeal.main_arg0))
      ∧ Cert.Vgae.AllReal (m' ((c.tc : Thread Cert.ReferenceIdeal.nD Cert.ReferenceIdeal.τ).loc Cert.ReferenceIdeal.main_arg1))
      ∧ Cert.Vgae.AllReal (m' ((c.tc : Thread Cert.ReferenceIdeal.nD Cert.ReferenceIdeal.τ).loc Cert.ReferenceIdeal.main_arg2))
      ∧ Cert.Vgae.AllReal (m' ((c.tc : Thread Cert.ReferenceIdeal.nD Cert.ReferenceIdeal.τ).loc Cert.ReferenceIdeal.main_arg3))
      ∧ Cert.Vgae.AllReal (m' ((c.tc : Thread Cert.ReferenceIdeal.nD Cert.ReferenceIdeal.τ).loc Cert.ReferenceIdeal.main_arg4))
      ∧ Cert.Vgae.AllReal (m' ((c.tc : Thread Cert.ReferenceIdeal.nD Cert.ReferenceIdeal.τ).loc Cert.ReferenceIdeal.main_arg5))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v12)
          = Cert.Vgae.gram (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c => ⟨by
      obtain ⟨h0, h1, h2, h3, h4, h5⟩ := hreal c
      rw [(h c).1, Cert.ReferenceIdeal.Read.val_main_v12_eq]
      exact ref_value _ _ _ _ _ _ h0 h1 h2 h3 h4 h5, (h c).2⟩)
    (Cert.ReferenceIdeal.Value.run (F := Ideal) m' ρ')

end Cert.Vgae.Ref

end
-- ==== Proof.RefFinite.lean ====
/-
  Finiteness from the precondition.

  The precondition evaluates, for each of the six argument arrays, "every entry has absolute value below +∞" and
  states that the conjunction is true. Read back entry by entry: an extended real whose absolute value is below +∞
  is a real number, so every entry of every argument array is real.
-/
import proofs.«168291_g55903294324759_cont_9to1c4b_598_14_alg».proof.Defs
import proofs.«168291_g55903294324759_cont_9to1c4b_598_14_alg».proof.Proof.Gen.Pre_finite_inputs
import proofs.«168291_g55903294324759_cont_9to1c4b_598_14_alg».proof.Proof.Spec
import Idealize.ShloMosaic.Lib.ReduceAll

noncomputable section

namespace Cert.Vgae.Ref

open Idealize.ShloMosaic Idealize.ShloMosaic.ValueIdx Idealize.SL.Sem

/-- The scalar shape has one index. -/
instance : Subsingleton Cert.Pre_finite_inputs.S_.Idx := ⟨fun a b => funext fun d => d.elim0⟩

/-- The word `0x7F800000` is +∞. -/
theorem top_word : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- One array: if "all entries have absolute value below +∞" evaluates to true, every entry is real. -/
theorem allReal_of_all {a b : Nat} (x : Arr2 a b)
    (hb : Cert.Pre_finite_inputs.S_.BroadcastsInDim ⟨2, ![a, b]⟩ (![] : Fin 0 → Fin 2))
    (hr : (⟨2, ![a, b]⟩ : Shape).ReducesTo [0, 1] Cert.Pre_finite_inputs.S_) (hn : 0 < Cert.Pre_finite_inputs.S_.numel)
    (init : IVec Cert.Pre_finite_inputs.S_ 1)
    (e : Host.reduce IntOp.andi
        (cmpf (F := Ideal) .olt (Host.absf (F := Ideal) (φ := .f32) x)
          (broadcastInDim ⟨2, ![a, b]⟩ ![] hb (constant (F := Ideal) Cert.Pre_finite_inputs.S_ .f32 0x7F800000#32)))
        init hr hn ix0 = 1#1) : AllReal x := by
  intro i
  have hi := Host.reduce_andi_all _ _ hr hn ix0 e i
  exact real_of_abs_lt (x i) hi

/-- The precondition, applied to six arrays, makes every entry of each real. -/
theorem allReal_of_fn [inst : Cert.Pre_finite_inputs.Facts]
    (a0 : FVec Ideal Cert.Pre_finite_inputs.S10000x10000 .f32) (a1 : FVec Ideal Cert.Pre_finite_inputs.S10000x128 .f32)
    (a2 : FVec Ideal Cert.Pre_finite_inputs.S128x64 .f32) (a3 a4 : FVec Ideal Cert.Pre_finite_inputs.S64x16 .f32)
    (a5 : FVec Ideal Cert.Pre_finite_inputs.S10000x16 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  have h' := congrFun h ix0
  dsimp only [Cert.Pre_finite_inputs.fn, Cert.Pre_finite_inputs.fn_part1] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5⟩

/-- FINITENESS FROM THE PRECONDITION: on every device, each of the kernel program's six argument arrays has only real
    entries. -/
theorem allReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Vgae.AllReal (m ((c.tc : Thread Cert.KernelIdeal.nD Cert.KernelIdeal.τ).loc Cert.KernelIdeal.main_arg0))
    ∧ Cert.Vgae.AllReal (m ((c.tc : Thread Cert.KernelIdeal.nD Cert.KernelIdeal.τ).loc Cert.KernelIdeal.main_arg1))
    ∧ Cert.Vgae.AllReal (m ((c.tc : Thread Cert.KernelIdeal.nD Cert.KernelIdeal.τ).loc Cert.KernelIdeal.main_arg2))
    ∧ Cert.Vgae.AllReal (m ((c.tc : Thread Cert.KernelIdeal.nD Cert.KernelIdeal.τ).loc Cert.KernelIdeal.main_arg3))
    ∧ Cert.Vgae.AllReal (m ((c.tc : Thread Cert.KernelIdeal.nD Cert.KernelIdeal.τ).loc Cert.KernelIdeal.main_arg4))
    ∧ Cert.Vgae.AllReal (m ((c.tc : Thread Cert.KernelIdeal.nD Cert.KernelIdeal.τ).loc Cert.KernelIdeal.main_arg5)) :=
  allReal_of_fn (inst := Cert.Pre_finite_inputs.Gen.facts) _ _ _ _ _ _ (h c)

/-- The same for the reference program's argument arrays. -/
theorem allReal_of_pre_ref (m : (ℓ : Loc Cert.ReferenceIdeal.nD Cert.ReferenceIdeal.τ Cert.ReferenceIdeal.sig) → Buf (Elt Ideal) ℓ)
    (h : Cert.Pre_ReferenceIdeal (hPre_finite_inputs := Cert.Pre_finite_inputs.Gen.facts) m) (c : Dev Cert.ReferenceIdeal.nD) :
    Cert.Vgae.AllReal (m ((c.tc : Thread Cert.ReferenceIdeal.nD Cert.ReferenceIdeal.τ).loc Cert.ReferenceIdeal.main_arg0))
    ∧ Cert.Vgae.AllReal (m ((c.tc : Thread Cert.ReferenceIdeal.nD Cert.ReferenceIdeal.τ).loc Cert.ReferenceIdeal.main_arg1))
    ∧ Cert.Vgae.AllReal (m ((c.tc : Thread Cert.ReferenceIdeal.nD Cert.ReferenceIdeal.τ).loc Cert.ReferenceIdeal.main_arg2))
    ∧ Cert.Vgae.AllReal (m ((c.tc : Thread Cert.ReferenceIdeal.nD Cert.ReferenceIdeal.τ).loc Cert.ReferenceIdeal.main_arg3))
    ∧ Cert.Vgae.AllReal (m ((c.tc : Thread Cert.ReferenceIdeal.nD Cert.ReferenceIdeal.τ).loc Cert.ReferenceIdeal.main_arg4))
    ∧ Cert.Vgae.AllReal (m ((c.tc : Thread Cert.ReferenceIdeal.nD Cert.ReferenceIdeal.τ).loc Cert.ReferenceIdeal.main_arg5)) :=
  allReal_of_fn (inst := Cert.Pre_finite_inputs.Gen.facts) _ _ _ _ _ _ (h c)

end Cert.Vgae.Ref

end
-- ==== Proof.lean ====
/-
  The variational graph auto-encoder's forward pass: a kernel of two calls against its plain reference.

  The kernel computes the latent sample through one 32-column table: `proj = X · (Wb · [Wm | Wl])`, `agg = adj · proj`,
  `act = max (adj · agg) 0`, `lat = noise · exp (act[:, 16:]) + act[:, :16]`, and returns the Gram matrix `lat · latᵀ`.
  The reference computes `H = adj · (X · Wb)`, then `max (adj · (H · Wm)) 0` and `max (adj · (H · Wl)) 0` separately.
  The two agree by associativity of the matrix product, a law of the reals: over the extended reals it needs every input
  entry finite, which the precondition states.  No float literal differs between the two programs, and the idealization
  rewrote nothing, so `preserves` is trivial.

  The frames: the first call is gridless and stores its output whole.  The second call has 105 grid points in four
  phases and carries a scratch from point to point; its invariant holds the scratch at contents that agree, on the rows
  stored so far, with the whole-array functions written through the body's own arithmetic, so that one proof, for any float
  instance, gives the frame of the word-level program, the frame of the idealized one, and (at the ideal instance) the
  value of the result.
-/
import proofs.«168291_g55903294324759_cont_9to1c4b_598_14_alg».proof.Defs
import proofs.«168291_g55903294324759_cont_9to1c4b_598_14_alg».proof.Proof.Gen.Kernel
import proofs.«168291_g55903294324759_cont_9to1c4b_598_14_alg».proof.Proof.Gen.KernelIdeal
import proofs.«168291_g55903294324759_cont_9to1c4b_598_14_alg».proof.Proof.Gen.ReferenceIdeal
import proofs.«168291_g55903294324759_cont_9to1c4b_598_14_alg».proof.Proof.Gen.Pre_finite_inputs
import proofs.«168291_g55903294324759_cont_9to1c4b_598_14_alg».proof.Proof.K.Final
import proofs.«168291_g55903294324759_cont_9to1c4b_598_14_alg».proof.Proof.KI.FinalIdeal
import proofs.«168291_g55903294324759_cont_9to1c4b_598_14_alg».proof.Proof.RefRun
import proofs.«168291_g55903294324759_cont_9to1c4b_598_14_alg».proof.Proof.RefFinite
import Idealize.ShloMosaic.Adequacy
import Idealize.ShloMosaic.Init

noncomputable section

namespace Cert.Proof

open Idealize.ShloMosaic Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Final.frame (F := Bits) m ρ

/-- The idealized program's frame. -/
theorem frame_ki : Cert.frame_KernelIdeal (hKernelIdeal := Cert.KernelIdeal.Gen.facts) (hPre_finite_inputs := Cert.Pre_finite_inputs.Gen.facts) :=
  fun m ρ _ => Cert.KernelIdeal.Final.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, of which the precondition holds, both programs end with the Gram matrix of the
    specification's latent rows: the kernel by its run, the reference by associativity of the matrix product on finite
    entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := Cert.Vgae.Ref.allReal_of_pre m hpre
  refine ⟨_, Cert.KernelIdeal.Final.value m ρ, ?_⟩
  refine (θ_run Cert.ReferenceIdeal.defs _ _).mono (fun r h c => ⟨(h c).1.trans ?_, (h c).2⟩)
    (Cert.Vgae.Ref.ref_run m' ρ' (fun c => by
      rw [(hagree c).1, (hagree c).2.1, (hagree c).2.2.1, (hagree c).2.2.2.1, (hagree c).2.2.2.2.1, (hagree c).2.2.2.2.2]
      exact hreal c))
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
